-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v117_0)) (v1 : (c : Dev Cert.KernelIdeal.nD) → Buf (Elt Ideal) ((c.tc : Thread Cert.KernelIdeal.nD Cert.KernelIdeal.τ).loc Cert.KernelIdeal.main_v121)) (v2 : (c : Dev Cert.KernelIdeal.nD) → Buf (Elt Ideal) ((c.tc : Thread Cert.KernelIdeal.nD Cert.KernelIdeal.τ).loc Cert.KernelIdeal.main_v120)) (v3 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_0) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_v120) = v2 c
          ∧ r.2.mem ((c.tc : Thread Cert.KernelIdeal.nD Cert.KernelIdeal.τ).loc Cert.KernelIdeal.main_v115) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : FVec F S1000000x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  main_v3
-- ==== Kernel.lean ====
abbrev S1000000x3 : Shape := ⟨2, ![1000000, 3]⟩
abbrev S3 : Shape := ⟨1, ![3]⟩
abbrev S1x3 : Shape := ⟨2, ![1, 3]⟩
abbrev S_ : Shape := ⟨0, ![]⟩
abbrev S1000000 : Shape := ⟨1, ![1000000]⟩
abbrev S1000000x1 : Shape := ⟨2, ![1000000, 1]⟩
abbrev S1 : Shape := ⟨1, ![1]⟩
abbrev S999999 : Shape := ⟨1, ![999999]⟩
abbrev S500000x32x3 : Shape := ⟨3, ![500000, 32, 3]⟩
abbrev S1000000x2 : Shape := ⟨2, ![1000000, 2]⟩
abbrev S500000 : Shape := ⟨1, ![500000]⟩
abbrev S500000x3 : Shape := ⟨2, ![500000, 3]⟩
abbrev S500000x1 : Shape := ⟨2, ![500000, 1]⟩
abbrev S500000x32x6 : Shape := ⟨3, ![500000, 32, 6]⟩
abbrev S500000x32 : Shape := ⟨2, ![500000, 32]⟩
abbrev S400x32x3 : Shape := ⟨3, ![400, 32, 3]⟩
abbrev S400x1 : Shape := ⟨2, ![400, 1]⟩
abbrev S400x32x6 : Shape := ⟨3, ![400, 32, 6]⟩
abbrev S400x32 : Shape := ⟨2, ![400, 32]⟩
abbrev S400x3 : Shape := ⟨2, ![400, 3]⟩
abbrev S400x1x3 : Shape := ⟨3, ![400, 1, 3]⟩
abbrev S400x32x1 : Shape := ⟨3, ![400, 32, 1]⟩
abbrev S500000x4 : Shape := ⟨2, ![500000, 4]⟩

abbrev nBuf : Space → Nat
  | .hbm => 173
  | .vmem => 8
  | .smem => 0
  | _ => 0

abbrev hbmTy0_0 (i : Nat) : BufTy := match i % 128 with
  | 0 => ⟨S1000000x3, .f32⟩
  | 1 => ⟨S3, .f32⟩
  | 2 => ⟨S3, .f32⟩
  | 3 => ⟨S3, .f32⟩
  | 4 => ⟨S1x3, .f32⟩
  | 5 => ⟨S1000000x3, .f32⟩
  | 6 => ⟨S1000000x3, .f32⟩
  | 7 => ⟨S1x3, .f32⟩
  | 8 => ⟨S1000000x3, .f32⟩
  | 9 => ⟨S1000000x3, .f32⟩
  | 10 => ⟨S1000000x3, .f32⟩
  | 11 => ⟨S1000000x3, .i32⟩
  | 12 => ⟨S3, .f32⟩
  | 13 => ⟨S3, .f32⟩
  | 14 => ⟨S1x3, .f32⟩
  | 15 => ⟨S1000000x3, .f32⟩
  | 16 => ⟨S1000000x3, .i1⟩
  | 17 => ⟨S1x3, .f32⟩
  | 18 => ⟨S1000000x3, .f32⟩
  | 19 => ⟨S1000000x3, .i1⟩
  | 20 => ⟨S1000000x3, .i1⟩
  | 21 => ⟨S_, .i1⟩
  | 22 => ⟨S1000000, .i1⟩
  | 23 => ⟨S1000000x1, .i32⟩
  | 24 => ⟨S1000000, .i32⟩
  | 25 => ⟨S_, .i32⟩
  | 26 => ⟨S1000000, .i32⟩
  | 27 => ⟨S1000000, .i32⟩
  | 28 => ⟨S1000000x1, .i32⟩
  | 29 => ⟨S1000000, .i32⟩
  | 30 => ⟨S1000000, .i32⟩
  | 31 => ⟨S_, .i32⟩
  | 32 => ⟨S1000000, .i32⟩
  | 33 => ⟨S1000000, .i32⟩
  | 34 => ⟨S1000000x1, .i32⟩
  | 35 => ⟨S1000000, .i32⟩
  | 36 => ⟨S1000000, .i32⟩
  | 37 => ⟨S_, .i32⟩
  | 38 => ⟨S_, .i32⟩
  | 39 => ⟨S1000000, .i32⟩
  | 40 => ⟨S1000000, .i32⟩
  | 41 => ⟨S1000000, .i32⟩
  | 42 => ⟨S1000000, .i32⟩
  | 43 => ⟨S1000000, .i32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x3, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x3, .i32⟩
  | 71 => ⟨S_, .i32⟩
  | 72 => ⟨S1000000, .i32⟩
  | 73 => ⟨S1000000, .i1⟩
  | 74 => ⟨S_, .i1⟩
  | 75 => ⟨S1, .i1⟩
  | 76 => ⟨S999999, .i32⟩
  | 77 => ⟨S999999, .i32⟩
  | 78 => ⟨S999999, .i1⟩
  | 79 => ⟨S1000000, .i1⟩
  | 80 => ⟨S1000000, .i32⟩
  | 81 => ⟨S_, .i32⟩
  | 82 => ⟨S_, .i32⟩
  | 83 => ⟨S1000000, .i32⟩
  | 84 => ⟨S_, .i32⟩
  | 85 => ⟨S1000000, .i32⟩
  | 86 => ⟨S1000000, .i32⟩
  | 87 => ⟨S1000000, .i32⟩
  | 88 => ⟨S_, .i32⟩
  | 89 => ⟨S_, .i32⟩
  | 90 => ⟨S1000000, .i32⟩
  | 91 => ⟨S1000000, .i32⟩
  | 92 => ⟨S_, .i32⟩
  | 93 => ⟨S_, .i32⟩
  | 94 => ⟨S1000000, .i32⟩
  | 95 => ⟨S1000000, .i32⟩
  | 96 => ⟨S_, .i32⟩
  | 97 => ⟨S_, .i32⟩
  | 98 => ⟨S1000000, .i32⟩
  | 99 => ⟨S1000000, .i32⟩
  | 100 => ⟨S_, .f32⟩
  | 101 => ⟨S500000x32x3, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x1, .i32⟩
  | 118 => ⟨S1000000x2, .i32⟩
  | 119 => ⟨S500000x32x3, .f32⟩
  | 120 => ⟨S_, .i32⟩
  | 121 => ⟨S1000000, .i32⟩
  | 122 => ⟨S1000000, .i1⟩
  | 123 => ⟨S1000000, .i1⟩
  | 124 => ⟨S1000000, .i32⟩
  | 125 => ⟨S_, .i32⟩
  | 126 => ⟨S500000, .i32⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S500000, .i32⟩
  | 8 => ⟨S1000000, .i1⟩
  | 9 => ⟨S_, .i32⟩
  | 10 => ⟨S_, .i32⟩
  | 11 => ⟨S1000000, .i32⟩
  | 12 => ⟨S1000000, .i32⟩
  | 13 => ⟨S_, .i32⟩
  | 14 => ⟨S500000x3, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S500000x3, .i32⟩
  | 24 => ⟨S500000x3, .f32⟩
  | 25 => ⟨S1x3, .f32⟩
  | 26 => ⟨S500000x3, .f32⟩
  | 27 => ⟨S500000x3, .f32⟩
  | 28 => ⟨S_, .f32⟩
  | 29 => ⟨S3, .f32⟩
  | 30 => ⟨S3, .f32⟩
  | 31 => ⟨S3, .f32⟩
  | 32 => ⟨S1x3, .f32⟩
  | 33 => ⟨S500000x3, .f32⟩
  | 34 => ⟨S500000x3, .f32⟩
  | 35 => ⟨S500000x1, .i32⟩
  | 36 => ⟨S500000x32x6, .f32⟩
  | 37 => ⟨S500000x32, .i32⟩
  | 38 => ⟨S_, .i32⟩
  | 39 => ⟨S500000x32, .i32⟩
  | 40 => ⟨S500000x32, .i1⟩
  | 41 => ⟨S500000x32, .i1⟩
  | 42 => ⟨S_, .i32⟩
  | 43 => ⟨S_, .i32⟩
  | 44 => ⟨S500000x4, .i32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | .local _ .vmem, ⟨0, _⟩ => ⟨S400x32x3, .f32⟩
  | .local _ .vmem, ⟨1, _⟩ => ⟨S400x32x3, .f32⟩
  | .local _ .vmem, ⟨2, _⟩ => ⟨S400x1, .i32⟩
  | .local _ .vmem, ⟨3, _⟩ => ⟨S400x1, .i32⟩
  | .local _ .vmem, ⟨4, _⟩ => ⟨S400x32x6, .f32⟩
  | .local _ .vmem, ⟨5, _⟩ => ⟨S400x32x6, .f32⟩
  | .local _ .vmem, ⟨6, _⟩ => ⟨S400x32, .i32⟩
  | .local _ .vmem, ⟨7, _⟩ => ⟨S400x32, .i32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_call1_v0 : Ref sig .tc := ⟨.hbm, 41, rfl⟩
abbrev main_call1_v1_0 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_call0_c : Ref sig .tc := ⟨.hbm, 81, rfl⟩
abbrev main_call2_call0_v0 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_14 : Ref sig .tc := ⟨.hbm, 88, rfl⟩
abbrev main_call3_v0 : Ref sig .tc := ⟨.hbm, 89, rfl⟩
abbrev main_call3_v1 : Ref sig .tc := ⟨.hbm, 90, rfl⟩
abbrev main_v65 : Ref sig .tc := ⟨.hbm, 91, rfl⟩
abbrev main_call4_c : Ref sig .tc := ⟨.hbm, 92, rfl⟩
abbrev main_call4_v0 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_call5_v0 : Ref sig .tc := ⟨.hbm, 97, rfl⟩
abbrev main_call5_v1 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_22 : Ref sig .tc := ⟨.hbm, 125, rfl⟩
abbrev main_v88 : Ref sig .tc := ⟨.hbm, 126, rfl⟩
abbrev main_c_23 : Ref sig .tc := ⟨.hbm, 127, rfl⟩
abbrev main_v89 : Ref sig .tc := ⟨.hbm, 128, rfl⟩
abbrev main_v90 : Ref sig .tc := ⟨.hbm, 129, rfl⟩
abbrev main_c_24 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_call6_v0 : Ref sig .tc := ⟨.hbm, 138, rfl⟩
abbrev main_call6_v1 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_c_27 : Ref sig .tc := ⟨.hbm, 143, rfl⟩
abbrev main_v99 : Ref sig .tc := ⟨.hbm, 144, rfl⟩
abbrev main_v100 : Ref sig .tc := ⟨.hbm, 145, rfl⟩
abbrev main_c_28 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_29 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117_0 : Ref sig .tc := ⟨.hbm, 164, rfl⟩
abbrev main_v117_1 : Ref sig .tc := ⟨.hbm, 165, rfl⟩
abbrev main_c_30 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_31 : Ref sig .tc := ⟨.hbm, 170, rfl⟩
abbrev main_call7_v0 : Ref sig .tc := ⟨.hbm, 171, rfl⟩
abbrev main_v121 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x32x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  slices_S1000000x3_S1000000x1_0_0 : S1000000x3.Slices ![0, 0] S1000000x1
  shapeCasts_S1000000x1_S1000000 : S1000000x1.ShapeCasts S1000000
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  bcast_S_S1 : S_.BroadcastsInDim S1 (![] : Fin 0 → Fin S1.rank)
  slices_S1000000_S999999_1 : S1000000.Slices ![1] S999999
  slices_S1000000_S999999_0 : S1000000.Slices ![0] S999999
  concatenates_S1_S999999_S1000000_d0 : Shape.Concatenates [S1, S999999] S1000000 0
  natLt_1_32 : 1 < 32
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  bcast_S_S500000x32x3 : S_.BroadcastsInDim S500000x32x3 (![] : Fin 0 → Fin S500000x32x3.rank)
  concatenates_S1000000x1_S1000000x1_S1000000x2_d1 : Shape.Concatenates [S1000000x1, S1000000x1] S1000000x2 1
  bcast_S_S500000 : S_.BroadcastsInDim S500000 (![] : Fin 0 → Fin S500000.rank)
  bcast_S_S500000x3 : S_.BroadcastsInDim S500000x3 (![] : Fin 0 → Fin S500000x3.rank)
  bcast_S1x3_S500000x3_0_1 : S1x3.BroadcastsInDim S500000x3 (![0, 1] : Fin 2 → Fin S500000x3.rank)
  bcast_S_S3 : S_.BroadcastsInDim S3 (![] : Fin 0 → Fin S3.rank)
  shapeCasts_S500000_S500000x1 : S500000.ShapeCasts S500000x1
  inb_S400x32x3_S400x32x3_0_0_0 : ∀ a, (![0, 0, 0] : Fin 3 → Nat) a + S400x32x3.size a ≤ S400x32x3.size a
  h_S400x32x3 : 0 < S400x32x3.numel
  shapeCasts_S400x32x3_S400x32x3 : S400x32x3.ShapeCasts S400x32x3
  inb_S400x1_S400x1_0_0 : ∀ a, (![0, 0] : Fin 2 → Nat) a + S400x1.size a ≤ S400x1.size a
  h_S400x1 : 0 < S400x1.numel
  shapeCasts_S400x1_S400x1 : S400x1.ShapeCasts S400x1
  reduces_S400x32x3_S400x3 : S400x32x3.Reduces [1] S400x3
  broadcasts_S400x1_S400x3 : S400x1.Broadcasts S400x3
  shapeCasts_S400x3_S400x1x3 : S400x3.ShapeCasts S400x1x3
  iota_S400x32_d1_w32 : S400x32.Iotas .tc 32 [1]
  broadcasts_S400x1_S400x32 : S400x1.Broadcasts S400x32
  shapeCasts_S400x32_S400x32x1 : S400x32.ShapeCasts S400x32x1
  broadcasts_S400x1x3_S400x32x3 : S400x1x3.Broadcasts S400x32x3
  broadcasts_S400x32x1_S400x32x3 : S400x32x1.Broadcasts S400x32x3
  inb_S400x32x6_S400x32x3_0_0_0 : ∀ a, (![0, 0, 0] : Fin 3 → Nat) a + S400x32x3.size a ≤ S400x32x6.size a
  inb_S400x32x6_S400x32x3_0_0_3 : ∀ a, (![0, 0, 3] : Fin 3 → Nat) a + S400x32x3.size a ≤ S400x32x6.size a
  inb_S400x32_S400x32_0_0 : ∀ a, (![0, 0] : Fin 2 → Nat) a + S400x32.size a ≤ S400x32.size a
  h_S400x32 : 0 < S400x32.numel
  bcast_S_S500000x32 : S_.BroadcastsInDim S500000x32 (![] : Fin 0 → Fin S500000x32.rank)
  pads_S500000x3_S500000x4_000_100 : S500000x3.Pads (![0, 1] : Fin 2 → Nat) ![0, 0] ![0, 0] S500000x4
  gather_S1000000_S1000000x1_S1000000_n_0_n_n_0_1_1_wf : GatherDims.WF S1000000 S1000000x1 S1000000 [] [0] [] [0] [] 1 ![1]
  gather_S1000000x3_S1000000x1_S1000000x3_1_0_n_n_0_1_13_wf : GatherDims.WF S1000000x3 S1000000x1 S1000000x3 [1] [0] [] [0] [] 1 ![1, 3]
  scatter_S500000x32x3_S1000000x2_S1000000x3_1_01_01_1_wf : ScatterDims.WF S500000x32x3 S1000000x2 S1000000x3 [1] [0, 1] [0, 1] 1
  scatter_S500000_S1000000x1_S1000000_n_0_0_1_wf : ScatterDims.WF S500000 S1000000x1 S1000000 [] [0] [0] 1
  scatter_S500000x3_S1000000x1_S1000000x3_1_0_0_1_wf : ScatterDims.WF S500000x3 S1000000x1 S1000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32x3.size a ≤ S500000x32x3.size a
  hwx0_0 : ∀ i : grid0.Coords, EltTy.bits .f32 = 32 ∨ (Rect.block (s := S500000x32x3) S400x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S500000x1.size a
  hwx0_1 : ∀ i : grid0.Coords, EltTy.bits .i32 = 32 ∨ (Rect.block (s := S500000x1) S400x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32x6.size a ≤ S500000x32x6.size a
  hwx0_2 : ∀ i : grid0.Coords, EltTy.bits .f32 = 32 ∨ (Rect.block (s := S500000x32x6) S400x32x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x32.size a ≤ S500000x32.size a
  hwx0_3 : ∀ i : grid0.Coords, EltTy.bits .i32 = 32 ∨ (Rect.block (s := S500000x32) S400x32.size (cc0_transform_3 i) (hinb0_3 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def gather_S1000000x3_S1000000x1_S1000000x3_1_0_n_n_0_1_13 : GatherDims S1000000x3 S1000000x1 S1000000x3 where
  offsetDims := [1]
  collapsedSliceDims := [0]
  operandBatchingDims := []
  startIndicesBatchingDims := []
  startIndexMap := [0]
  indexVectorDim := 1
  sliceSizes := ![1, 3]
  wf := gather_S1000000x3_S1000000x1_S1000000x3_1_0_n_n_0_1_13_wf
def scatter_S500000x32x3_S1000000x2_S1000000x3_1_01_01_1 : ScatterDims S500000x32x3 S1000000x2 S1000000x3 where
  updateWindowDims := [1]
  insertedWindowDims := [0, 1]
  scatterDimsToOperandDims := [0, 1]
  indexVectorDim := 1
  wf := scatter_S500000x32x3_S1000000x2_S1000000x3_1_01_01_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S500000x3_S1000000x1_S1000000x3_1_0_0_1 : ScatterDims S500000x3 S1000000x1 S1000000x3 where
  updateWindowDims := [1]
  insertedWindowDims := [0]
  scatterDimsToOperandDims := [0]
  indexVectorDim := 1
  wf := scatter_S500000x3_S1000000x1_S1000000x3_1_0_0_1_wf

abbrev win0_0 : Pipeline.Window sig grid0 :=
  Pipeline.Window.ofSpec (Memref.whole main_v83) S400x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v116) S400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v117_0) S400x32x6.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v117_1) S400x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S3 : Shape := ⟨1, ![3]⟩
abbrev S1x3 : Shape := ⟨2, ![1, 3]⟩
abbrev S_ : Shape := ⟨0, ![]⟩
abbrev S1000000 : Shape := ⟨1, ![1000000]⟩
abbrev S1000000x1 : Shape := ⟨2, ![1000000, 1]⟩
abbrev S1 : Shape := ⟨1, ![1]⟩
abbrev S999999 : Shape := ⟨1, ![999999]⟩
abbrev S500000x32x3 : Shape := ⟨3, ![500000, 32, 3]⟩
abbrev S1000000x2 : Shape := ⟨2, ![1000000, 2]⟩
abbrev S500000 : Shape := ⟨1, ![500000]⟩
abbrev S500000x3 : Shape := ⟨2, ![500000, 3]⟩
abbrev S32 : Shape := ⟨1, ![32]⟩
abbrev S1x32 : Shape := ⟨2, ![1, 32]⟩
abbrev S500000x1 : Shape := ⟨2, ![500000, 1]⟩
abbrev S500000x32 : Shape := ⟨2, ![500000, 32]⟩
abbrev S500000x1x3 : Shape := ⟨3, ![500000, 1, 3]⟩
abbrev S500000x1x1 : Shape := ⟨3, ![500000, 1, 1]⟩
abbrev S500000x32x1 : Shape := ⟨3, ![500000, 32, 1]⟩
abbrev S500000x32x6 : Shape := ⟨3, ![500000, 32, 6]⟩
abbrev S500000x4 : Shape := ⟨2, ![500000, 4]⟩

abbrev nBuf : Space → Nat
  | .hbm => 189
  | .vmem => 0
  | .smem => 0
  | _ => 0

abbrev hbmTy0_0 (i : Nat) : BufTy := match i % 128 with
  | 0 => ⟨S1000000x3, .f32⟩
  | 1 => ⟨S3, .f32⟩
  | 2 => ⟨S3, .f32⟩
  | 3 => ⟨S3, .f32⟩
  | 4 => ⟨S1x3, .f32⟩
  | 5 => ⟨S1000000x3, .f32⟩
  | 6 => ⟨S1000000x3, .f32⟩
  | 7 => ⟨S1x3, .f32⟩
  | 8 => ⟨S1000000x3, .f32⟩
  | 9 => ⟨S1000000x3, .f32⟩
  | 10 => ⟨S1000000x3, .f32⟩
  | 11 => ⟨S1000000x3, .i32⟩
  | 12 => ⟨S3, .f32⟩
  | 13 => ⟨S3, .f32⟩
  | 14 => ⟨S1x3, .f32⟩
  | 15 => ⟨S1000000x3, .f32⟩
  | 16 => ⟨S1000000x3, .i1⟩
  | 17 => ⟨S1x3, .f32⟩
  | 18 => ⟨S1000000x3, .f32⟩
  | 19 => ⟨S1000000x3, .i1⟩
  | 20 => ⟨S1000000x3, .i1⟩
  | 21 => ⟨S_, .i1⟩
  | 22 => ⟨S1000000, .i1⟩
  | 23 => ⟨S1000000x1, .i32⟩
  | 24 => ⟨S1000000, .i32⟩
  | 25 => ⟨S_, .i32⟩
  | 26 => ⟨S1000000, .i32⟩
  | 27 => ⟨S1000000, .i32⟩
  | 28 => ⟨S1000000x1, .i32⟩
  | 29 => ⟨S1000000, .i32⟩
  | 30 => ⟨S1000000, .i32⟩
  | 31 => ⟨S_, .i32⟩
  | 32 => ⟨S1000000, .i32⟩
  | 33 => ⟨S1000000, .i32⟩
  | 34 => ⟨S1000000x1, .i32⟩
  | 35 => ⟨S1000000, .i32⟩
  | 36 => ⟨S1000000, .i32⟩
  | 37 => ⟨S_, .i32⟩
  | 38 => ⟨S_, .i32⟩
  | 39 => ⟨S1000000, .i32⟩
  | 40 => ⟨S1000000, .i32⟩
  | 41 => ⟨S1000000, .i32⟩
  | 42 => ⟨S1000000, .i32⟩
  | 43 => ⟨S1000000, .i32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x3, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x3, .i32⟩
  | 71 => ⟨S_, .i32⟩
  | 72 => ⟨S1000000, .i32⟩
  | 73 => ⟨S1000000, .i1⟩
  | 74 => ⟨S_, .i1⟩
  | 75 => ⟨S1, .i1⟩
  | 76 => ⟨S999999, .i32⟩
  | 77 => ⟨S999999, .i32⟩
  | 78 => ⟨S999999, .i1⟩
  | 79 => ⟨S1000000, .i1⟩
  | 80 => ⟨S1000000, .i32⟩
  | 81 => ⟨S_, .i32⟩
  | 82 => ⟨S_, .i32⟩
  | 83 => ⟨S1000000, .i32⟩
  | 84 => ⟨S_, .i32⟩
  | 85 => ⟨S1000000, .i32⟩
  | 86 => ⟨S1000000, .i32⟩
  | 87 => ⟨S1000000, .i32⟩
  | 88 => ⟨S_, .i32⟩
  | 89 => ⟨S_, .i32⟩
  | 90 => ⟨S1000000, .i32⟩
  | 91 => ⟨S1000000, .i32⟩
  | 92 => ⟨S_, .i32⟩
  | 93 => ⟨S_, .i32⟩
  | 94 => ⟨S1000000, .i32⟩
  | 95 => ⟨S1000000, .i32⟩
  | 96 => ⟨S_, .i32⟩
  | 97 => ⟨S_, .i32⟩
  | 98 => ⟨S1000000, .i32⟩
  | 99 => ⟨S1000000, .i32⟩
  | 100 => ⟨S_, .f32⟩
  | 101 => ⟨S500000x32x3, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x1, .i32⟩
  | 118 => ⟨S1000000x2, .i32⟩
  | 119 => ⟨S500000x32x3, .f32⟩
  | 120 => ⟨S_, .i32⟩
  | 121 => ⟨S1000000, .i32⟩
  | 122 => ⟨S1000000, .i1⟩
  | 123 => ⟨S1000000, .i1⟩
  | 124 => ⟨S1000000, .i32⟩
  | 125 => ⟨S_, .i32⟩
  | 126 => ⟨S500000, .i32⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S500000, .i32⟩
  | 8 => ⟨S1000000, .i1⟩
  | 9 => ⟨S_, .i32⟩
  | 10 => ⟨S_, .i32⟩
  | 11 => ⟨S1000000, .i32⟩
  | 12 => ⟨S1000000, .i32⟩
  | 13 => ⟨S_, .i32⟩
  | 14 => ⟨S500000x3, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S500000x3, .i32⟩
  | 24 => ⟨S500000x3, .f32⟩
  | 25 => ⟨S1x3, .f32⟩
  | 26 => ⟨S500000x3, .f32⟩
  | 27 => ⟨S500000x3, .f32⟩
  | 28 => ⟨S_, .f32⟩
  | 29 => ⟨S3, .f32⟩
  | 30 => ⟨S3, .f32⟩
  | 31 => ⟨S3, .f32⟩
  | 32 => ⟨S1x3, .f32⟩
  | 33 => ⟨S500000x3, .f32⟩
  | 34 => ⟨S500000x3, .f32⟩
  | 35 => ⟨S32, .i32⟩
  | 36 => ⟨S1x32, .i32⟩
  | 37 => ⟨S500000x1, .i32⟩
  | 38 => ⟨S500000x32, .i32⟩
  | 39 => ⟨S500000x32, .i32⟩
  | 40 => ⟨S500000x32, .i1⟩
  | 41 => ⟨S_, .i32⟩
  | 42 => ⟨S500000, .i32⟩
  | 43 => ⟨S500000, .i32⟩
  | 44 => ⟨S500000, .f32⟩
  | 45 => ⟨S_, .f32⟩
  | 46 => ⟨S500000x3, .f32⟩
  | 47 => ⟨S500000x1x3, .f32⟩
  | 48 => ⟨S500000x1x1, .f32⟩
  | 49 => ⟨S500000x1x3, .f32⟩
  | 50 => ⟨S500000x1x3, .f32⟩
  | 51 => ⟨S500000x32x3, .f32⟩
  | 52 => ⟨S500000x32x3, .f32⟩
  | 53 => ⟨S500000x32x1, .i1⟩
  | 54 => ⟨S500000x32x1, .f32⟩
  | 55 => ⟨S500000x32x3, .f32⟩
  | 56 => ⟨S500000x32x3, .f32⟩
  | 57 => ⟨S500000x32x6, .f32⟩
  | 58 => ⟨S_, .i32⟩
  | 59 => ⟨S_, .i32⟩
  | 60 => ⟨S500000x4, .i32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_call1_v0 : Ref sig .tc := ⟨.hbm, 41, rfl⟩
abbrev main_call1_v1_0 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_call0_c : Ref sig .tc := ⟨.hbm, 81, rfl⟩
abbrev main_call2_call0_v0 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_14 : Ref sig .tc := ⟨.hbm, 88, rfl⟩
abbrev main_call3_v0 : Ref sig .tc := ⟨.hbm, 89, rfl⟩
abbrev main_call3_v1 : Ref sig .tc := ⟨.hbm, 90, rfl⟩
abbrev main_v65 : Ref sig .tc := ⟨.hbm, 91, rfl⟩
abbrev main_call4_c : Ref sig .tc := ⟨.hbm, 92, rfl⟩
abbrev main_call4_v0 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_call5_v0 : Ref sig .tc := ⟨.hbm, 97, rfl⟩
abbrev main_call5_v1 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_22 : Ref sig .tc := ⟨.hbm, 125, rfl⟩
abbrev main_v88 : Ref sig .tc := ⟨.hbm, 126, rfl⟩
abbrev main_c_23 : Ref sig .tc := ⟨.hbm, 127, rfl⟩
abbrev main_v89 : Ref sig .tc := ⟨.hbm, 128, rfl⟩
abbrev main_v90 : Ref sig .tc := ⟨.hbm, 129, rfl⟩
abbrev main_c_24 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_call6_v0 : Ref sig .tc := ⟨.hbm, 138, rfl⟩
abbrev main_call6_v1 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_c_27 : Ref sig .tc := ⟨.hbm, 143, rfl⟩
abbrev main_v99 : Ref sig .tc := ⟨.hbm, 144, rfl⟩
abbrev main_v100 : Ref sig .tc := ⟨.hbm, 145, rfl⟩
abbrev main_c_28 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_29 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_30 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_31 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_32 : Ref sig .tc := ⟨.hbm, 186, rfl⟩
abbrev main_call7_v0 : Ref sig .tc := ⟨.hbm, 187, rfl⟩
abbrev main_v137 : Ref sig .tc := ⟨.hbm, 188, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  slices_S1000000x3_S1000000x1_0_0 : S1000000x3.Slices ![0, 0] S1000000x1
  shapeCasts_S1000000x1_S1000000 : S1000000x1.ShapeCasts S1000000
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  bcast_S_S1 : S_.BroadcastsInDim S1 (![] : Fin 0 → Fin S1.rank)
  slices_S1000000_S999999_1 : S1000000.Slices ![1] S999999
  slices_S1000000_S999999_0 : S1000000.Slices ![0] S999999
  concatenates_S1_S999999_S1000000_d0 : Shape.Concatenates [S1, S999999] S1000000 0
  natLt_1_32 : 1 < 32
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  bcast_S_S500000x32x3 : S_.BroadcastsInDim S500000x32x3 (![] : Fin 0 → Fin S500000x32x3.rank)
  concatenates_S1000000x1_S1000000x1_S1000000x2_d1 : Shape.Concatenates [S1000000x1, S1000000x1] S1000000x2 1
  bcast_S_S500000 : S_.BroadcastsInDim S500000 (![] : Fin 0 → Fin S500000.rank)
  bcast_S_S500000x3 : S_.BroadcastsInDim S500000x3 (![] : Fin 0 → Fin S500000x3.rank)
  bcast_S1x3_S500000x3_0_1 : S1x3.BroadcastsInDim S500000x3 (![0, 1] : Fin 2 → Fin S500000x3.rank)
  bcast_S_S3 : S_.BroadcastsInDim S3 (![] : Fin 0 → Fin S3.rank)
  bcast_S32_S1x32_1 : S32.BroadcastsInDim S1x32 (![1] : Fin 1 → Fin S1x32.rank)
  bcast_S500000_S500000x1_0 : S500000.BroadcastsInDim S500000x1 (![0] : Fin 1 → Fin S500000x1.rank)
  bcast_S1x32_S500000x32_0_1 : S1x32.BroadcastsInDim S500000x32 (![0, 1] : Fin 2 → Fin S500000x32.rank)
  bcast_S500000x1_S500000x32_0_1 : S500000x1.BroadcastsInDim S500000x32 (![0, 1] : Fin 2 → Fin S500000x32.rank)
  reducesTo_S500000x32x3_S500000x3_d1 : S500000x32x3.ReducesTo [1] S500000x3
  bcast_S500000x3_S500000x1x3_0_2 : S500000x3.BroadcastsInDim S500000x1x3 (![0, 2] : Fin 2 → Fin S500000x1x3.rank)
  bcast_S500000_S500000x1x1_0 : S500000.BroadcastsInDim S500000x1x1 (![0] : Fin 1 → Fin S500000x1x1.rank)
  bcast_S500000x1x1_S500000x1x3_0_1_2 : S500000x1x1.BroadcastsInDim S500000x1x3 (![0, 1, 2] : Fin 3 → Fin S500000x1x3.rank)
  bcast_S500000x1x3_S500000x32x3_0_1_2 : S500000x1x3.BroadcastsInDim S500000x32x3 (![0, 1, 2] : Fin 3 → Fin S500000x32x3.rank)
  bcast_S500000x32_S500000x32x1_0_1 : S500000x32.BroadcastsInDim S500000x32x1 (![0, 1] : Fin 2 → Fin S500000x32x1.rank)
  bcast_S500000x32x1_S500000x32x3_0_1_2 : S500000x32x1.BroadcastsInDim S500000x32x3 (![0, 1, 2] : Fin 3 → Fin S500000x32x3.rank)
  concatenates_S500000x32x3_S500000x32x3_S500000x32x6_d2 : Shape.Concatenates [S500000x32x3, S500000x32x3] S500000x32x6 2
  pads_S500000x3_S500000x4_000_100 : S500000x3.Pads (![0, 1] : Fin 2 → Nat) ![0, 0] ![0, 0] S500000x4
  gather_S1000000_S1000000x1_S1000000_n_0_n_n_0_1_1_wf : GatherDims.WF S1000000 S1000000x1 S1000000 [] [0] [] [0] [] 1 ![1]
  gather_S1000000x3_S1000000x1_S1000000x3_1_0_n_n_0_1_13_wf : GatherDims.WF S1000000x3 S1000000x1 S1000000x3 [1] [0] [] [0] [] 1 ![1, 3]
  scatter_S500000x32x3_S1000000x2_S1000000x3_1_01_01_1_wf : ScatterDims.WF S500000x32x3 S1000000x2 S1000000x3 [1] [0, 1] [0, 1] 1
  scatter_S500000_S1000000x1_S1000000_n_0_0_1_wf : ScatterDims.WF S500000 S1000000x1 S1000000 [] [0] [0] 1
  scatter_S500000x3_S1000000x1_S1000000x3_1_0_0_1_wf : ScatterDims.WF S500000x3 S1000000x1 S1000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def gather_S1000000x3_S1000000x1_S1000000x3_1_0_n_n_0_1_13 : GatherDims S1000000x3 S1000000x1 S1000000x3 where
  offsetDims := [1]
  collapsedSliceDims := [0]
  operandBatchingDims := []
  startIndicesBatchingDims := []
  startIndexMap := [0]
  indexVectorDim := 1
  sliceSizes := ![1, 3]
  wf := gather_S1000000x3_S1000000x1_S1000000x3_1_0_n_n_0_1_13_wf
def scatter_S500000x32x3_S1000000x2_S1000000x3_1_01_01_1 : ScatterDims S500000x32x3 S1000000x2 S1000000x3 where
  updateWindowDims := [1]
  insertedWindowDims := [0, 1]
  scatterDimsToOperandDims := [0, 1]
  indexVectorDim := 1
  wf := scatter_S500000x32x3_S1000000x2_S1000000x3_1_01_01_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S500000x3_S1000000x1_S1000000x3_1_0_0_1 : ScatterDims S500000x3 S1000000x1 S1000000x3 where
  updateWindowDims := [1]
  insertedWindowDims := [0]
  scatterDimsToOperandDims := [0]
  indexVectorDim := 1
  wf := scatter_S500000x3_S1000000x1_S1000000x3_1_0_0_1_wf

class Facts : Prop extends Facts₀ where

variable [Facts]
-- ==== Proof.Voxel.lean ====
/-
  What the voxel decoration computes, as functions of the point buffer and the counts.

  A voxel `v` holds up to 32 points `X (v, p, ·)` (rows past the voxel's count are zero) and a count `C v`. Its
  decoration appends to each point's three coordinates the point's offset from the voxel's centroid: the sum of the 32
  rows divided by `max (C v) 1`, subtracted from the row, and the result zeroed for the rows whose rank is not below the
  count. So entry `(v, p, k)` of the result is the coordinate `X (v, p, k)` for `k < 3` and the masked offset of
  coordinate `k - 3` for `k ≥ 3`; the mask itself, rank `p` below the count, is the second result. Both are stated
  over any number `n` of voxels, so that a block of rows and the whole array are the same function at different `n`,
  and the counts are taken as a column `[n, 1]`, the form in which the kernel is handed them.
-/
import Idealize.ShloMosaic.PureOps.Ideal
import Idealize.ShloMosaic.Lib.ValueIdx

noncomputable section

open scoped BigOperators

namespace Cert.Voxel

open Idealize.ShloMosaic Idealize.ShloMosaic.ValueIdx

/-- The point of rank `p` in its voxel is counted: `p` is below the voxel's count (compared as signed words). -/
def keep (p : ℕ) (cnt : BitVec 32) : BitVec 1 := IntOp.cmpi .slt (BitVec.ofNat 32 p) cnt

/-- A coordinate `a` less the centroid's — the column sum `s` over `max cnt 1` — kept for a counted point, zeroed
    otherwise. -/
def offset (a s : EReal) (cnt : BitVec 32) (p : ℕ) : EReal :=
  (a - Ideal.div s (FloatOps.sitofp .f32 (IntOp.maxsi cnt 1#32) : Ideal .f32)) * (FloatOps.uitofp .f32 (keep p cnt) : Ideal .f32)

variable {n : ℕ}

/-- Entry `(v, p, k)` of the decorated array. -/
def outAt (X : (⟨3, ![n, 32, 3]⟩ : Shape).Idx → EReal) (C : (⟨2, ![n, 1]⟩ : Shape).Idx → BitVec 32)
    (v : Fin n) (p : Fin 32) (k : Fin 6) : EReal :=
  if h : k.val < 3 then X (ix3 v p ⟨k.val, h⟩)
  else offset (X (ix3 v p ⟨k.val - 3, by omega⟩)) (∑ q : Fin 32, X (ix3 v q ⟨k.val - 3, by omega⟩)) (C (ix2 v 0)) p.val

/-- The decorated array `[n, 32, 6]`. -/
def out (X : (⟨3, ![n, 32, 3]⟩ : Shape).Idx → EReal) (C : (⟨2, ![n, 1]⟩ : Shape).Idx → BitVec 32) :
    (⟨3, ![n, 32, 6]⟩ : Shape).Idx → EReal :=
  fun i => outAt X C (i 0) (i 1) (i 2)

/-- The mask `[n, 32]` as 32-bit words, the form in which the kernel stores it. -/
def maskWord (C : (⟨2, ![n, 1]⟩ : Shape).Idx → BitVec 32) : (⟨2, ![n, 32]⟩ : Shape).Idx → BitVec 32 :=
  fun i => (keep (i 1).val (C (ix2 (i 0) 0))).setWidth 32

/-- The mask `[n, 32]` as bits. -/
def mask (C : (⟨2, ![n, 1]⟩ : Shape).Idx → BitVec 32) : (⟨2, ![n, 32]⟩ : Shape).Idx → BitVec 1 :=
  fun i => keep (i 1).val (C (ix2 (i 0) 0))

theorem out_low (X : (⟨3, ![n, 32, 3]⟩ : Shape).Idx → EReal) (C : (⟨2, ![n, 1]⟩ : Shape).Idx → BitVec 32)
    (v : Fin n) (p : Fin 32) (j : Fin 3) (k : Fin 6) (hk : k.val = j.val) :
    out X C (ix3 v p k) = X (ix3 v p j) := by
  show outAt X C v p k = _
  unfold outAt
  rw [dif_pos (by omega)]
  exact congrArg (fun j' => X (ix3 v p j')) (Fin.ext hk)

theorem out_high (X : (⟨3, ![n, 32, 3]⟩ : Shape).Idx → EReal) (C : (⟨2, ![n, 1]⟩ : Shape).Idx → BitVec 32)
    (v : Fin n) (p : Fin 32) (j : Fin 3) (k : Fin 6) (hk : k.val = 3 + j.val) :
    out X C (ix3 v p k) = offset (X (ix3 v p j)) (∑ q : Fin 32, X (ix3 v q j)) (C (ix2 v 0)) p.val := by
  show outAt X C v p k = _
  unfold outAt
  rw [dif_neg (by omega)]
  have e : (⟨k.val - 3, by omega⟩ : Fin 3) = j := Fin.ext (by show k.val - 3 = j.val; omega)
  rw [e]

/-- A word that widens a bit is nonzero exactly when the bit is set. -/
theorem ne_zero_setWidth : ∀ b : BitVec 1, IntOp.cmpi .ne (b.setWidth 32) 0#32 = b := by decide

/-- The stored mask words compared with zero give the mask back. -/
theorem mask_of_word (C : (⟨2, ![n, 1]⟩ : Shape).Idx → BitVec 32) (i : (⟨2, ![n, 32]⟩ : Shape).Idx) :
    IntOp.cmpi .ne (maskWord C i) 0#32 = mask C i := ne_zero_setWidth _

end Cert.Voxel

end
-- ==== Proof.LibKeepdims.lean ====
/-
  Keepdims layouts read at an index given by coordinates.

  A reduction that keeps its axis, and the broadcast that undoes it, print as casts and broadcasts through shapes with a
  unit axis: a matrix [a, c] viewed [a, 1, c] or [a, b] viewed [a, b, 1], a vector [a] viewed as the column [a, 1] or as
  [a, 1, 1], a row [b] viewed [1, b], and each of those broadcast back along its unit axis. Each lemma says which entry
  of the operand the result holds at (p, q, r); a unit axis always reads its one entry. Generic in the extents and in
  the element type, for the vector unit's `broadcastTo` / `shapeCast` and for the host's `broadcastInDim`. Last, a
  sum along the middle axis of a rank-3 array, on the vector unit and on the host, as the sum over that coordinate.
-/
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.LibKeepdims

open Idealize.ShloMosaic Idealize.ShloMosaic.ValueIdx

variable {α : Type}

/-- One axis of a broadcast's index obligation: a unit axis reads entry 0, any other axis its own coordinate. -/
local macro "bcast_axis " x:term:max n:term:max : tactic =>
  `(tactic| first
    | rfl
    | (show ($x).val = if $n = 1 then 0 else ($x).val
       split
       · have := ($x).isLt; omega
       · rfl))

/-! ## The vector unit's broadcasts and casts -/

/-- `[a, 1, c]` broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ => bcast_axis p a
  | ⟨1, _⟩ => rfl
  | ⟨2, _⟩ => bcast_axis r c

/-- `[a, b, 1]` broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ => bcast_axis p a
  | ⟨1, _⟩ => bcast_axis q b
  | ⟨2, _⟩ => rfl

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a]` cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The host's broadcasts in dimensions -/

/-- A row `[b]` as `[1, b]` (dimension 1) reads, at `(u, q)`, the operand at `q`. -/
theorem broadcastInDim_b_1b_apply {b : ℕ} (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ => bcast_axis q b

/-- A vector `[a]` as the column `[a, 1]` (dimension 0) reads, at `(p, u)`, the operand at `p`. -/
theorem broadcastInDim_a_a1_apply {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ => bcast_axis p a

/-- A column `[a, 1]` broadcast to `[a, b]` reads, at `(p, q)`, the operand at `(p, 0)`. -/
theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ => bcast_axis p a
  | ⟨1, _⟩ => rfl

/-- `[a, c]` as `[a, 1, c]` (dimensions 0 and 2) reads, at `(p, u, r)`, the operand at `(p, r)`. -/
theorem broadcastInDim_ac_a1c_apply {a c : ℕ} (h : (⟨2, ![a, c]⟩ : Shape).BroadcastsInDim ⟨3, ![a, 1, c]⟩ ![0, 2])
    (x : (⟨2, ![a, c]⟩ : Shape).Idx → α) (p : Fin a) (u : Fin 1) (r : Fin c) :
    broadcastInDim ⟨3, ![a, 1, c]⟩ ![0, 2] h x (ix3 p u r) = x (ix2 p r) := by
  refine broadcastInDim_apply ![0, 2] h x (ix3 p u r) (ix2 p r) fun ax => ?_
  match ax with
  | ⟨0, _⟩ => bcast_axis p a
  | ⟨1, _⟩ => bcast_axis r c

/-- A vector `[a]` as `[a, 1, 1]` (dimension 0) reads, at `(p, u, u')`, the operand at `p`. -/
theorem broadcastInDim_a_a11_apply {a : ℕ} (h : (⟨1, ![a]⟩ : Shape).BroadcastsInDim ⟨3, ![a, 1, 1]⟩ ![0])
    (x : (⟨1, ![a]⟩ : Shape).Idx → α) (p : Fin a) (u u' : Fin 1) :
    broadcastInDim ⟨3, ![a, 1, 1]⟩ ![0] h x (ix3 p u u') = x (ix1 p) := by
  refine broadcastInDim_apply ![0] h x (ix3 p u u') (ix1 p) fun ax => ?_
  match ax with
  | ⟨0, _⟩ => bcast_axis p a

/-- `[a, 1, 1]` broadcast to `[a, 1, c]` reads, at `(p, u, r)`, the operand at `(p, 0, 0)`. -/
theorem broadcastInDim_a11_a1c_apply {a c : ℕ} (h : (⟨3, ![a, 1, 1]⟩ : Shape).BroadcastsInDim ⟨3, ![a, 1, c]⟩ ![0, 1, 2])
    (x : (⟨3, ![a, 1, 1]⟩ : Shape).Idx → α) (p : Fin a) (u : Fin 1) (r : Fin c) :
    broadcastInDim ⟨3, ![a, 1, c]⟩ ![0, 1, 2] h x (ix3 p u r) = x (ix3 p (0 : Fin 1) (0 : Fin 1)) := by
  refine broadcastInDim_apply ![0, 1, 2] h x (ix3 p u r) (ix3 p (0 : Fin 1) (0 : Fin 1)) fun ax => ?_
  match ax with
  | ⟨0, _⟩ => bcast_axis p a
  | ⟨1, _⟩ => rfl
  | ⟨2, _⟩ => rfl

/-- `[a, 1, c]` broadcast to `[a, b, c]` reads, at `(p, q, r)`, the operand at `(p, 0, r)`. -/
theorem broadcastInDim_a1c_abc_apply {a b c : ℕ} (h : (⟨3, ![a, 1, c]⟩ : Shape).BroadcastsInDim ⟨3, ![a, b, c]⟩ ![0, 1, 2])
    (x : (⟨3, ![a, 1, c]⟩ : Shape).Idx → α) (p : Fin a) (q : Fin b) (r : Fin c) :
    broadcastInDim ⟨3, ![a, b, c]⟩ ![0, 1, 2] h x (ix3 p q r) = x (ix3 p (0 : Fin 1) r) := by
  refine broadcastInDim_apply ![0, 1, 2] h x (ix3 p q r) (ix3 p (0 : Fin 1) r) fun ax => ?_
  match ax with
  | ⟨0, _⟩ => bcast_axis p a
  | ⟨1, _⟩ => rfl
  | ⟨2, _⟩ => bcast_axis r c

/-- `[a, b]` as `[a, b, 1]` (dimensions 0 and 1) reads, at `(p, q, u)`, the operand at `(p, q)`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply ![0, 1] h x (ix3 p q u) (ix2 p q) fun ax => ?_
  match ax with
  | ⟨0, _⟩ => bcast_axis p a
  | ⟨1, _⟩ => bcast_axis q b

/-- `[a, b, 1]` broadcast to `[a, b, c]` reads, at `(p, q, r)`, the operand at `(p, q, 0)`. -/
theorem broadcastInDim_ab1_abc_apply {a b c : ℕ} (h : (⟨3, ![a, b, 1]⟩ : Shape).BroadcastsInDim ⟨3, ![a, b, c]⟩ ![0, 1, 2])
    (x : (⟨3, ![a, b, 1]⟩ : Shape).Idx → α) (p : Fin a) (q : Fin b) (r : Fin c) :
    broadcastInDim ⟨3, ![a, b, c]⟩ ![0, 1, 2] h x (ix3 p q r) = x (ix3 p q (0 : Fin 1)) := by
  refine broadcastInDim_apply ![0, 1, 2] h x (ix3 p q r) (ix3 p q (0 : Fin 1)) fun ax => ?_
  match ax with
  | ⟨0, _⟩ => bcast_axis p a
  | ⟨1, _⟩ => bcast_axis q b
  | ⟨2, _⟩ => rfl

/-! ## A sum along the middle axis of a rank-3 array -/

/-- The index a one-axis reduction of `[a, b, c]` along axis 1 inserts the coordinate into. -/
theorem lift_mid {a b c : ℕ} (h : (⟨3, ![a, b, c]⟩ : Shape).Reduces [1] ⟨2, ![a, c]⟩) (p : Fin a) (r : Fin c) (k : Fin b) :
    h.lift (ix2 p r) k = ix3 p k r := by
  funext ax; apply Fin.ext
  match ax with
  | ⟨0, _⟩ => rfl
  | ⟨1, _⟩ => rfl
  | ⟨2, _⟩ => rfl

/-- The vector unit's sum of an `[a, b, c]` vector along axis 1, at `(p, r)`, is the sum over the middle coordinate. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction (F := Ideal) .add [1] ⟨2, ![a, c]⟩ src acc h hφ hacc (ix2 p r) = ∑ k : Fin b, src (ix3 p k r) := by
  refine (Ideal.multiReduction_add_single src acc h hφ hacc (ix2 p r)).trans ?_
  exact Finset.sum_congr rfl fun k _ => congrArg src (lift_mid h p r k)

/-- The host's sum of an `[a, b, c]` array along axis 1 from an initial value, at `(p, r)`: the initial value plus the
    sum over the middle coordinate. -/
theorem hostMidSum_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduceAdd x init h' hu (ix2 p r) = init (Shape.Idx.first hu) + ∑ k : Fin b, x (ix3 p k r) := by
  rw [hostReduceAdd_apply, Ideal.hostReduceAdd_single h' h]
  exact congrArg _ (Finset.sum_congr rfl fun k _ => congrArg x (lift_mid h p r k))

end Cert.LibKeepdims

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KBody.lean ====
/-
  The kernel body on one block of 400 voxels is the voxel decoration of that block.

  The body loads a block `x0` [400, 32, 3] of points and the block's counts `x1` [400, 1], and stores three things: the
  points themselves into lanes 0–2 of the output block, the masked offsets from the centroid into lanes 3–5, and the mask
  as words. Read at an index, each stored value is the specification's entry: the centroid's sum along the 32 rows is the
  lane reduction, its divisor `max(count, 1)` reaches every lane through a column broadcast, and the mask — the rank
  iota compared with the count, widened to a word and converted — is the count bit converted directly.
-/
import proofs.«102209_j40785009443381_2_alg».proof.Proof.Gen.KernelIdeal.Frame
import proofs.«102209_j40785009443381_2_alg».proof.Proof.Voxel
import proofs.«102209_j40785009443381_2_alg».proof.Proof.LibKeepdims
import proofs.«102209_j40785009443381_2_alg».proof.Proof.LibColumnBroadcast
import Idealize.ShloMosaic.Lib.KernelVsHost

noncomputable section

open scoped BigOperators

namespace Cert.KernelIdeal.Body

open Cert.KernelIdeal Cert.KernelIdeal.Gen Idealize.ShloMosaic Idealize.ShloMosaic.ValueIdx
open Cert.LibKeepdims Cert.LibColumnBroadcast

theorem hz3 : (![0, 0, 0] : Fin 3 → ℕ) = fun _ => 0 := funext fun a => by fin_cases a <;> rfl
theorem hz2 : (![0, 0] : Fin 2 → ℕ) = fun _ => 0 := funext fun a => by fin_cases a <;> rfl

/-- A bit widened to a word and converted as a signed integer is the bit converted as an unsigned one: 0 or 1. -/
theorem sitofp_setWidth_bit (b : BitVec 1) :
    (FloatOps.sitofp .f32 (b.setWidth 32) : Ideal .f32) = FloatOps.uitofp .f32 b :=
  congrFun (sitofp_extui_eq_uitofp (φ := .f32) (s := ⟨0, ![]⟩) (fun _ => b) (by decide)) ix0

variable (x0 : Vec Ideal S400x32x3 .f32) (x1 : Vec Ideal S400x1 .i32)

/-- The points are stored as loaded. -/
theorem pay1_eq : k0_pay1 (F := Ideal) x0 = x0 := by
  unfold k0_pay1
  exact shapeCast_self x0 _

/-- The counts are used as loaded. -/
theorem pay2_eq : k0_pay2 (F := Ideal) x1 = x1 := by
  unfold k0_pay2
  exact shapeCast_self x1 _

/-- The stored mask word of row `r`, rank `p`: the count bit of the row's count, widened. -/
theorem pay3_apply (r : Fin 400) (p : Fin 32) :
    k0_pay3 (F := Ideal) x1 (ix2 r p) = (Voxel.keep p.val (x1 (ix2 r 0))).setWidth 32 := by
  unfold k0_pay3
  dsimp only
  show (IntOp.cmpi .slt (iota .tc S400x32 32 [1] iota_S400x32_d1_w32 (ix2 r p))
      (broadcastTo S400x32 (k0_pay2 x1) broadcasts_S400x1_S400x32 (ix2 r p))).setWidth 32 = _
  rw [iota_single_apply, pay2_eq, broadcastTo_column_apply]
  rfl

/-- The stored offset of row `r`, rank `p`, coordinate `j`. -/
theorem pay4_apply (r : Fin 400) (p : Fin 32) (j : Fin 3) :
    k0_pay4 (F := Ideal) x0 x1 (ix3 r p j)
      = Voxel.offset (x0 (ix3 r p j)) (∑ q : Fin 32, x0 (ix3 r q j)) (x1 (ix2 r 0)) p.val := by
  unfold k0_pay4 Voxel.offset
  dsimp only
  refine (mulf_apply _ _ _).trans ?_
  refine congrArg₂ (· * ·) ((subf_apply _ _ _).trans (congrArg₂ (· - ·) ?_ ?_)) ?_
  · exact congrFun (pay1_eq x0) _
  · refine (broadcastTo_a1c_abc_apply _ _ r p j).trans ((shapeCast_ac_a1c_apply _ _ r 0 j).trans ?_)
    refine (divf_apply _ _ _).trans (congrArg₂ Ideal.div ?_ ?_)
    · refine (midSum_apply _ _ _ _ _ r j).trans ?_
      rw [pay1_eq]
    · refine (broadcastTo_column_apply _ _ r j).trans ?_
      show (FloatOps.sitofp .f32 (IntOp.maxsi (k0_pay2 x1 (ix2 r 0)) 1#32) : Ideal .f32) = _
      rw [pay2_eq]
  · refine (broadcastTo_ab1_abc_apply _ _ r p j).trans ((shapeCast_ab_ab1_apply _ _ r p 0).trans ?_)
    show (FloatOps.sitofp .f32 (k0_pay3 x1 (ix2 r p)) : Ideal .f32) = _
    rw [pay3_apply, sitofp_setWidth_bit]

/-! ## The stored pieces as the specification's entries -/

/-- Lanes 0–2 of the output block hold the entry's own lane. -/
theorem emb_low (r : Fin 400) (p : Fin 32) (j : Fin 3) :
    r0_2.emb (ix3 r p j) = ix3 r p (⟨j.val, by omega⟩ : Fin 6) := by
  funext a; apply Fin.ext
  match a with
  | ⟨0, _⟩ => show 0 + 1 * r.val = r.val; omega
  | ⟨1, _⟩ => show 0 + 1 * p.val = p.val; omega
  | ⟨2, _⟩ => show 0 + 1 * j.val = j.val; omega

/-- Lanes 3–5 hold lane `j` at `3 + j`. -/
theorem emb_high (r : Fin 400) (p : Fin 32) (j : Fin 3) :
    r0_3.emb (ix3 r p j) = ix3 r p (⟨3 + j.val, by omega⟩ : Fin 6) := by
  funext a; apply Fin.ext
  match a with
  | ⟨0, _⟩ => show 0 + 1 * r.val = r.val; omega
  | ⟨1, _⟩ => show 0 + 1 * p.val = p.val; omega
  | ⟨2, _⟩ => show 3 + 1 * j.val = 3 + j.val; omega

theorem piece_low (x : S400x32x3.Idx) :
    k0_pay1 (F := Ideal) (View.ld x0 r0_0) x = Voxel.out x0 x1 (r0_2.emb x) := by
  obtain ⟨r, p, j, rfl⟩ : ∃ (r : Fin 400) (p : Fin 32) (j : Fin 3), x = ix3 r p j := ⟨x 0, x 1, x 2, eq_ix3 x⟩
  rw [View.ld_unit_zero (S := S400x32x3) hz3, pay1_eq, emb_low, Voxel.out_low x0 x1 r p j _ rfl]

theorem piece_high (x : S400x32x3.Idx) :
    k0_pay4 (F := Ideal) (View.ld x0 r0_0) (View.ld x1 r0_1) x = Voxel.out x0 x1 (r0_3.emb x) := by
  obtain ⟨r, p, j, rfl⟩ : ∃ (r : Fin 400) (p : Fin 32) (j : Fin 3), x = ix3 r p j := ⟨x 0, x 1, x 2, eq_ix3 x⟩
  rw [View.ld_unit_zero (S := S400x32x3) hz3, View.ld_unit_zero (S := S400x1) hz2, pay4_apply, emb_high,
    Voxel.out_high x0 x1 r p j _ rfl]

/-- THE OUTPUT BLOCK the body leaves is the decoration of the loaded block. -/
theorem out2_eq : out0_2 (F := Ideal) x0 x1 = Voxel.out x0 x1 := by
  funext y
  unfold out0_2
  refine View.canon_apply_of_pieces (Val := Elt Ideal) (Voxel.out x0 x1) _ ?_ y (cover0_2 _ _ y)
  intro pc hpc x
  simp only [List.mem_cons, List.mem_nil_iff, or_false] at hpc
  rcases hpc with rfl | rfl
  · exact piece_high x0 x1 x
  · exact piece_low x0 x1 x

/-- THE MASK BLOCK the body leaves is the mask of the loaded counts, as words. -/
theorem out3_eq : out0_3 (F := Ideal) x0 x1 = Voxel.maskWord x1 := by
  unfold out0_3
  rw [View.canon_unit_zero hz2, View.ld_unit_zero (S := S400x1) hz2]
  funext y
  obtain ⟨r, p, rfl⟩ : ∃ (r : Fin 400) (p : Fin 32), y = ix2 r p := ⟨y 0, y 1, eq_ix2 y⟩
  exact pay3_apply x1 r p

end Cert.KernelIdeal.Body

end
-- ==== Proof.KGrid.lean ====
/-
  The grid of the one kernel launch: 1250 points, and every window's block at point `t` is block `(t, 0, …)` of its
  array — rows `400 t … 400 t + 399`. Decided over the grid, one window at a time.
-/
import proofs.«102209_j40785009443381_2_alg».proof.Proof.Gen.KernelIdeal.Launch
import Idealize.ShloMosaic.Lib.Decide

-- the four decisions over the 1250 points are made one after another
set_option Elab.async false

noncomputable section

namespace Cert.KernelIdeal.Grid

open Cert.KernelIdeal Cert.KernelIdeal.Gen Idealize.ShloMosaic

theorem N_eq : cfg0.N = 1250 := N_0

/-- The point buffer's window is at block `(t, 0, 0)`. -/
theorem idx0 : ∀ t : Fin cfg0.N,
    win0_0.index t (0 : Fin 3) = t.val ∧ win0_0.index t (1 : Fin 3) = 0 ∧ win0_0.index t (2 : Fin 3) = 0 :=
  (by decide +kernel : ∀ t : Fin grid0.N, _)

/-- The counts column's window is at block `(t, 0)`. -/
theorem idx1 : ∀ t : Fin cfg0.N, win0_1.index t (0 : Fin 2) = t.val ∧ win0_1.index t (1 : Fin 2) = 0 :=
  (by decide +kernel : ∀ t : Fin grid0.N, _)

/-- The decorated array's window is at block `(t, 0, 0)`. -/
theorem idx2 : ∀ t : Fin cfg0.N,
    win0_2.index t (0 : Fin 3) = t.val ∧ win0_2.index t (1 : Fin 3) = 0 ∧ win0_2.index t (2 : Fin 3) = 0 :=
  (by decide +kernel : ∀ t : Fin grid0.N, _)

/-- The mask words' window is at block `(t, 0)`. -/
theorem idx3 : ∀ t : Fin cfg0.N, win0_3.index t (0 : Fin 2) = t.val ∧ win0_3.index t (1 : Fin 2) = 0 :=
  (by decide +kernel : ∀ t : Fin grid0.N, _)

end Cert.KernelIdeal.Grid

end
-- ==== Proof.KArr.lean ====
/-
  From blocks to arrays: what the kernel's two result arrays hold after the last grid point.

  The grid has 1250 points; point `t` is handed rows `400 t … 400 t + 399` of the point buffer and of the counts column
  (every window's block index is `(t, 0, …)`, decided over the grid) and writes back rows `400 t …` of both results. The
  decoration of a block of rows is the block of the decoration — an entry depends on its own voxel's row only — so what
  point `t` writes back is block `t` of ONE array, the decoration of the whole point buffer; the blocks cover the
  array (row `v` is in block `v / 400`), hence the array ends at that decoration. The same for the mask words.
-/
import proofs.«102209_j40785009443381_2_alg».proof.Proof.KBody
import proofs.«102209_j40785009443381_2_alg».proof.Proof.KGrid
import Idealize.ShloMosaic.Lib.Pipeline.Value

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

/-! ## A block of rows of the decoration -/

section Rows
variable {n nb : ℕ} (ρ : Fin nb → Fin n)
  (X : (⟨3, ![n, 32, 3]⟩ : Shape).Idx → EReal) (C : (⟨2, ![n, 1]⟩ : Shape).Idx → BitVec 32)
  (Xb : (⟨3, ![nb, 32, 3]⟩ : Shape).Idx → EReal) (Cb : (⟨2, ![nb, 1]⟩ : Shape).Idx → BitVec 32)

/-- If `Xb`, `Cb` are the rows `ρ` of `X`, `C`, the decoration of `Xb`, `Cb` is the rows `ρ` of the decoration. -/
theorem out_rows (hX : ∀ y, Xb y = X (ix3 (ρ (y 0)) (y 1) (y 2))) (hC : ∀ y, Cb y = C (ix2 (ρ (y 0)) (y 1)))
    (r : Fin nb) (p : Fin 32) (k : Fin 6) :
    Voxel.out Xb Cb (ix3 r p k) = Voxel.out X C (ix3 (ρ r) p k) := by
  show Voxel.outAt Xb Cb r p k = Voxel.outAt X C (ρ r) p k
  unfold Voxel.outAt
  by_cases h : k.val < 3
  · rw [dif_pos h, dif_pos h]; exact hX _
  · rw [dif_neg h, dif_neg h, hX, hC]
    exact congrArg (fun s => Voxel.offset _ s _ _) (Finset.sum_congr rfl fun q _ => hX _)

/-- The same for the mask words. -/
theorem maskWord_rows (hC : ∀ y, Cb y = C (ix2 (ρ (y 0)) (y 1))) (r : Fin nb) (p : Fin 32) :
    Voxel.maskWord Cb (ix2 r p) = Voxel.maskWord C (ix2 (ρ r) p) := by
  show (Voxel.keep p.val (Cb (ix2 r 0))).setWidth 32 = (Voxel.keep p.val (C (ix2 (ρ r) 0))).setWidth 32
  rw [hC]
  rfl

end Rows

/-! ## The grid -/

open Cert.KernelIdeal.Grid (N_eq idx0 idx1 idx2 idx3)

/-- Row `r` of block `t` is row `400 t + r` of the array. -/
def row (t : Fin cfg0.N) (r : Fin 400) : Fin 500000 :=
  ⟨400 * t.val + r.val, by have := t.isLt; have e : cfg0.N = 1250 := N_eq; omega⟩

variable (m : (ℓ : Loc nD τ sig) → Buf (Elt Ideal) ℓ)

/-- The point buffer as the region finds it, named by its window. -/
abbrev pts (c : Dev nD) := V m c (Pipeline.arrRef spec0 0)
/-- The counts column as the region finds it, named by its window. -/
abbrev cnts (c : Dev nD) := V m c (Pipeline.arrRef spec0 1)

theorem pts_eq (c : Dev nD) : pts m c = V m c main_v83 := rfl
theorem cnts_eq (c : Dev nD) : cnts m c = V m c main_v116 := rfl

/-- Block `t` of any contents of the point buffer: row `r` of the block is row `400 t + r`. -/
theorem read0 (c : Dev nD) (t : Fin cfg0.N) (A : Buf (Elt Ideal) ((c : Thread nD τ).loc (Pipeline.arrRef spec0 0)))
    (y : S400x32x3.Idx) :
    ((cfg0.win 0).blk t).view.read (Elt Ideal) A y = A (ix3 (row t (y 0)) (y 1) (y 2)) := by
  show A (((cfg0.win 0).blk t).view.emb y) = _
  refine congrArg A ?_
  obtain ⟨e0, e1, e2⟩ := idx0 t
  funext a; apply Fin.ext
  match a with
  | ⟨0, _⟩ => show win0_0.index t (0 : Fin 3) * 400 + 1 * (y 0).val = 400 * t.val + (y 0).val; rw [e0]; omega
  | ⟨1, _⟩ => show win0_0.index t (1 : Fin 3) * 32 + 1 * (y 1).val = (y 1).val; rw [e1]; omega
  | ⟨2, _⟩ => show win0_0.index t (2 : Fin 3) * 3 + 1 * (y 2).val = (y 2).val; rw [e2]; omega

/-- Block `t` of any contents of the counts column. -/
theorem read1 (c : Dev nD) (t : Fin cfg0.N) (A : Buf (Elt Ideal) ((c : Thread nD τ).loc (Pipeline.arrRef spec0 1)))
    (y : S400x1.Idx) :
    ((cfg0.win 1).blk t).view.read (Elt Ideal) A y = A (ix2 (row t (y 0)) (y 1)) := by
  show A (((cfg0.win 1).blk t).view.emb y) = _
  refine congrArg A ?_
  obtain ⟨e0, e1⟩ := idx1 t
  funext a; apply Fin.ext
  match a with
  | ⟨0, _⟩ => show win0_1.index t (0 : Fin 2) * 400 + 1 * (y 0).val = 400 * t.val + (y 0).val; rw [e0]; omega
  | ⟨1, _⟩ => show win0_1.index t (1 : Fin 2) * 1 + 1 * (y 1).val = (y 1).val; rw [e1]; omega

/-- The points' block at point `t`, read off the point buffer. -/
theorem blk0_read (c : Dev nD) (t : Fin cfg0.N) (y : S400x32x3.Idx) :
    iblk m c 0 t y = pts m c (ix3 (row t (y 0)) (y 1) (y 2)) := by
  unfold iblk
  exact read0 c t _ y

/-- The counts' block at point `t`, read off the counts column. -/
theorem blk1_read (c : Dev nD) (t : Fin cfg0.N) (y : S400x1.Idx) :
    iblk m c 1 t y = cnts m c (ix2 (row t (y 0)) (y 1)) := by
  unfold iblk
  exact read1 c t _ y

/-- Where an entry of the decorated block at point `t` sits in the array. -/
theorem blk2_emb (t : Fin cfg0.N) (r : Fin 400) (p : Fin 32) (k : Fin 6) :
    ((cfg0.win 2).blk t).view.emb (ix3 r p k) = ix3 (row t r) p k := by
  obtain ⟨e0, e1, e2⟩ := idx2 t
  funext a; apply Fin.ext
  match a with
  | ⟨0, _⟩ => show win0_2.index t (0 : Fin 3) * 400 + 1 * r.val = 400 * t.val + r.val; rw [e0]; omega
  | ⟨1, _⟩ => show win0_2.index t (1 : Fin 3) * 32 + 1 * p.val = p.val; rw [e1]; omega
  | ⟨2, _⟩ => show win0_2.index t (2 : Fin 3) * 6 + 1 * k.val = k.val; rw [e2]; omega

/-- Where an entry of the mask block at point `t` sits in the array. -/
theorem blk3_emb (t : Fin cfg0.N) (r : Fin 400) (p : Fin 32) :
    ((cfg0.win 3).blk t).view.emb (ix2 r p) = ix2 (row t r) p := by
  obtain ⟨e0, e1⟩ := idx3 t
  funext a; apply Fin.ext
  match a with
  | ⟨0, _⟩ => show win0_3.index t (0 : Fin 2) * 400 + 1 * r.val = 400 * t.val + r.val; rw [e0]; omega
  | ⟨1, _⟩ => show win0_3.index t (1 : Fin 2) * 32 + 1 * p.val = p.val; rw [e1]; omega

/-! ## What each point writes back -/

/-- Point `t` writes back block `t` of the decoration of the whole point buffer. -/
theorem flushed2_eq (c : Dev nD) (t : Fin cfg0.N) :
    (dats m 0 c).flushed 2 t
      = ((cfg0.win 2).blk t).view.read (Elt Ideal) (Voxel.out (pts m c) (cnts m c)) := by
  show (cfg0.win 2).cut (grid0.coords t) ((dats m 0 c).after 2 t) = _
  rw [after0_2, Body.out2_eq (iblk m c 0 t) (iblk m c 1 t)]
  funext y
  obtain ⟨r, p, k, rfl⟩ : ∃ (r : Fin 400) (p : Fin 32) (k : Fin 6), y = ix3 r p k := ⟨y 0, y 1, y 2, eq_ix3 y⟩
  show Voxel.out (iblk m c 0 t) (iblk m c 1 t) (ix3 r p k)
    = Voxel.out (pts m c) (cnts m c) (((cfg0.win 2).blk t).view.emb (ix3 r p k))
  rw [blk2_emb]
  exact out_rows (row t) _ _ _ _ (blk0_read m c t) (blk1_read m c t) r p k

/-- Point `t` writes back block `t` of the mask words of the whole counts column. -/
theorem flushed3_eq (c : Dev nD) (t : Fin cfg0.N) :
    (dats m 0 c).flushed 3 t
      = ((cfg0.win 3).blk t).view.read (Elt Ideal) (Voxel.maskWord (cnts m c)) := by
  show (cfg0.win 3).cut (grid0.coords t) ((dats m 0 c).after 3 t) = _
  rw [after0_3, Body.out3_eq (iblk m c 0 t) (iblk m c 1 t)]
  funext y
  obtain ⟨r, p, rfl⟩ : ∃ (r : Fin 400) (p : Fin 32), y = ix2 r p := ⟨y 0, y 1, eq_ix2 y⟩
  show Voxel.maskWord (iblk m c 1 t) (ix2 r p)
    = Voxel.maskWord (cnts m c) (((cfg0.win 3).blk t).view.emb (ix2 r p))
  rw [blk3_emb]
  exact maskWord_rows (row t) _ _ (blk1_read m c t) r p

/-! ## The blocks cover the arrays -/

theorem mem_blk2 (t : Fin cfg0.N) (i : S500000x32x6.Idx) :
    i ∈ ((cfg0.win 2).blk t).view.set ↔ ∀ a : Fin 3, win0_2.index t a * S400x32x6.size a ≤ (i a).val
      ∧ (i a).val < win0_2.index t a * S400x32x6.size a + S400x32x6.size a := by
  show i ∈ ((View.whole main_v117_0).slice (win0_2.rect t)).set ↔ _
  rw [View.set_slice_whole, Rect.mem_set_unit]
  exact Iff.rfl

theorem mem_blk3 (t : Fin cfg0.N) (i : S500000x32.Idx) :
    i ∈ ((cfg0.win 3).blk t).view.set ↔ ∀ a : Fin 2, win0_3.index t a * S400x32.size a ≤ (i a).val
      ∧ (i a).val < win0_3.index t a * S400x32.size a + S400x32.size a := by
  show i ∈ ((View.whole main_v117_1).slice (win0_3.rect t)).set ↔ _
  rw [View.set_slice_whole, Rect.mem_set_unit]
  exact Iff.rfl

/-- Voxel `v`'s rows of the decorated array are in block `v / 400`. -/
theorem cover2 (i : S500000x32x6.Idx) :
    ∃ t : Fin cfg0.N, (cfg0.win 2).flush t = true ∧ i ∈ ((cfg0.win 2).blk t).view.set := by
  have hi0 : (i 0).val < 500000 := (i 0).isLt
  have hi1 : (i 1).val < 32 := (i 1).isLt
  have hi2 : (i 2).val < 6 := (i 2).isLt
  have ht : (i 0).val / 400 < cfg0.N := by rw [N_eq]; omega
  refine ⟨⟨(i 0).val / 400, ht⟩, flush0_2 _, ?_⟩
  rw [mem_blk2]
  obtain ⟨e0, e1, e2⟩ := idx2 ⟨(i 0).val / 400, ht⟩
  have e0' : win0_2.index ⟨(i 0).val / 400, ht⟩ (0 : Fin 3) = (i 0).val / 400 := e0
  intro a
  match a with
  | ⟨0, _⟩ =>
    show win0_2.index ⟨(i 0).val / 400, ht⟩ (0 : Fin 3) * 400 ≤ (i 0).val
      ∧ (i 0).val < win0_2.index ⟨(i 0).val / 400, ht⟩ (0 : Fin 3) * 400 + 400
    rw [e0']; omega
  | ⟨1, _⟩ =>
    show win0_2.index ⟨(i 0).val / 400, ht⟩ (1 : Fin 3) * 32 ≤ (i 1).val
      ∧ (i 1).val < win0_2.index ⟨(i 0).val / 400, ht⟩ (1 : Fin 3) * 32 + 32
    rw [e1]; omega
  | ⟨2, _⟩ =>
    show win0_2.index ⟨(i 0).val / 400, ht⟩ (2 : Fin 3) * 6 ≤ (i 2).val
      ∧ (i 2).val < win0_2.index ⟨(i 0).val / 400, ht⟩ (2 : Fin 3) * 6 + 6
    rw [e2]; omega

/-- Voxel `v`'s row of the mask is in block `v / 400`. -/
theorem cover3 (i : S500000x32.Idx) :
    ∃ t : Fin cfg0.N, (cfg0.win 3).flush t = true ∧ i ∈ ((cfg0.win 3).blk t).view.set := by
  have hi0 : (i 0).val < 500000 := (i 0).isLt
  have hi1 : (i 1).val < 32 := (i 1).isLt
  have ht : (i 0).val / 400 < cfg0.N := by rw [N_eq]; omega
  refine ⟨⟨(i 0).val / 400, ht⟩, flush0_3 _, ?_⟩
  rw [mem_blk3]
  obtain ⟨e0, e1⟩ := idx3 ⟨(i 0).val / 400, ht⟩
  have e0' : win0_3.index ⟨(i 0).val / 400, ht⟩ (0 : Fin 2) = (i 0).val / 400 := e0
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    rw [e0']; omega
  | ⟨1, _⟩ =>
    show win0_3.index ⟨(i 0).val / 400, ht⟩ (1 : Fin 2) * 32 ≤ (i 1).val
      ∧ (i 1).val < win0_3.index ⟨(i 0).val / 400, ht⟩ (1 : Fin 2) * 32 + 32
    rw [e1]; omega

/-! ## The arrays after the last point -/

/-- THE DECORATED ARRAY after the region: the decoration of the point buffer and the counts column as the region
    found them. -/
theorem final2 (c : Dev nD) :
    (dats m 0 c).arrAt 2 cfg0.N = Voxel.out (pts m c) (cnts m c) :=
  (dats m 0 c).arrAt_eq_of_cover 2 _ (fun t _ => flushed2_eq m c t) cover2

/-- THE MASK WORDS after the region. -/
theorem final3 (c : Dev nD) :
    (dats m 0 c).arrAt 3 cfg0.N = Voxel.maskWord (cnts m c) :=
  (dats m 0 c).arrAt_eq_of_cover 3 _ (fun t _ => flushed3_eq m c t) cover3

end Cert.KernelIdeal.Arr

end
-- ==== Proof.KRun.lean ====
/-
  The kernel's program run, with every result named.

  The frame run leaves the two result arrays of the region at what the grid's write-backs made them — the decoration of
  the point buffer and the mask words — and every other buffer at what the host lines after the region compute from the
  region's exit contents. Those lines compare the mask words with zero, which gives the mask bits back, and pad the
  first-occurrence coordinates; they write neither the voxel centres nor the argument.
-/
import proofs.«102209_j40785009443381_2_alg».proof.Proof.KArr
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-! ## The host lines after the region, over any exit contents -/

section Lines
variable (Wv : Valuation τ sig (Elt Ideal))

/-- The mask result: the region's second result compared with zero, word by word. -/
theorem lines_mask : after (List.flatten [hostOps1 (F := Ideal), hostOps1_1]) Wv (Proc.devRef .tc main_v120)
    = cmpi .ne (Wv (Proc.devRef .tc main_v117_1)) (broadcast S500000x32 (0#32 : BitVec 32)) := by
  simp only [hostOps1, hostOps1_1, List.flatten_cons, List.flatten_nil, List.append_nil, List.cons_append, List.nil_append]
  after_results
  rfl

/-- The voxel centres are not written after the region. -/
theorem lines_centre : after (List.flatten [hostOps1 (F := Ideal), hostOps1_1]) Wv (Proc.devRef .tc main_v115)
    = Wv (Proc.devRef .tc main_v115) := by
  simp only [hostOps1, hostOps1_1, List.flatten_cons, List.flatten_nil, List.append_nil, List.cons_append, List.nil_append]
  after_results

end Lines

variable (m : (ℓ : Loc nD τ sig) → Buf (Elt Ideal) ℓ) (ρ : Dev nD → PrngReg)

/-- What the region leaves: the pipeline's arrays at their final contents, every other buffer as the region found it. -/
abbrev exit (c : Dev nD) : Valuation τ sig (Elt Ideal) :=
  Pipeline.withArrays (cfgs 0).spec c (V0 m c) fun w => (dats m 0 c).arrAt w (cfgs 0).N

/-- The padded coordinates the program returns: the lines after the region over the region's exit contents. -/
abbrev coordOut (c : Dev nD) : Buf (Elt Ideal) ((c : Thread nD τ).loc main_v121) :=
  Pipeline.afterTail₀ cfgs (dats m) 0 (V0 m) [hostOps1, hostOps1_1] c main_v121

theorem coordOut_eq (c : Dev nD) :
    coordOut m c = after (List.flatten [hostOps1 (F := Ideal), hostOps1_1]) (exit m c) (Proc.devRef .tc main_v121) := rfl

/-- A buffer that is no array of the pipeline leaves the region as it entered it. -/
theorem exit_v105 (c : Dev nD) : exit m c (Proc.devRef .tc main_v105) = V m c main_v105 :=
  Pipeline.withArrays_of_ne _ c (V0 m c) _ main_v105 (by exact (by decide : ∀ w, Pipeline.arrRef spec0 w ≠ main_v105))

theorem exit_v115 (c : Dev nD) : exit m c (Proc.devRef .tc main_v115) = V m c main_v115 :=
  Pipeline.withArrays_of_ne _ c (V0 m c) _ main_v115 (by exact (by decide : ∀ w, Pipeline.arrRef spec0 w ≠ main_v115))

/-- The mask the program returns is the mask of the counts column. -/
theorem mask_value (c : Dev nD) :
    Pipeline.afterTail₀ cfgs (dats m) 0 (V0 m) [hostOps1, hostOps1_1] c main_v120 = Voxel.mask (Arr.cnts m c) := by
  unfold Pipeline.afterTail₀
  refine (lines_mask _).trans ?_
  have hw := (Pipeline.withArrays_arr spec0 launch0.win.arr_inj c (V0 m c) (fun w => (dats m 0 c).arrAt w cfg0.N) 3).trans
    (Arr.final3 m c)
  refine (congrArg (fun z => cmpi .ne z (broadcast S500000x32 (0#32 : BitVec 32))) hw).trans ?_
  funext i
  exact Voxel.mask_of_word _ i

/-- The voxel centres the program returns are those computed before the region. -/
theorem centre_value (c : Dev nD) :
    Pipeline.afterTail₀ cfgs (dats m) 0 (V0 m) [hostOps1, hostOps1_1] c main_v115 = V m c main_v115 := by
  unfold Pipeline.afterTail₀
  exact (lines_centre _).trans (exit_v115 m c)

set_option backward.isDefEq.respectTransparency.types false in
/-- THE KERNEL'S PROGRAM RUN: every weakly fair execution terminates with the decorated array at the decoration of the
    point buffer and the counts column the region found, the coordinates padded, the mask at the mask of that column,
    the centres as computed before the region, and the argument unchanged. -/
theorem run : θ_run defs (onTc (τ := τ) (main (F := Ideal))) ⟨m, fun _ => 0, ρ⟩ fun r => ∀ c : Dev nD,
      r.2.mem ((c.tc : Thread nD τ).loc main_v117_0) = Voxel.out (Arr.pts m c) (Arr.cnts m c)
      ∧ r.2.mem ((c.tc : Thread nD τ).loc main_v121) = coordOut m c
      ∧ r.2.mem ((c.tc : Thread nD τ).loc main_v120) = Voxel.mask (Arr.cnts m c)
      ∧ r.2.mem ((c.tc : Thread nD τ).loc main_v115) = V m c main_v115
      ∧ r.2.mem ((c.tc : Thread nD τ).loc main_arg0) = m ((c.tc : Thread nD τ).loc main_arg0) :=
  (θ_run defs _ _).mono (fun r h c =>
    ⟨((h c).1 2).trans (Arr.final2 m c),
     (h c).2 main_v121 (Pipeline.mem_restRefs_of main_v121 (by decide) (by decide)),
     ((h c).2 main_v120 (Pipeline.mem_restRefs_of main_v120 (by decide) (by decide))).trans (mask_value m c),
     ((h c).2 main_v115 (Pipeline.mem_restRefs_of main_v115 (by decide) (by decide))).trans (centre_value m c),
     ((h c).2 main_arg0 (Pipeline.mem_restRefs_of main_arg0 (by decide) (by decide))).trans (W_main_arg0 m (dats m) c)⟩)
    (run_main m ρ)

end Cert.KernelIdeal.Run

end
-- ==== Proof.RefOps.lean ====
/- Each window of the reference's @main is cut into stretches: the operations between two calls of a module-local
   function, and each call's own operations with the callee's body written out over the call's buffers. The stretch
   that computes the voxel bookkeeping is cut once more where the per-voxel arithmetic begins (the iota of the point
   ranks), so that everything before the cut is the part the kernel's program shares. Beside each list, the fact that
   its operations touch TensorCore buffers only, one library lemma per entry by the entry's arity. -/
import proofs.«102209_j40785009443381_2_alg».proof.ReferenceIdeal
import proofs.«102209_j40785009443381_2_alg».proof.Proof.Gen.ReferenceIdeal
import Idealize.ShloMosaic.Lib.StableHlo.Run

noncomputable section

namespace Cert.ReferenceIdeal.Ops

open Idealize.ShloMosaic Idealize.ShloMosaic.TcCoe Idealize.SL.Sem Cert.ReferenceIdeal Cert.ReferenceIdeal.Gen

variable {F : FTy → Type} [FloatOps F]

/-- Window 0, stretch 0: 37 operations. -/
abbrev w0_s0 : List (HloOp τ sig (Elt F)) :=
  [ StableHlo.nullary main_cst (fun i => FloatOps.ofBits .f32 (lit0 (S3.rowMajor i))),
    StableHlo.nullary main_cst_0 (constant S3 .f32 0x3F000000#32),
    StableHlo.nullary main_cst_1 (fun i => FloatOps.ofBits .f32 (lit1 (S3.rowMajor i))),
    StableHlo.unary main_cst main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S1000000x3 ![0, 1] bcast_S1x3_S1000000x3_0_1 : (⟨S1x3, .f32⟩ : BufTy).Contents (Elt F) → (⟨S1000000x3, .f32⟩ : BufTy).Contents (Elt F)),
    StableHlo.binary main_arg0 main_v1 main_v2 (subf : (⟨S1000000x3, .f32⟩ : BufTy).Contents (Elt F) → (⟨S1000000x3, .f32⟩ : BufTy).Contents (Elt F) → (⟨S1000000x3, .f32⟩ : BufTy).Contents (Elt F)),
    StableHlo.unary main_cst_0 main_v3 (broadcastInDim S1x3 ![1] bcast_S3_S1x3_1 : (⟨S3, .f32⟩ : BufTy).Contents (Elt F) → (⟨S1x3, .f32⟩ : BufTy).Contents (Elt F)),
    StableHlo.unary main_v3 main_v4 (broadcastInDim S1000000x3 ![0, 1] bcast_S1x3_S1000000x3_0_1 : (⟨S1x3, .f32⟩ : BufTy).Contents (Elt F) → (⟨S1000000x3, .f32⟩ : BufTy).Contents (Elt F)),
    StableHlo.binary main_v2 main_v4 main_v5 (Host.divf : (⟨S1000000x3, .f32⟩ : BufTy).Contents (Elt F) → (⟨S1000000x3, .f32⟩ : BufTy).Contents (Elt F) → (⟨S1000000x3, .f32⟩ : BufTy).Contents (Elt F)),
    StableHlo.unary main_v5 main_v6 (Host.floor : (⟨S1000000x3, .f32⟩ : BufTy).Contents (Elt F) → (⟨S1000000x3, .f32⟩ : BufTy).Contents (Elt F)),
    StableHlo.unary main_v6 main_v7 (fptosi 32 : (⟨S1000000x3, .f32⟩ : BufTy).Contents (Elt F) → (⟨S1000000x3, .i32⟩ : BufTy).Contents (Elt F)),
    StableHlo.binary main_cst_0 main_cst_1 main_v8 (mulf : (⟨S3, .f32⟩ : BufTy).Contents (Elt F) → (⟨S3, .f32⟩ : BufTy).Contents (Elt F) → (⟨S3, .f32⟩ : BufTy).Contents (Elt F)),
    StableHlo.binary main_cst main_v8 main_v9 (addf : (⟨S3, .f32⟩ : BufTy).Contents (Elt F) → (⟨S3, .f32⟩ : BufTy).Contents (Elt F) → (⟨S3, .f32⟩ : BufTy).Contents (Elt F)),
    StableHlo.unary main_cst main_v10 (broadcastInDim S1x3 ![1] bcast_S3_S1x3_1 : (⟨S3, .f32⟩ : BufTy).Contents (Elt F) → (⟨S1x3, .f32⟩ : BufTy).Contents (Elt F)),
    StableHlo.unary main_v10 main_v11 (broadcastInDim S1000000x3 ![0, 1] bcast_S1x3_S1000000x3_0_1 : (⟨S1x3, .f32⟩ : BufTy).Contents (Elt F) → (⟨S1000000x3, .f32⟩ : BufTy).Contents (Elt F)),
    StableHlo.binary main_arg0 main_v11 main_v12 (cmpf .oge : (⟨S1000000x3, .f32⟩ : BufTy).Contents (Elt F) → (⟨S1000000x3, .f32⟩ : BufTy).Contents (Elt F) → (⟨S1000000x3, .i1⟩ : BufTy).Contents (Elt F)),
    StableHlo.unary main_v9 main_v13 (broadcastInDim S1x3 ![1] bcast_S3_S1x3_1 : (⟨S3, .f32⟩ : BufTy).Contents (Elt F) → (⟨S1x3, .f32⟩ : BufTy).Contents (Elt F)),
    StableHlo.unary main_v13 main_v14 (broadcastInDim S1000000x3 ![0, 1] bcast_S1x3_S1000000x3_0_1 : (⟨S1x3, .f32⟩ : BufTy).Contents (Elt F) → (⟨S1000000x3, .f32⟩ : BufTy).Contents (Elt F)),
    StableHlo.binary main_arg0 main_v14 main_v15 (cmpf .olt : (⟨S1000000x3, .f32⟩ : BufTy).Contents (Elt F) → (⟨S1000000x3, .f32⟩ : BufTy).Contents (Elt F) → (⟨S1000000x3, .i1⟩ : BufTy).Contents (Elt F)),
    StableHlo.binary main_v12 main_v15 main_v16 (andi : (⟨S1000000x3, .i1⟩ : BufTy).Contents (Elt F) → (⟨S1000000x3, .i1⟩ : BufTy).Contents (Elt F) → (⟨S1000000x3, .i1⟩ : BufTy).Contents (Elt F)),
    StableHlo.nullary main_c (constantI S_ 1 1#1),
    StableHlo.binary main_v16 main_c main_v17 ((fun x v => Host.reduce IntOp.andi x v reducesTo_S1000000x3_S1000000_d1 h_S_) : (⟨S1000000x3, .i1⟩ : BufTy).Contents (Elt F) → (⟨S_, .i1⟩ : BufTy).Contents (Elt F) → (⟨S1000000, .i1⟩ : BufTy).Contents (Elt F)),
    StableHlo.unary main_v7 main_v18 ((extractStridedSlice S1000000x1 ![0, 0] · slices_S1000000x3_S1000000x1_0_0) : (⟨S1000000x3, .i32⟩ : BufTy).Contents (Elt F) → (⟨S1000000x1, .i32⟩ : BufTy).Contents (Elt F)),
    StableHlo.reshape main_v18 main_v19 rfl shapeCasts_S1000000x1_S1000000,
    StableHlo.nullary main_c_2 (constantI S_ 32 200#32),
    StableHlo.unary main_c_2 main_v20 (broadcastInDim S1000000 ![] bcast_S_S1000000 : (⟨S_, .i32⟩ : BufTy).Contents (Elt F) → (⟨S1000000, .i32⟩ : BufTy).Contents (Elt F)),
    StableHlo.binary main_v19 main_v20 main_v21 (muli : (⟨S1000000, .i32⟩ : BufTy).Contents (Elt F) → (⟨S1000000, .i32⟩ : BufTy).Contents (Elt F) → (⟨S1000000, .i32⟩ : BufTy).Contents (Elt F)),
    StableHlo.unary main_v7 main_v22 ((extractStridedSlice S1000000x1 ![0, 1] · slices_S1000000x3_S1000000x1_0_1) : (⟨S1000000x3, .i32⟩ : BufTy).Contents (Elt F) → (⟨S1000000x1, .i32⟩ : BufTy).Contents (Elt F)),
    StableHlo.reshape main_v22 main_v23 rfl shapeCasts_S1000000x1_S1000000,
    StableHlo.binary main_v21 main_v23 main_v24 (addi : (⟨S1000000, .i32⟩ : BufTy).Contents (Elt F) → (⟨S1000000, .i32⟩ : BufTy).Contents (Elt F) → (⟨S1000000, .i32⟩ : BufTy).Contents (Elt F)),
    StableHlo.nullary main_c_3 (constantI S_ 32 12#32),
    StableHlo.unary main_c_3 main_v25 (broadcastInDim S1000000 ![] bcast_S_S1000000 : (⟨S_, .i32⟩ : BufTy).Contents (Elt F) → (⟨S1000000, .i32⟩ : BufTy).Contents (Elt F)),
    StableHlo.binary main_v24 main_v25 main_v26 (muli : (⟨S1000000, .i32⟩ : BufTy).Contents (Elt F) → (⟨S1000000, .i32⟩ : BufTy).Contents (Elt F) → (⟨S1000000, .i32⟩ : BufTy).Contents (Elt F)),
    StableHlo.unary main_v7 main_v27 ((extractStridedSlice S1000000x1 ![0, 2] · slices_S1000000x3_S1000000x1_0_2) : (⟨S1000000x3, .i32⟩ : BufTy).Contents (Elt F) → (⟨S1000000x1, .i32⟩ : BufTy).Contents (Elt F)),
    StableHlo.reshape main_v27 main_v28 rfl shapeCasts_S1000000x1_S1000000,
    StableHlo.binary main_v26 main_v28 main_v29 (addi : (⟨S1000000, .i32⟩ : BufTy).Contents (Elt F) → (⟨S1000000, .i32⟩ : BufTy).Contents (Elt F) → (⟨S1000000, .i32⟩ : BufTy).Contents (Elt F)),
    StableHlo.nullary main_c_4 (constantI S_ 32 480000#32) ]
theorem w0_s0_sub : (w0_s0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.nullary_bufs_sub ..⟩

/-- Window 0, stretch 1: 3 operations of one call of @where. -/
abbrev w0_s1 : List (HloOp τ sig (Elt F)) :=
  [ StableHlo.TRef.unary (.of main_c_4 : StableHlo.TRef sig ⟨S_, .i32⟩) main_call0.v0 id,
    StableHlo.TRef.unary main_call0.v0 main_call0.v1 (broadcastInDim S1000000 ![] bcast_S_S1000000),
    StableHlo.TRef.ternary (.of main_v17 : StableHlo.TRef sig ⟨S1000000, .i1⟩) (.of main_v29 : StableHlo.TRef sig ⟨S1000000, .i32⟩) main_call0.v1 main_call0.v2 select ]
theorem w0_s1_sub : (w0_s1 : List (HloOp τ sig (Elt F))).Forall fun op => op.bufs ⊆ StableHlo.tcRefs τ sig :=
  ⟨StableHlo.unary_bufs_sub .., StableHlo.unary_bufs_sub .., StableHlo.ternary_bufs_sub ..⟩

/-- Window 0, stretch 2: 3 operations of one call of @argsort. -/
abbrev w0_s2 : List (HloOp τ sig (Elt F)) :=
  [ StableHlo.TRef.nullary main_call1.v0 (iotaInDim S1000000 32 0),
    StableHlo.TRef.binary (.of main_v30 : StableHlo.TRef sig ⟨S1000000, .i32⟩) main_call1.v0 main_call1.v1_0 (fun x y => (Host.sort2 S1000000 0 comparator_i32_i32_d0 x y).1),
    StableHlo.TRef.binary (.of main_v30 : StableHlo.TRef sig ⟨S1000000, .i32⟩) main_call1.v0 main_call1.v1_1 (fun x y => (Host.sort2 S1000000 0 comparator_i32_i32_d0 x y).2) ]
theorem w0_s2_sub : (w0_s2 : List (HloOp τ sig (Elt F))).Forall fun op => op.bufs ⊆ StableHlo.tcRefs τ sig :=
  ⟨StableHlo.nullary_bufs_sub .., StableHlo.binary_bufs_sub .., StableHlo.binary_bufs_sub ..⟩

/-- Window 0, stretch 3: 21 operations. -/
abbrev w0_s3 : List (HloOp τ sig (Elt F)) :=
  [ StableHlo.nullary main_c_5 (constantI S_ 32 0#32),
    StableHlo.unary main_c_5 main_v32 (broadcastInDim S1000000 ![] bcast_S_S1000000 : (⟨S_, .i32⟩ : BufTy).Contents (Elt F) → (⟨S1000000, .i32⟩ : BufTy).Contents (Elt F)),
    StableHlo.binary main_v31 main_v32 main_v33 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 1000000#32),
    StableHlo.unary main_c_6 main_v34 (broadcastInDim S1000000 ![] bcast_S_S1000000 : (⟨S_, .i32⟩ : BufTy).Contents (Elt F) → (⟨S1000000, .i32⟩ : BufTy).Contents (Elt F)),
    StableHlo.binary main_v31 main_v34 main_v35 (addi : (⟨S1000000, .i32⟩ : BufTy).Contents (Elt F) → (⟨S1000000, .i32⟩ : BufTy).Contents (Elt F) → (⟨S1000000, .i32⟩ : BufTy).Contents (Elt F)),
    StableHlo.ternary main_v33 main_v35 main_v31 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v36 main_v37 (broadcastInDim S1000000x1 ![0] bcast_S1000000_S1000000x1_0 : (⟨S1000000, .i32⟩ : BufTy).Contents (Elt F) → (⟨S1000000x1, .i32⟩ : BufTy).Contents (Elt F)),
    StableHlo.binary main_v30 main_v37 main_v38 ((fun x i => Host.gather gather_S1000000_S1000000x1_S1000000_n_0_n_n_0_1_1 x i) : (⟨S1000000, .i32⟩ : BufTy).Contents (Elt F) → (⟨S1000000x1, .i32⟩ : BufTy).Contents (Elt F) → (⟨S1000000, .i32⟩ : BufTy).Contents (Elt F)),
    StableHlo.nullary main_c_7 (constantI S_ 32 0#32),
    StableHlo.unary main_c_7 main_v39 (broadcastInDim S1000000 ![] bcast_S_S1000000 : (⟨S_, .i32⟩ : BufTy).Contents (Elt F) → (⟨S1000000, .i32⟩ : BufTy).Contents (Elt F)),
    StableHlo.binary main_v31 main_v39 main_v40 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 1000000#32),
    StableHlo.unary main_c_8 main_v41 (broadcastInDim S1000000 ![] bcast_S_S1000000 : (⟨S_, .i32⟩ : BufTy).Contents (Elt F) → (⟨S1000000, .i32⟩ : BufTy).Contents (Elt F)),
    StableHlo.binary main_v31 main_v41 main_v42 (addi : (⟨S1000000, .i32⟩ : BufTy).Contents (Elt F) → (⟨S1000000, .i32⟩ : BufTy).Contents (Elt F) → (⟨S1000000, .i32⟩ : BufTy).Contents (Elt F)),
    StableHlo.ternary main_v40 main_v42 main_v31 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v43 main_v44 (broadcastInDim S1000000x1 ![0] bcast_S1000000_S1000000x1_0 : (⟨S1000000, .i32⟩ : BufTy).Contents (Elt F) → (⟨S1000000x1, .i32⟩ : BufTy).Contents (Elt F)),
    StableHlo.binary main_arg0 main_v44 main_v45 ((fun x i => Host.gather gather_S1000000x3_S1000000x1_S1000000x3_1_0_n_n_0_1_13 x i) : (⟨S1000000x3, .f32⟩ : BufTy).Contents (Elt F) → (⟨S1000000x1, .i32⟩ : BufTy).Contents (Elt F) → (⟨S1000000x3, .f32⟩ : BufTy).Contents (Elt F)),
    StableHlo.nullary main_c_9 (constantI S_ 32 0#32),
    StableHlo.unary main_c_9 main_v46 (broadcastInDim S1000000 ![] bcast_S_S1000000 : (⟨S_, .i32⟩ : BufTy).Contents (Elt F) → (⟨S1000000, .i32⟩ : BufTy).Contents (Elt F)),
    StableHlo.binary main_v31 main_v46 main_v47 (cmpi .slt : (⟨S1000000, .i32⟩ : BufTy).Contents (Elt F) → (⟨S1000000, .i32⟩ : BufTy).Contents (Elt F) → (⟨S1000000, .i1⟩ : BufTy).Contents (Elt F)) ]
theorem w0_s3_sub : (w0_s3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub ..⟩

/-- Window 1, stretch 0: 16 operations. -/
abbrev w1_s0 : List (HloOp τ sig (Elt F)) :=
  [ StableHlo.nullary main_c_10 (constantI S_ 32 1000000#32),
    StableHlo.unary main_c_10 main_v48 (broadcastInDim S1000000 ![] bcast_S_S1000000 : (⟨S_, .i32⟩ : BufTy).Contents (Elt F) → (⟨S1000000, .i32⟩ : BufTy).Contents (Elt F)),
    StableHlo.binary main_v31 main_v48 main_v49 (addi : (⟨S1000000, .i32⟩ : BufTy).Contents (Elt F) → (⟨S1000000, .i32⟩ : BufTy).Contents (Elt F) → (⟨S1000000, .i32⟩ : BufTy).Contents (Elt F)),
    StableHlo.ternary main_v47 main_v49 main_v31 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v50 main_v51 (broadcastInDim S1000000x1 ![0] bcast_S1000000_S1000000x1_0 : (⟨S1000000, .i32⟩ : BufTy).Contents (Elt F) → (⟨S1000000x1, .i32⟩ : BufTy).Contents (Elt F)),
    StableHlo.binary main_v7 main_v51 main_v52 ((fun x i => Host.gather gather_S1000000x3_S1000000x1_S1000000x3_1_0_n_n_0_1_13 x i) : (⟨S1000000x3, .i32⟩ : BufTy).Contents (Elt F) → (⟨S1000000x1, .i32⟩ : BufTy).Contents (Elt F) → (⟨S1000000x3, .i32⟩ : BufTy).Contents (Elt F)),
    StableHlo.nullary main_c_11 (constantI S_ 32 480000#32),
    StableHlo.unary main_c_11 main_v53 (broadcastInDim S1000000 ![] bcast_S_S1000000 : (⟨S_, .i32⟩ : BufTy).Contents (Elt F) → (⟨S1000000, .i32⟩ : BufTy).Contents (Elt F)),
    StableHlo.binary main_v38 main_v53 main_v54 (cmpi .slt : (⟨S1000000, .i32⟩ : BufTy).Contents (Elt F) → (⟨S1000000, .i32⟩ : BufTy).Contents (Elt F) → (⟨S1000000, .i1⟩ : BufTy).Contents (Elt F)),
    StableHlo.nullary main_c_12 (constantI S_ 1 1#1),
    StableHlo.unary main_c_12 main_v55 (broadcastInDim S1 ![] bcast_S_S1 : (⟨S_, .i1⟩ : BufTy).Contents (Elt F) → (⟨S1, .i1⟩ : BufTy).Contents (Elt F)),
    StableHlo.unary main_v38 main_v56 ((extractStridedSlice S999999 ![1] · slices_S1000000_S999999_1) : (⟨S1000000, .i32⟩ : BufTy).Contents (Elt F) → (⟨S999999, .i32⟩ : BufTy).Contents (Elt F)),
    StableHlo.unary main_v38 main_v57 ((extractStridedSlice S999999 ![0] · slices_S1000000_S999999_0) : (⟨S1000000, .i32⟩ : BufTy).Contents (Elt F) → (⟨S999999, .i32⟩ : BufTy).Contents (Elt F)),
    StableHlo.binary main_v56 main_v57 main_v58 (cmpi .ne : (⟨S999999, .i32⟩ : BufTy).Contents (Elt F) → (⟨S999999, .i32⟩ : BufTy).Contents (Elt F) → (⟨S999999, .i1⟩ : BufTy).Contents (Elt F)),
    StableHlo.binary main_v55 main_v58 main_v59 ((fun a b => concatenate S1000000 0 [⟨S1, a⟩, ⟨S999999, b⟩] concatenates_S1_S999999_S1000000_d0) : (⟨S1, .i1⟩ : BufTy).Contents (Elt F) → (⟨S999999, .i1⟩ : BufTy).Contents (Elt F) → (⟨S1000000, .i1⟩ : BufTy).Contents (Elt F)),
    StableHlo.unary main_v59 main_v60 ((extui 32 · natLt_1_32) : (⟨S1000000, .i1⟩ : BufTy).Contents (Elt F) → (⟨S1000000, .i32⟩ : BufTy).Contents (Elt F)) ]
theorem w1_s0_sub : (w1_s0 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.unary_bufs_sub ..⟩

/-- Window 1, stretch 1: 3 operations of one call of @cumsum. -/
abbrev w1_s1 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v60 : StableHlo.TRef sig ⟨S1000000, .i32⟩) main_call2.call0.v0 main_call2.call0.v1 (fun x v => Host.reduceWindow IntOp.addi ![1000000] ![1] ![999999] ![0] x v reduceWindows_S1000000_S1000000_w1000000s1p999999_0 h_S_) ]
theorem w1_s1_sub : (w1_s1 : List (HloOp τ sig (Elt F))).Forall fun op => op.bufs ⊆ StableHlo.tcRefs τ sig :=
  ⟨StableHlo.nullary_bufs_sub .., StableHlo.unary_bufs_sub .., StableHlo.binary_bufs_sub ..⟩

/-- Window 1, stretch 2: 5 operations. -/
abbrev w1_s2 : List (HloOp τ sig (Elt F)) :=
  [ StableHlo.nullary main_c_13 (constantI S_ 32 1#32),
    StableHlo.unary main_c_13 main_v62 (broadcastInDim S1000000 ![] bcast_S_S1000000 : (⟨S_, .i32⟩ : BufTy).Contents (Elt F) → (⟨S1000000, .i32⟩ : BufTy).Contents (Elt F)),
    StableHlo.binary main_v61 main_v62 main_v63 (subi : (⟨S1000000, .i32⟩ : BufTy).Contents (Elt F) → (⟨S1000000, .i32⟩ : BufTy).Contents (Elt F) → (⟨S1000000, .i32⟩ : BufTy).Contents (Elt F)),
    StableHlo.nullary main_v64 (iotaInDim S1000000 32 0),
    StableHlo.nullary main_c_14 (constantI S_ 32 0#32) ]
theorem w1_s2_sub : (w1_s2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩

/-- Window 1, stretch 3: 3 operations of one call of @where. -/
abbrev w1_s3 : List (HloOp τ sig (Elt F)) :=
  [ StableHlo.TRef.unary (.of main_c_14 : StableHlo.TRef sig ⟨S_, .i32⟩) main_call3.v0 id,
    StableHlo.TRef.unary main_call3.v0 main_call3.v1 (broadcastInDim S1000000 ![] bcast_S_S1000000),
    StableHlo.TRef.ternary (.of main_v59 : StableHlo.TRef sig ⟨S1000000, .i1⟩) (.of main_v64 : StableHlo.TRef sig ⟨S1000000, .i32⟩) main_call3.v1 main_call3.v2 select ]
theorem w1_s3_sub : (w1_s3 : List (HloOp τ sig (Elt F))).Forall fun op => op.bufs ⊆ StableHlo.tcRefs τ sig :=
  ⟨StableHlo.unary_bufs_sub .., StableHlo.unary_bufs_sub .., StableHlo.ternary_bufs_sub ..⟩

/-- Window 1, stretch 4: 3 operations of one call of @cummax. -/
abbrev w1_s4 : List (HloOp τ sig (Elt F)) :=
  [ StableHlo.TRef.nullary main_call4.c (constantI S_ 32 2147483648#32),
    StableHlo.TRef.unary main_call4.c main_call4.v0 (broadcastInDim S_ ![] bcast_S_S_),
    StableHlo.TRef.binary (.of main_v65 : StableHlo.TRef sig ⟨S1000000, .i32⟩) main_call4.v0 main_call4.v1 (fun x v => Host.reduceWindow IntOp.maxsi ![1000000] ![1] ![999999] ![0] x v reduceWindows_S1000000_S1000000_w1000000s1p999999_0 h_S_) ]
theorem w1_s4_sub : (w1_s4 : List (HloOp τ sig (Elt F))).Forall fun op => op.bufs ⊆ StableHlo.tcRefs τ sig :=
  ⟨StableHlo.nullary_bufs_sub .., StableHlo.unary_bufs_sub .., StableHlo.binary_bufs_sub ..⟩

/-- Window 1, stretch 5: 2 operations. -/
abbrev w1_s5 : List (HloOp τ sig (Elt F)) :=
  [ StableHlo.binary main_v64 main_v66 main_v67 (subi : (⟨S1000000, .i32⟩ : BufTy).Contents (Elt F) → (⟨S1000000, .i32⟩ : BufTy).Contents (Elt F) → (⟨S1000000, .i32⟩ : BufTy).Contents (Elt F)),
    StableHlo.nullary main_c_15 (constantI S_ 32 500000#32) ]
theorem w1_s5_sub : (w1_s5 : List (HloOp τ sig (Elt F))).Forall fun op => op.bufs ⊆ StableHlo.tcRefs τ sig :=
  ⟨StableHlo.binary_bufs_sub .., StableHlo.nullary_bufs_sub ..⟩

/-- Window 1, stretch 6: 3 operations of one call of @where. -/
abbrev w1_s6 : List (HloOp τ sig (Elt F)) :=
  [ StableHlo.TRef.unary (.of main_c_15 : StableHlo.TRef sig ⟨S_, .i32⟩) main_call5.v0 id,
    StableHlo.TRef.unary main_call5.v0 main_call5.v1 (broadcastInDim S1000000 ![] bcast_S_S1000000),
    StableHlo.TRef.ternary (.of main_v54 : StableHlo.TRef sig ⟨S1000000, .i1⟩) (.of main_v63 : StableHlo.TRef sig ⟨S1000000, .i32⟩) main_call5.v1 main_call5.v2 select ]
theorem w1_s6_sub : (w1_s6 : List (HloOp τ sig (Elt F))).Forall fun op => op.bufs ⊆ StableHlo.tcRefs τ sig :=
  ⟨StableHlo.unary_bufs_sub .., StableHlo.unary_bufs_sub .., StableHlo.ternary_bufs_sub ..⟩

/-- Window 1, stretch 7: 33 operations. -/
abbrev w1_s7 : List (HloOp τ sig (Elt F)) :=
  [ StableHlo.nullary main_cst_16 (constant S_ .f32 0x00000000#32),
    StableHlo.unary main_cst_16 main_v69 (broadcastInDim S500000x32x3 ![] bcast_S_S500000x32x3 : (⟨S_, .f32⟩ : BufTy).Contents (Elt F) → (⟨S500000x32x3, .f32⟩ : BufTy).Contents (Elt F)),
    StableHlo.nullary main_c_17 (constantI S_ 32 0#32),
    StableHlo.unary main_c_17 main_v70 (broadcastInDim S1000000 ![] bcast_S_S1000000 : (⟨S_, .i32⟩ : BufTy).Contents (Elt F) → (⟨S1000000, .i32⟩ : BufTy).Contents (Elt F)),
    StableHlo.binary main_v68 main_v70 main_v71 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 500000#32),
    StableHlo.unary main_c_18 main_v72 (broadcastInDim S1000000 ![] bcast_S_S1000000 : (⟨S_, .i32⟩ : BufTy).Contents (Elt F) → (⟨S1000000, .i32⟩ : BufTy).Contents (Elt F)),
    StableHlo.binary main_v68 main_v72 main_v73 (addi : (⟨S1000000, .i32⟩ : BufTy).Contents (Elt F) → (⟨S1000000, .i32⟩ : BufTy).Contents (Elt F) → (⟨S1000000, .i32⟩ : BufTy).Contents (Elt F)),
    StableHlo.ternary main_v71 main_v73 main_v68 main_v74 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_19 (constantI S_ 32 0#32),
    StableHlo.unary main_c_19 main_v75 (broadcastInDim S1000000 ![] bcast_S_S1000000 : (⟨S_, .i32⟩ : BufTy).Contents (Elt F) → (⟨S1000000, .i32⟩ : BufTy).Contents (Elt F)),
    StableHlo.binary main_v67 main_v75 main_v76 (cmpi .slt : (⟨S1000000, .i32⟩ : BufTy).Contents (Elt F) → (⟨S1000000, .i32⟩ : BufTy).Contents (Elt F) → (⟨S1000000, .i1⟩ : BufTy).Contents (Elt F)),
    StableHlo.nullary main_c_20 (constantI S_ 32 32#32),
    StableHlo.unary main_c_20 main_v77 (broadcastInDim S1000000 ![] bcast_S_S1000000 : (⟨S_, .i32⟩ : BufTy).Contents (Elt F) → (⟨S1000000, .i32⟩ : BufTy).Contents (Elt F)),
    StableHlo.binary main_v67 main_v77 main_v78 (addi : (⟨S1000000, .i32⟩ : BufTy).Contents (Elt F) → (⟨S1000000, .i32⟩ : BufTy).Contents (Elt F) → (⟨S1000000, .i32⟩ : BufTy).Contents (Elt F)),
    StableHlo.ternary main_v76 main_v78 main_v67 main_v79 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v74 main_v80 (broadcastInDim S1000000x1 ![0] bcast_S1000000_S1000000x1_0 : (⟨S1000000, .i32⟩ : BufTy).Contents (Elt F) → (⟨S1000000x1, .i32⟩ : BufTy).Contents (Elt F)),
    StableHlo.unary main_v79 main_v81 (broadcastInDim S1000000x1 ![0] bcast_S1000000_S1000000x1_0 : (⟨S1000000, .i32⟩ : BufTy).Contents (Elt F) → (⟨S1000000x1, .i32⟩ : BufTy).Contents (Elt F)),
    StableHlo.binary main_v80 main_v81 main_v82 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.ternary main_v69 main_v82 main_v45 main_v83 ((fun x i u => Host.scatter scatter_S500000x32x3_S1000000x2_S1000000x3_1_01_01_1 (fun _ b => b) x i u) : (⟨S500000x32x3, .f32⟩ : BufTy).Contents (Elt F) → (⟨S1000000x2, .i32⟩ : BufTy).Contents (Elt F) → (⟨S1000000x3, .f32⟩ : BufTy).Contents (Elt F) → (⟨S500000x32x3, .f32⟩ : BufTy).Contents (Elt F)),
    StableHlo.nullary main_c_21 (constantI S_ 32 32#32),
    StableHlo.unary main_c_21 main_v84 (broadcastInDim S1000000 ![] bcast_S_S1000000 : (⟨S_, .i32⟩ : BufTy).Contents (Elt F) → (⟨S1000000, .i32⟩ : BufTy).Contents (Elt F)),
    StableHlo.binary main_v67 main_v84 main_v85 (cmpi .slt : (⟨S1000000, .i32⟩ : BufTy).Contents (Elt F) → (⟨S1000000, .i32⟩ : BufTy).Contents (Elt F) → (⟨S1000000, .i1⟩ : BufTy).Contents (Elt F)),
    StableHlo.binary main_v54 main_v85 main_v86 (andi : (⟨S1000000, .i1⟩ : BufTy).Contents (Elt F) → (⟨S1000000, .i1⟩ : BufTy).Contents (Elt F) → (⟨S1000000, .i1⟩ : BufTy).Contents (Elt F)),
    StableHlo.unary main_v86 main_v87 ((extui 32 · natLt_1_32) : (⟨S1000000, .i1⟩ : BufTy).Contents (Elt F) → (⟨S1000000, .i32⟩ : BufTy).Contents (Elt F)),
    StableHlo.nullary main_c_22 (constantI S_ 32 0#32),
    StableHlo.unary main_c_22 main_v88 (broadcastInDim S500000 ![] bcast_S_S500000 : (⟨S_, .i32⟩ : BufTy).Contents (Elt F) → (⟨S500000, .i32⟩ : BufTy).Contents (Elt F)),
    StableHlo.nullary main_c_23 (constantI S_ 32 0#32),
    StableHlo.unary main_c_23 main_v89 (broadcastInDim S1000000 ![] bcast_S_S1000000 : (⟨S_, .i32⟩ : BufTy).Contents (Elt F) → (⟨S1000000, .i32⟩ : BufTy).Contents (Elt F)),
    StableHlo.binary main_v68 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 500000#32),
    StableHlo.unary main_c_24 main_v91 (broadcastInDim S1000000 ![] bcast_S_S1000000 : (⟨S_, .i32⟩ : BufTy).Contents (Elt F) → (⟨S1000000, .i32⟩ : BufTy).Contents (Elt F)),
    StableHlo.binary main_v68 main_v91 main_v92 (addi : (⟨S1000000, .i32⟩ : BufTy).Contents (Elt F) → (⟨S1000000, .i32⟩ : BufTy).Contents (Elt F) → (⟨S1000000, .i32⟩ : BufTy).Contents (Elt F)) ]
theorem w1_s7_sub : (w1_s7 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- Window 2, stretch 0: 5 operations. -/
abbrev w2_s0 : List (HloOp τ sig (Elt F)) :=
  [ StableHlo.ternary main_v90 main_v92 main_v68 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v94 (broadcastInDim S1000000x1 ![0] bcast_S1000000_S1000000x1_0 : (⟨S1000000, .i32⟩ : BufTy).Contents (Elt F) → (⟨S1000000x1, .i32⟩ : BufTy).Contents (Elt F)),
    StableHlo.ternary main_v88 main_v94 main_v87 main_v95 ((fun x i u => Host.scatter scatter_S500000_S1000000x1_S1000000_n_0_0_1 IntOp.addi x i u) : (⟨S500000, .i32⟩ : BufTy).Contents (Elt F) → (⟨S1000000x1, .i32⟩ : BufTy).Contents (Elt F) → (⟨S1000000, .i32⟩ : BufTy).Contents (Elt F) → (⟨S500000, .i32⟩ : BufTy).Contents (Elt F)),
    StableHlo.binary main_v59 main_v54 main_v96 (andi : (⟨S1000000, .i1⟩ : BufTy).Contents (Elt F) → (⟨S1000000, .i1⟩ : BufTy).Contents (Elt F) → (⟨S1000000, .i1⟩ : BufTy).Contents (Elt F)),
    StableHlo.nullary main_c_25 (constantI S_ 32 500000#32) ]
theorem w2_s0_sub : (w2_s0 : List (HloOp τ sig (Elt F))).Forall fun op => op.bufs ⊆ StableHlo.tcRefs τ sig :=
  ⟨StableHlo.ternary_bufs_sub .., StableHlo.unary_bufs_sub .., StableHlo.ternary_bufs_sub .., StableHlo.binary_bufs_sub .., StableHlo.nullary_bufs_sub ..⟩

/-- Window 2, stretch 1: 3 operations of one call of @where. -/
abbrev w2_s1 : List (HloOp τ sig (Elt F)) :=
  [ StableHlo.TRef.unary (.of main_c_25 : StableHlo.TRef sig ⟨S_, .i32⟩) main_call6.v0 id,
    StableHlo.TRef.unary main_call6.v0 main_call6.v1 (broadcastInDim S1000000 ![] bcast_S_S1000000),
    StableHlo.TRef.ternary (.of main_v96 : StableHlo.TRef sig ⟨S1000000, .i1⟩) (.of main_v63 : StableHlo.TRef sig ⟨S1000000, .i32⟩) main_call6.v1 main_call6.v2 select ]
theorem w2_s1_sub : (w2_s1 : List (HloOp τ sig (Elt F))).Forall fun op => op.bufs ⊆ StableHlo.tcRefs τ sig :=
  ⟨StableHlo.unary_bufs_sub .., StableHlo.unary_bufs_sub .., StableHlo.ternary_bufs_sub ..⟩

/-- Window 2, stretch 2: 22 operations. -/
abbrev w2_s2 : List (HloOp τ sig (Elt F)) :=
  [ StableHlo.nullary main_c_26 (constantI S_ 32 0#32),
    StableHlo.unary main_c_26 main_v98 (broadcastInDim S500000x3 ![] bcast_S_S500000x3 : (⟨S_, .i32⟩ : BufTy).Contents (Elt F) → (⟨S500000x3, .i32⟩ : BufTy).Contents (Elt F)),
    StableHlo.nullary main_c_27 (constantI S_ 32 0#32),
    StableHlo.unary main_c_27 main_v99 (broadcastInDim S1000000 ![] bcast_S_S1000000 : (⟨S_, .i32⟩ : BufTy).Contents (Elt F) → (⟨S1000000, .i32⟩ : BufTy).Contents (Elt F)),
    StableHlo.binary main_v97 main_v99 main_v100 (cmpi .slt : (⟨S1000000, .i32⟩ : BufTy).Contents (Elt F) → (⟨S1000000, .i32⟩ : BufTy).Contents (Elt F) → (⟨S1000000, .i1⟩ : BufTy).Contents (Elt F)),
    StableHlo.nullary main_c_28 (constantI S_ 32 500000#32),
    StableHlo.unary main_c_28 main_v101 (broadcastInDim S1000000 ![] bcast_S_S1000000 : (⟨S_, .i32⟩ : BufTy).Contents (Elt F) → (⟨S1000000, .i32⟩ : BufTy).Contents (Elt F)),
    StableHlo.binary main_v97 main_v101 main_v102 (addi : (⟨S1000000, .i32⟩ : BufTy).Contents (Elt F) → (⟨S1000000, .i32⟩ : BufTy).Contents (Elt F) → (⟨S1000000, .i32⟩ : BufTy).Contents (Elt F)),
    StableHlo.ternary main_v100 main_v102 main_v97 main_v103 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v103 main_v104 (broadcastInDim S1000000x1 ![0] bcast_S1000000_S1000000x1_0 : (⟨S1000000, .i32⟩ : BufTy).Contents (Elt F) → (⟨S1000000x1, .i32⟩ : BufTy).Contents (Elt F)),
    StableHlo.ternary main_v98 main_v104 main_v52 main_v105 ((fun x i u => Host.scatter scatter_S500000x3_S1000000x1_S1000000x3_1_0_0_1 (fun _ b => b) x i u) : (⟨S500000x3, .i32⟩ : BufTy).Contents (Elt F) → (⟨S1000000x1, .i32⟩ : BufTy).Contents (Elt F) → (⟨S1000000x3, .i32⟩ : BufTy).Contents (Elt F) → (⟨S500000x3, .i32⟩ : BufTy).Contents (Elt F)),
    StableHlo.unary main_v105 main_v106 (sitofp .f32 : (⟨S500000x3, .i32⟩ : BufTy).Contents (Elt F) → (⟨S500000x3, .f32⟩ : BufTy).Contents (Elt F)),
    StableHlo.unary main_cst_0 main_v107 (broadcastInDim S1x3 ![1] bcast_S3_S1x3_1 : (⟨S3, .f32⟩ : BufTy).Contents (Elt F) → (⟨S1x3, .f32⟩ : BufTy).Contents (Elt F)),
    StableHlo.unary main_v107 main_v108 (broadcastInDim S500000x3 ![0, 1] bcast_S1x3_S500000x3_0_1 : (⟨S1x3, .f32⟩ : BufTy).Contents (Elt F) → (⟨S500000x3, .f32⟩ : BufTy).Contents (Elt F)),
    StableHlo.binary main_v106 main_v108 main_v109 (mulf : (⟨S500000x3, .f32⟩ : BufTy).Contents (Elt F) → (⟨S500000x3, .f32⟩ : BufTy).Contents (Elt F) → (⟨S500000x3, .f32⟩ : BufTy).Contents (Elt F)),
    StableHlo.nullary main_cst_29 (constant S_ .f32 0x40000000#32),
    StableHlo.unary main_cst_29 main_v110 (broadcastInDim S3 ![] bcast_S_S3 : (⟨S_, .f32⟩ : BufTy).Contents (Elt F) → (⟨S3, .f32⟩ : BufTy).Contents (Elt F)),
    StableHlo.binary main_cst_0 main_v110 main_v111 (Host.divf : (⟨S3, .f32⟩ : BufTy).Contents (Elt F) → (⟨S3, .f32⟩ : BufTy).Contents (Elt F) → (⟨S3, .f32⟩ : BufTy).Contents (Elt F)),
    StableHlo.binary main_cst main_v111 main_v112 (addf : (⟨S3, .f32⟩ : BufTy).Contents (Elt F) → (⟨S3, .f32⟩ : BufTy).Contents (Elt F) → (⟨S3, .f32⟩ : BufTy).Contents (Elt F)),
    StableHlo.unary main_v112 main_v113 (broadcastInDim S1x3 ![1] bcast_S3_S1x3_1 : (⟨S3, .f32⟩ : BufTy).Contents (Elt F) → (⟨S1x3, .f32⟩ : BufTy).Contents (Elt F)),
    StableHlo.unary main_v113 main_v114 (broadcastInDim S500000x3 ![0, 1] bcast_S1x3_S500000x3_0_1 : (⟨S1x3, .f32⟩ : BufTy).Contents (Elt F) → (⟨S500000x3, .f32⟩ : BufTy).Contents (Elt F)),
    StableHlo.binary main_v109 main_v114 main_v115 (addf : (⟨S500000x3, .f32⟩ : BufTy).Contents (Elt F) → (⟨S500000x3, .f32⟩ : BufTy).Contents (Elt F) → (⟨S500000x3, .f32⟩ : BufTy).Contents (Elt F)) ]
theorem w2_s2_sub : (w2_s2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- Window 2, stretch 3: 24 operations. -/
abbrev w2_s3 : List (HloOp τ sig (Elt F)) :=
  [ StableHlo.nullary main_v116 (iotaInDim S32 32 0),
    StableHlo.unary main_v116 main_v117 (broadcastInDim S1x32 ![1] bcast_S32_S1x32_1 : (⟨S32, .i32⟩ : BufTy).Contents (Elt F) → (⟨S1x32, .i32⟩ : BufTy).Contents (Elt F)),
    StableHlo.unary main_v95 main_v118 (broadcastInDim S500000x1 ![0] bcast_S500000_S500000x1_0 : (⟨S500000, .i32⟩ : BufTy).Contents (Elt F) → (⟨S500000x1, .i32⟩ : BufTy).Contents (Elt F)),
    StableHlo.unary main_v117 main_v119 (broadcastInDim S500000x32 ![0, 1] bcast_S1x32_S500000x32_0_1 : (⟨S1x32, .i32⟩ : BufTy).Contents (Elt F) → (⟨S500000x32, .i32⟩ : BufTy).Contents (Elt F)),
    StableHlo.unary main_v118 main_v120 (broadcastInDim S500000x32 ![0, 1] bcast_S500000x1_S500000x32_0_1 : (⟨S500000x1, .i32⟩ : BufTy).Contents (Elt F) → (⟨S500000x32, .i32⟩ : BufTy).Contents (Elt F)),
    StableHlo.binary main_v119 main_v120 main_v121 (cmpi .slt : (⟨S500000x32, .i32⟩ : BufTy).Contents (Elt F) → (⟨S500000x32, .i32⟩ : BufTy).Contents (Elt F) → (⟨S500000x32, .i1⟩ : BufTy).Contents (Elt F)),
    StableHlo.nullary main_c_30 (constantI S_ 32 1#32),
    StableHlo.unary main_c_30 main_v122 (broadcastInDim S500000 ![] bcast_S_S500000 : (⟨S_, .i32⟩ : BufTy).Contents (Elt F) → (⟨S500000, .i32⟩ : BufTy).Contents (Elt F)),
    StableHlo.binary main_v95 main_v122 main_v123 (maxsi : (⟨S500000, .i32⟩ : BufTy).Contents (Elt F) → (⟨S500000, .i32⟩ : BufTy).Contents (Elt F) → (⟨S500000, .i32⟩ : BufTy).Contents (Elt F)),
    StableHlo.unary main_v123 main_v124 (sitofp .f32 : (⟨S500000, .i32⟩ : BufTy).Contents (Elt F) → (⟨S500000, .f32⟩ : BufTy).Contents (Elt F)),
    StableHlo.nullary main_cst_31 (constant S_ .f32 0x00000000#32),
    StableHlo.binary main_v83 main_cst_31 main_v125 ((fun x v => Host.reduceAdd x v reducesTo_S500000x32x3_S500000x3_d1 h_S_) : (⟨S500000x32x3, .f32⟩ : BufTy).Contents (Elt F) → (⟨S_, .f32⟩ : BufTy).Contents (Elt F) → (⟨S500000x3, .f32⟩ : BufTy).Contents (Elt F)),
    StableHlo.unary main_v125 main_v126 (broadcastInDim S500000x1x3 ![0, 2] bcast_S500000x3_S500000x1x3_0_2 : (⟨S500000x3, .f32⟩ : BufTy).Contents (Elt F) → (⟨S500000x1x3, .f32⟩ : BufTy).Contents (Elt F)),
    StableHlo.unary main_v124 main_v127 (broadcastInDim S500000x1x1 ![0] bcast_S500000_S500000x1x1_0 : (⟨S500000, .f32⟩ : BufTy).Contents (Elt F) → (⟨S500000x1x1, .f32⟩ : BufTy).Contents (Elt F)),
    StableHlo.unary main_v127 main_v128 (broadcastInDim S500000x1x3 ![0, 1, 2] bcast_S500000x1x1_S500000x1x3_0_1_2 : (⟨S500000x1x1, .f32⟩ : BufTy).Contents (Elt F) → (⟨S500000x1x3, .f32⟩ : BufTy).Contents (Elt F)),
    StableHlo.binary main_v126 main_v128 main_v129 (Host.divf : (⟨S500000x1x3, .f32⟩ : BufTy).Contents (Elt F) → (⟨S500000x1x3, .f32⟩ : BufTy).Contents (Elt F) → (⟨S500000x1x3, .f32⟩ : BufTy).Contents (Elt F)),
    StableHlo.unary main_v129 main_v130 (broadcastInDim S500000x32x3 ![0, 1, 2] bcast_S500000x1x3_S500000x32x3_0_1_2 : (⟨S500000x1x3, .f32⟩ : BufTy).Contents (Elt F) → (⟨S500000x32x3, .f32⟩ : BufTy).Contents (Elt F)),
    StableHlo.binary main_v83 main_v130 main_v131 (subf : (⟨S500000x32x3, .f32⟩ : BufTy).Contents (Elt F) → (⟨S500000x32x3, .f32⟩ : BufTy).Contents (Elt F) → (⟨S500000x32x3, .f32⟩ : BufTy).Contents (Elt F)),
    StableHlo.unary main_v121 main_v132 (broadcastInDim S500000x32x1 ![0, 1] bcast_S500000x32_S500000x32x1_0_1 : (⟨S500000x32, .i1⟩ : BufTy).Contents (Elt F) → (⟨S500000x32x1, .i1⟩ : BufTy).Contents (Elt F)),
    StableHlo.unary main_v132 main_v133 (uitofp .f32 : (⟨S500000x32x1, .i1⟩ : BufTy).Contents (Elt F) → (⟨S500000x32x1, .f32⟩ : BufTy).Contents (Elt F)),
    StableHlo.unary main_v133 main_v134 (broadcastInDim S500000x32x3 ![0, 1, 2] bcast_S500000x32x1_S500000x32x3_0_1_2 : (⟨S500000x32x1, .f32⟩ : BufTy).Contents (Elt F) → (⟨S500000x32x3, .f32⟩ : BufTy).Contents (Elt F)),
    StableHlo.binary main_v131 main_v134 main_v135 (mulf : (⟨S500000x32x3, .f32⟩ : BufTy).Contents (Elt F) → (⟨S500000x32x3, .f32⟩ : BufTy).Contents (Elt F) → (⟨S500000x32x3, .f32⟩ : BufTy).Contents (Elt F)),
    StableHlo.binary main_v83 main_v135 main_v136 ((fun a b => concatenate S500000x32x6 2 [⟨S500000x32x3, a⟩, ⟨S500000x32x3, b⟩] concatenates_S500000x32x3_S500000x32x3_S500000x32x6_d2) : (⟨S500000x32x3, .f32⟩ : BufTy).Contents (Elt F) → (⟨S500000x32x3, .f32⟩ : BufTy).Contents (Elt F) → (⟨S500000x32x6, .f32⟩ : BufTy).Contents (Elt F)),
    StableHlo.nullary main_c_32 (constantI S_ 32 0#32) ]
theorem w2_s3_sub : (w2_s3 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub ..⟩

/-- Window 2, stretch 4: 2 operations of one call of @pad. -/
abbrev w2_s4 : List (HloOp τ sig (Elt F)) :=
  [ StableHlo.TRef.unary (.of main_c_32 : StableHlo.TRef sig ⟨S_, .i32⟩) main_call7.v0 id,
    StableHlo.TRef.binary (.of main_v105 : StableHlo.TRef sig ⟨S500000x3, .i32⟩) main_call7.v0 main_call7.v1 (fun x v => pad S500000x4 ![0, 1] ![0, 0] ![0, 0] x v pads_S500000x3_S500000x4_000_100 h_S_) ]
theorem w2_s4_sub : (w2_s4 : List (HloOp τ sig (Elt F))).Forall fun op => op.bufs ⊆ StableHlo.tcRefs τ sig :=
  ⟨StableHlo.unary_bufs_sub .., StableHlo.binary_bufs_sub ..⟩

end Cert.ReferenceIdeal.Ops

end
-- ==== Proof.RefRun.lean ====
/-
  The reference program run: its @main is one straight line of host operations (the module-local functions written
  out at their calls), so every weakly fair execution terminates with every buffer at the fold of the operations'
  results over the launch memory. The line is cut in two: `shared`, everything up to the per-voxel point buffer, the
  capped counts, the first-occurrence coordinates and the voxel centres — the bookkeeping (sort, segment ranks,
  scatters) that the kernel's program performs with the very same operations —, and `tail`, the per-voxel arithmetic
  (mask, centroid, offsets, the concatenation) and the padding of the coordinates.
-/
import proofs.«102209_j40785009443381_2_alg».proof.Proof.RefOps
import Idealize.ShloMosaic.Lib.Pipeline.Regions
import Idealize.ShloMosaic.Lib.StableHlo.Run

noncomputable section

namespace Cert.ReferenceIdeal.RefRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-! ## Lists of stretches -/

/-- A chain of straight lines is the straight line of their concatenation. -/
theorem chain_seqs {nD : Nat} {τ : Topo} {sig : RefSig} {Val : EltTy → Type} {Λ : Labels} :
    ∀ ls : List (List (HloOp τ sig Val)),
      (Pipeline.chain (ls.map fun l => (seq l : Prog (TpuEff nD τ sig Val Λ .tc) PUnit))) = seq ls.flatten
  | [] => rfl
  | l :: ls => by
    rw [List.map_cons, Pipeline.chain_cons, chain_seqs ls, List.flatten_cons, seq_append]

/-- A property of every operation of every stretch is a property of every operation of the concatenation. -/
theorem forall_flatten {α : Type} {P : α → Prop} : ∀ {ls : List (List α)}, (ls.Forall fun l => l.Forall P) → ls.flatten.Forall P
  | [], _ => by simp
  | l :: ls, h => by
    rw [List.forall_cons] at h
    rw [List.flatten_cons, List.forall_append]
    exact ⟨h.1, forall_flatten h.2⟩

/-- The fold over a concatenation is the fold over the second line of the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-! ## @main as one line -/

/-- The stretches of the shared bookkeeping: up to the voxel centres. -/
abbrev sharedStretches : List (List (HloOp τ sig (Elt F))) :=
  [w0_s0, w0_s1, w0_s2, w0_s3, w1_s0, w1_s1, w1_s2, w1_s3, w1_s4, w1_s5, w1_s6, w1_s7, w2_s0, w2_s1, w2_s2]
/-- The stretches of the per-voxel arithmetic and the coordinate padding. -/
abbrev tailStretches : List (List (HloOp τ sig (Elt F))) := [w2_s3, w2_s4]

abbrev shared : List (HloOp τ sig (Elt F)) := sharedStretches.flatten
abbrev tail : List (HloOp τ sig (Elt F)) := tailStretches.flatten
abbrev ops : List (HloOp τ sig (Elt F)) := (sharedStretches ++ tailStretches).flatten

theorem part0_chain (c : Dev nD) : main_part0 (F := F) c = (Pipeline.chainK
    [seq w0_s0, seq w0_s1, seq w0_s2] (seq w0_s3) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK
    [seq w1_s0, seq w1_s1, seq w1_s2, seq w1_s3, seq w1_s4, seq w1_s5, seq w1_s6] (seq w1_s7) : Prog (TpuEff nD τ sig (Elt F) (Pipeline.Sig Λ₀ (Fin 0) fun p => (pcfgs (F := F) p).Adm) .tc) PUnit) := by
  chain_rfl

theorem part2_chain (c : Dev nD) : main_part2 (F := F) c = (Pipeline.chain
    [seq w2_s0, seq w2_s1, seq w2_s2, seq w2_s3, seq w2_s4] : Prog (TpuEff nD τ sig (Elt F) (Pipeline.Sig Λ₀ (Fin 0) fun p => (pcfgs (F := F) p).Adm) .tc) PUnit) := by
  chain_rfl

/-- @main is the chain of its windows' stretches. -/
theorem main_chain (c : Dev nD) : main (F := F) c = (Pipeline.chain
    (((sharedStretches ++ tailStretches : List (List (HloOp τ sig (Elt F)))).map fun l => (seq l : Prog (TpuEff nD τ sig (Elt F) (Pipeline.Sig Λ₀ (Fin 0) fun p => (pcfgs (F := F) p).Adm) .tc) PUnit))) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [part2_chain, part1_chain, Pipeline.chainK_bind_chain, part0_chain, Pipeline.chainK_bind_chain]
  rfl

/-- @main is one straight line. -/
theorem main_eq (c : Dev nD) : main (F := F) c = seq ops :=
  (main_chain c).trans (chain_seqs _)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_flatten (by
    simp only [List.cons_append, List.nil_append, List.Forall]
    exact ⟨w0_s0_sub, w0_s1_sub, w0_s2_sub, w0_s3_sub, w1_s0_sub, w1_s1_sub, w1_s2_sub, w1_s3_sub, w1_s4_sub, w1_s5_sub, w1_s6_sub, w1_s7_sub, w2_s0_sub, w2_s1_sub, w2_s2_sub, w2_s3_sub, w2_s4_sub⟩)

theorem ops_fresh : (ops : List (HloOp τ sig (Elt F))).Forall fun op => op.fresh = ∅ :=
  forall_flatten (by
    simp only [List.cons_append, List.nil_append, List.Forall]
    repeat' constructor)

/-- On every device, from any memory with zero counters: every weakly fair execution of the reference's @main
    terminates, and every buffer ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- The line read in its two parts. -/
theorem after_ops (V : Valuation τ sig (Elt F)) : after ops V = after tail (after shared V) := by
  show after (sharedStretches ++ tailStretches).flatten V = _
  rw [List.flatten_append, after_append]

end Cert.ReferenceIdeal.RefRun

end
-- ==== Proof.RTail.lean ====
/-
  The reference's per-voxel arithmetic is the voxel decoration.

  After the shared bookkeeping the reference computes, with whole-array host operations: the mask (an iota of the 32
  ranks against each voxel's count), the centroid (the sum of the point buffer along its 32 rows, kept as an axis, over
  `max(count, 1)` converted to a float), the points less the centroid times the mask, and the concatenation of the
  points with those offsets along the last axis. Read at `(v, p, k)` through the keepdims broadcasts, that is the
  specification's entry: lanes 0–2 come from the first piece of the concatenation, lanes 3–5 from the second; the
  host's sum starts from a zero initial value, which adds nothing. The mask result is the count bits themselves.
  Everything is stated over an arbitrary valuation `W` of the buffers before this part of the line, so that the
  shared bookkeeping before it is never opened.
-/
import proofs.«102209_j40785009443381_2_alg».proof.Proof.RefRun
import proofs.«102209_j40785009443381_2_alg».proof.Proof.Voxel
import proofs.«102209_j40785009443381_2_alg».proof.Proof.LibKeepdims
import Idealize.ShloMosaic.Lib.KernelVsHost
import Idealize.ShloMosaic.Lib.IdealHost

noncomputable section

open scoped BigOperators

namespace Cert.ReferenceIdeal.Tail

open Cert.ReferenceIdeal Cert.ReferenceIdeal.Gen Cert.ReferenceIdeal.Ops Cert.ReferenceIdeal.RefRun
open Idealize.ShloMosaic Idealize.ShloMosaic.TcCoe Idealize.SL.Sem Idealize.ShloMosaic.StableHlo
open Idealize.ShloMosaic.ValueIdx Cert.LibKeepdims

/-! ## The operations' composed terms -/

/-- The reference's mask: the iota of the ranks, laid along every voxel's row, below the voxel's count, laid along
    its row. -/
def refMask (cnt : IVec S500000 32) : IVec S500000x32 1 :=
  cmpi .slt
    (broadcastInDim S500000x32 ![0, 1] bcast_S1x32_S500000x32_0_1
      (broadcastInDim S1x32 ![1] bcast_S32_S1x32_1 (iotaInDim S32 32 0)))
    (broadcastInDim S500000x32 ![0, 1] bcast_S500000x1_S500000x32_0_1
      (broadcastInDim S500000x1 ![0] bcast_S500000_S500000x1_0 cnt))

/-- The reference's masked offsets from the centroid. -/
def refDiff (X : FVec Ideal S500000x32x3 .f32) (cnt : IVec S500000 32) : FVec Ideal S500000x32x3 .f32 :=
  mulf
    (subf X
      (broadcastInDim S500000x32x3 ![0, 1, 2] bcast_S500000x1x3_S500000x32x3_0_1_2
        (Host.divf
          (broadcastInDim S500000x1x3 ![0, 2] bcast_S500000x3_S500000x1x3_0_2
            (Host.reduceAdd X (constant (F := Ideal) S_ .f32 0x00000000#32) reducesTo_S500000x32x3_S500000x3_d1 h_S_))
          (broadcastInDim S500000x1x3 ![0, 1, 2] bcast_S500000x1x1_S500000x1x3_0_1_2
            (broadcastInDim S500000x1x1 ![0] bcast_S500000_S500000x1x1_0
              (sitofp .f32 (maxsi cnt (broadcastInDim S500000 ![] bcast_S_S500000 (constantI S_ 32 1#32)))))))))
    (broadcastInDim S500000x32x3 ![0, 1, 2] bcast_S500000x32x1_S500000x32x3_0_1_2
      (uitofp .f32 (broadcastInDim S500000x32x1 ![0, 1] bcast_S500000x32_S500000x32x1_0_1 (refMask cnt))))

variable (W : Valuation τ sig (Elt Ideal))

/-- The mask result after the tail, as the composed term of the counts before it. -/
theorem mask_term : after (tail (F := Ideal)) W (Proc.devRef .tc main_v121) = refMask (W (Proc.devRef .tc main_v95)) := by
  simp only [tail, tailStretches, w2_s3, w2_s4, List.flatten_cons, List.flatten_nil, List.append_nil, List.cons_append, List.nil_append]
  after_results_simp
  rfl

/-- The decorated result after the tail, as the composed term of the point buffer and the counts before it. -/
theorem out_term : after (tail (F := Ideal)) W (Proc.devRef .tc main_v136)
    = concatenate S500000x32x6 2 [⟨S500000x32x3, W (Proc.devRef .tc main_v83)⟩,
        ⟨S500000x32x3, refDiff (W (Proc.devRef .tc main_v83)) (W (Proc.devRef .tc main_v95))⟩]
        concatenates_S500000x32x3_S500000x32x3_S500000x32x6_d2 := by
  simp only [tail, tailStretches, w2_s3, w2_s4, List.flatten_cons, List.flatten_nil, List.append_nil, List.cons_append, List.nil_append]
  after_results_simp
  rfl

/-- The voxel centres are not written by the tail. -/
theorem centre_kept : after (tail (F := Ideal)) W (Proc.devRef .tc main_v115) = W (Proc.devRef .tc main_v115) := by
  simp only [tail, tailStretches, w2_s3, w2_s4, List.flatten_cons, List.flatten_nil, List.append_nil, List.cons_append, List.nil_append]
  after_results_simp

/-- Nor is the argument. -/
theorem arg_kept : after (tail (F := Ideal)) W (Proc.devRef .tc main_arg0) = W (Proc.devRef .tc main_arg0) := by
  simp only [tail, tailStretches, w2_s3, w2_s4, List.flatten_cons, List.flatten_nil, List.append_nil, List.cons_append, List.nil_append]
  after_results_simp

/-! ## Read at an index -/

/-- The mask at voxel `v`, rank `p`. -/
theorem refMask_apply (cnt : IVec S500000 32) (v : Fin 500000) (p : Fin 32) :
    refMask cnt (ix2 v p) = Voxel.keep p.val (cnt (ix1 v)) := by
  unfold refMask Voxel.keep
  show IntOp.cmpi .slt (broadcastInDim S500000x32 ![0, 1] bcast_S1x32_S500000x32_0_1
      (broadcastInDim S1x32 ![1] bcast_S32_S1x32_1 (iotaInDim S32 32 0)) (ix2 v p))
    (broadcastInDim S500000x32 ![0, 1] bcast_S500000x1_S500000x32_0_1
      (broadcastInDim S500000x1 ![0] bcast_S500000_S500000x1_0 cnt) (ix2 v p)) = _
  rw [broadcastInDim_oneRow_apply, broadcastInDim_b_1b_apply, broadcastInDim_a1_ab_apply, broadcastInDim_a_a1_apply]
  rfl

/-- The masked offset at voxel `v`, rank `p`, coordinate `j`. -/
theorem refDiff_apply (X : FVec Ideal S500000x32x3 .f32) (cnt : IVec S500000 32) (v : Fin 500000) (p : Fin 32) (j : Fin 3) :
    refDiff X cnt (ix3 v p j) = Voxel.offset (X (ix3 v p j)) (∑ q : Fin 32, X (ix3 v q j)) (cnt (ix1 v)) p.val := by
  unfold refDiff Voxel.offset
  refine (mulf_apply _ _ _).trans ?_
  refine congrArg₂ (· * ·) ((subf_apply _ _ _).trans (congrArg₂ (· - ·) rfl ?_)) ?_
  · refine (broadcastInDim_a1c_abc_apply _ _ v p j).trans ((hostDivf_apply _ _ _).trans (congrArg₂ Ideal.div ?_ ?_))
    · refine (broadcastInDim_ac_a1c_apply _ _ v 0 j).trans ((hostMidSum_apply _ _ _ (by decide) _ v j).trans ?_)
      show Ideal.ofBits .f32 0x00000000#32 + _ = _
      rw [Ideal.ofBits_zero_f32, zero_add]
    · refine (broadcastInDim_a11_a1c_apply _ _ v 0 j).trans ((broadcastInDim_a_a11_apply _ _ v 0 0).trans ?_)
      rfl
  · refine (broadcastInDim_ab1_abc_apply _ _ v p j).trans ?_
    show (FloatOps.uitofp .f32 (broadcastInDim S500000x32x1 ![0, 1] bcast_S500000x32_S500000x32x1_0_1 (refMask cnt)
      (ix3 v p (0 : Fin 1))) : Ideal .f32) = _
    rw [broadcastInDim_ab_ab1_apply, refMask_apply]

/-! ## The results -/

/-- THE DECORATED RESULT of the reference is the decoration of the point buffer and the counts (as a column) it had
    after the shared bookkeeping. -/
theorem out_eq (h : S500000.ShapeCasts S500000x1) :
    after (tail (F := Ideal)) W (Proc.devRef .tc main_v136)
      = Voxel.out (n := 500000) (W (Proc.devRef .tc main_v83)) (shapeCast S500000x1 (W (Proc.devRef .tc main_v95)) h) := by
  rw [out_term]
  funext i
  obtain ⟨v, p, k, rfl⟩ : ∃ (v : Fin 500000) (p : Fin 32) (k : Fin 6), i = ix3 v p k := ⟨i 0, i 1, i 2, eq_ix3 i⟩
  by_cases hk : k.val < 3
  · refine (concatenate_pair_apply_left (t := S500000x32x6) (s₁ := S500000x32x3) (s₂ := S500000x32x3) (2 : Fin 3) _ _ _ (ix3 v p k) rfl (ix3 v p (⟨k.val, hk⟩ : Fin 3)) ?_).trans ?_
    · intro b
      match b with
      | ⟨0, _⟩ => rfl
      | ⟨1, _⟩ => rfl
      | ⟨2, _⟩ => rfl
    · exact (Voxel.out_low _ _ v p ⟨k.val, hk⟩ k rfl).symm
  · have hk6 : k.val < 6 := k.isLt
    refine (concatenate_pair_apply_right (t := S500000x32x6) (s₁ := S500000x32x3) (s₂ := S500000x32x3) (2 : Fin 3) _ _ _ (ix3 v p k) rfl rfl
      (ix3 v p (⟨k.val - 3, by omega⟩ : Fin 3)) ?_ ?_).trans ?_
    · intro b hb
      match b with
      | ⟨0, _⟩ => rfl
      | ⟨1, _⟩ => rfl
      | ⟨2, _⟩ => exact absurd rfl hb
    · show k.val - 3 + 3 = k.val
      omega
    · rw [Voxel.out_high _ _ v p ⟨k.val - 3, by omega⟩ k (by show k.val = 3 + (k.val - 3); omega), refDiff_apply,
        shapeCast_a_a1_apply]

/-- THE MASK RESULT of the reference is the mask of those counts. -/
theorem mask_eq (h : S500000.ShapeCasts S500000x1) :
    after (tail (F := Ideal)) W (Proc.devRef .tc main_v121)
      = Voxel.mask (n := 500000) (shapeCast S500000x1 (W (Proc.devRef .tc main_v95)) h) := by
  rw [mask_term]
  funext i
  obtain ⟨v, p, rfl⟩ : ∃ (v : Fin 500000) (p : Fin 32), i = ix2 v p := ⟨i 0, i 1, eq_ix2 i⟩
  show refMask _ (ix2 v p) = Voxel.keep p.val (shapeCast S500000x1 (W (Proc.devRef .tc main_v95)) h (ix2 v (0 : Fin 1)))
  rw [refMask_apply, shapeCast_a_a1_apply]

end Cert.ReferenceIdeal.Tail

end
-- ==== Proof.Coord.lean ====
/-
  The padded coordinates. Both programs end by padding the first-occurrence coordinates [500000, 3] with one zero lane
  in front (the batch index); each does it with the same two operations on its own copy of that array, so the results
  agree as soon as the arrays do.
-/
import proofs.«102209_j40785009443381_2_alg».proof.Proof.RefRun
import proofs.«102209_j40785009443381_2_alg».proof.Proof.Gen.KernelIdeal.Launch
import Idealize.ShloMosaic.PureOps.Ideal

noncomputable section

namespace Cert.Coord

open Idealize.ShloMosaic Idealize.ShloMosaic.TcCoe Idealize.SL.Sem Idealize.ShloMosaic.StableHlo

/-- The reference's padded coordinates after its tail are the kernel program's after the lines that follow the region,
    when the two first-occurrence arrays before them agree. -/
theorem agree (Wv : Valuation Cert.KernelIdeal.τ Cert.KernelIdeal.sig (Elt Ideal)) (W : Valuation Cert.ReferenceIdeal.τ Cert.ReferenceIdeal.sig (Elt Ideal))
    (h : W (Proc.devRef .tc Cert.ReferenceIdeal.main_v105) = Wv (Proc.devRef .tc Cert.KernelIdeal.main_v105)) :
    after (Cert.ReferenceIdeal.RefRun.tail (F := Ideal)) W (Proc.devRef .tc Cert.ReferenceIdeal.main_v137)
      = after (List.flatten [Cert.KernelIdeal.Gen.hostOps1 (F := Ideal), Cert.KernelIdeal.Gen.hostOps1_1]) Wv (Proc.devRef .tc Cert.KernelIdeal.main_v121) := by
  simp only [Cert.ReferenceIdeal.RefRun.tail, Cert.ReferenceIdeal.RefRun.tailStretches, Cert.ReferenceIdeal.Ops.w2_s3, Cert.ReferenceIdeal.Ops.w2_s4, Cert.KernelIdeal.Gen.hostOps1, Cert.KernelIdeal.Gen.hostOps1_1,
    List.flatten_cons, List.flatten_nil, List.append_nil, List.cons_append, List.nil_append]
  after_results_simp
  generalize W (Proc.devRef .tc Cert.ReferenceIdeal.main_v105) = A at h ⊢
  subst h
  rfl

end Cert.Coord

end
-- ==== Proof.LibConcat2.lean ====
/-
  A two-piece concatenation with its pieces as plain arguments.

  The printed `concatenate t a [⟨s₁, x₁⟩, ⟨s₂, x₂⟩] h` keeps each piece inside a dependent pair (the piece's shape, then
  the piece), where a rewriting pass cannot reach it. `concat2` is the same array with the pieces as arguments of their
  own; `concatenate_pair` turns the printed form into it, and `fold_pairs` is the pass that rewrites a fold of host
  operations to the operations' composed term, reaching inside the pieces of such concatenations too.
-/
import Idealize.ShloMosaic.Lib.StableHlo.Run

namespace Cert.LibConcat2

open Idealize.ShloMosaic

/-- Two pieces laid end to end along axis `ax`. -/
def concat2 {α : Type} (t : Shape) (ax : Fin t.rank) (s₁ s₂ : Shape) (a : s₁.Idx → α) (b : s₂.Idx → α)
    (h : Shape.Concatenates [s₁, s₂] t ax) : t.Idx → α :=
  concatenate t ax [⟨s₁, a⟩, ⟨s₂, b⟩] h

theorem concatenate_pair {α : Type} (t : Shape) (ax : Fin t.rank) (s₁ s₂ : Shape) (a : s₁.Idx → α) (b : s₂.Idx → α)
    (h : Shape.Concatenates [s₁, s₂] t ax) :
    concatenate t ax [⟨s₁, a⟩, ⟨s₂, b⟩] h = concat2 t ax s₁ s₂ a b h := rfl

/-- A fold of host operations at a buffer, rewritten to the operations' composed term of the contents before it, the
    pieces of two-piece concatenations included. -/
macro "fold_pairs" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne', Cert.LibConcat2.concatenate_pair]))

end Cert.LibConcat2
-- ==== Proof.SharedSteps.lean ====
/- Both programs compute the voxel bookkeeping with the same host operations, cut here into the same fifteen stretches.
   For each stretch: if the buffers it and the later stretches still read hold the same contents in the two programs,
   so do the buffers still read after it. Each is proved the same way: both folds over the stretch are rewritten to
   the operations' composed terms of the contents before it, the reference's contents are replaced by the kernel
   program's, and the two terms are then one term. The reference names its two coordinate constants (the lower
   bounds and the voxel size) the other way round. -/
import proofs.«102209_j40785009443381_2_alg».proof.Proof.RefRun
import proofs.«102209_j40785009443381_2_alg».proof.Proof.Gen.KernelIdeal.Launch
import proofs.«102209_j40785009443381_2_alg».proof.Proof.LibConcat2
import Idealize.ShloMosaic.PureOps.Ideal

noncomputable section

namespace Cert.SharedSteps

open Idealize.ShloMosaic Idealize.ShloMosaic.TcCoe Idealize.SL.Sem Idealize.ShloMosaic.StableHlo Cert.LibConcat2

set_option maxHeartbeats 1500000 in
/-- Stretch 0 (37 operations). -/
theorem step0 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_arg0) = Wk (Proc.devRef .tc Cert.KernelIdeal.main_arg0)) :
    after (Cert.ReferenceIdeal.Ops.w0_s0 (F := Ideal)) Wr (Proc.devRef .tc Cert.ReferenceIdeal.main_arg0) = after (Cert.KernelIdeal.Gen.main_part0_ops0 (F := Ideal)) Wk (Proc.devRef .tc Cert.KernelIdeal.main_arg0)
      ∧ after (Cert.ReferenceIdeal.Ops.w0_s0 (F := Ideal)) Wr (Proc.devRef .tc Cert.ReferenceIdeal.main_c_4) = after (Cert.KernelIdeal.Gen.main_part0_ops0 (F := Ideal)) Wk (Proc.devRef .tc Cert.KernelIdeal.main_c_4)
      ∧ after (Cert.ReferenceIdeal.Ops.w0_s0 (F := Ideal)) Wr (Proc.devRef .tc Cert.ReferenceIdeal.main_cst_0) = after (Cert.KernelIdeal.Gen.main_part0_ops0 (F := Ideal)) Wk (Proc.devRef .tc Cert.KernelIdeal.main_cst)
      ∧ after (Cert.ReferenceIdeal.Ops.w0_s0 (F := Ideal)) Wr (Proc.devRef .tc Cert.ReferenceIdeal.main_cst) = after (Cert.KernelIdeal.Gen.main_part0_ops0 (F := Ideal)) Wk (Proc.devRef .tc Cert.KernelIdeal.main_cst_0)
      ∧ after (Cert.ReferenceIdeal.Ops.w0_s0 (F := Ideal)) Wr (Proc.devRef .tc Cert.ReferenceIdeal.main_v7) = after (Cert.KernelIdeal.Gen.main_part0_ops0 (F := Ideal)) Wk (Proc.devRef .tc Cert.KernelIdeal.main_v7)
      ∧ after (Cert.ReferenceIdeal.Ops.w0_s0 (F := Ideal)) Wr (Proc.devRef .tc Cert.ReferenceIdeal.main_v17) = after (Cert.KernelIdeal.Gen.main_part0_ops0 (F := Ideal)) Wk (Proc.devRef .tc Cert.KernelIdeal.main_v17)
      ∧ after (Cert.ReferenceIdeal.Ops.w0_s0 (F := Ideal)) Wr (Proc.devRef .tc Cert.ReferenceIdeal.main_v29) = after (Cert.KernelIdeal.Gen.main_part0_ops0 (F := Ideal)) Wk (Proc.devRef .tc Cert.KernelIdeal.main_v29) := by
  have h0 := h
  simp only [Cert.KernelIdeal.Gen.main_part0_ops0, Cert.ReferenceIdeal.Ops.w0_s0]
  fold_pairs <;> (
    generalize Wr (Proc.devRef .tc Cert.ReferenceIdeal.main_arg0) = A0 at h0 ⊢; subst h0
    refine ⟨?_, ?_, ?_, ?_, ?_, ?_, ?_⟩ <;> first | trivial | rfl)

set_option maxHeartbeats 1500000 in
/-- Stretch 1 (3 operations). -/
theorem step1 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_arg0) = Wk (Proc.devRef .tc Cert.KernelIdeal.main_arg0)
      ∧ Wr (Proc.devRef .tc Cert.ReferenceIdeal.main_c_4) = Wk (Proc.devRef .tc Cert.KernelIdeal.main_c_4)
      ∧ Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v7) = Wk (Proc.devRef .tc Cert.KernelIdeal.main_v7)
      ∧ Wr (Proc.devRef .tc Cert.ReferenceIdeal.main_v17) = Wk (Proc.devRef .tc Cert.KernelIdeal.main_v17)
      ∧ Wr (Proc.devRef .tc Cert.ReferenceIdeal.main_v29) = Wk (Proc.devRef .tc Cert.KernelIdeal.main_v29)) :
    after (Cert.ReferenceIdeal.Ops.w0_s1 (F := Ideal)) Wr (Proc.devRef .tc Cert.ReferenceIdeal.main_arg0) = after (Cert.KernelIdeal.Gen.main_part0_ops1 (F := Ideal)) Wk (Proc.devRef .tc Cert.KernelIdeal.main_arg0)
      ∧ after (Cert.ReferenceIdeal.Ops.w0_s1 (F := Ideal)) Wr (Proc.devRef .tc Cert.ReferenceIdeal.main_cst_0) = after (Cert.KernelIdeal.Gen.main_part0_ops1 (F := Ideal)) Wk (Proc.devRef .tc Cert.KernelIdeal.main_cst)
      ∧ after (Cert.ReferenceIdeal.Ops.w0_s1 (F := Ideal)) Wr (Proc.devRef .tc Cert.ReferenceIdeal.main_cst) = after (Cert.KernelIdeal.Gen.main_part0_ops1 (F := Ideal)) Wk (Proc.devRef .tc Cert.KernelIdeal.main_cst_0)
      ∧ after (Cert.ReferenceIdeal.Ops.w0_s1 (F := Ideal)) Wr (Proc.devRef .tc Cert.ReferenceIdeal.main_v7) = after (Cert.KernelIdeal.Gen.main_part0_ops1 (F := Ideal)) Wk (Proc.devRef .tc Cert.KernelIdeal.main_v7)
      ∧ after (Cert.ReferenceIdeal.Ops.w0_s1 (F := Ideal)) Wr (Proc.devRef .tc Cert.ReferenceIdeal.main_v30) = after (Cert.KernelIdeal.Gen.main_part0_ops1 (F := Ideal)) Wk (Proc.devRef .tc Cert.KernelIdeal.main_v30) := by
  obtain ⟨h0, h1, h2, h3, h4, h5, h6⟩ := h
  simp only [Cert.KernelIdeal.Gen.main_part0_ops1, Cert.ReferenceIdeal.Ops.w0_s1]
  fold_pairs <;> (
    generalize Wr (Proc.devRef .tc Cert.ReferenceIdeal.main_arg0) = A0 at h0 ⊢; subst h0
    generalize Wr (Proc.devRef .tc Cert.ReferenceIdeal.main_c_4) = A1 at h1 ⊢; subst h1
    generalize Wr (Proc.devRef .tc Cert.ReferenceIdeal.main_cst_0) = A2 at h2 ⊢; subst h2
    generalize Wr (Proc.devRef .tc Cert.ReferenceIdeal.main_cst) = A3 at h3 ⊢; subst h3
    generalize Wr (Proc.devRef .tc Cert.ReferenceIdeal.main_v7) = A4 at h4 ⊢; subst h4
    generalize Wr (Proc.devRef .tc Cert.ReferenceIdeal.main_v17) = A5 at h5 ⊢; subst h5
    generalize Wr (Proc.devRef .tc Cert.ReferenceIdeal.main_v29) = A6 at h6 ⊢; subst h6
    refine ⟨?_, ?_, ?_, ?_, ?_⟩ <;> first | trivial | rfl)

set_option maxHeartbeats 1500000 in
/-- Stretch 2 (3 operations). -/
theorem step2 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_arg0) = Wk (Proc.devRef .tc Cert.KernelIdeal.main_arg0)
      ∧ Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v7) = Wk (Proc.devRef .tc Cert.KernelIdeal.main_v7)
      ∧ Wr (Proc.devRef .tc Cert.ReferenceIdeal.main_v30) = Wk (Proc.devRef .tc Cert.KernelIdeal.main_v30)) :
    after (Cert.ReferenceIdeal.Ops.w0_s2 (F := Ideal)) Wr (Proc.devRef .tc Cert.ReferenceIdeal.main_arg0) = after (Cert.KernelIdeal.Gen.main_part0_ops2 (F := Ideal)) Wk (Proc.devRef .tc Cert.KernelIdeal.main_arg0)
      ∧ after (Cert.ReferenceIdeal.Ops.w0_s2 (F := Ideal)) Wr (Proc.devRef .tc Cert.ReferenceIdeal.main_cst_0) = after (Cert.KernelIdeal.Gen.main_part0_ops2 (F := Ideal)) Wk (Proc.devRef .tc Cert.KernelIdeal.main_cst)
      ∧ after (Cert.ReferenceIdeal.Ops.w0_s2 (F := Ideal)) Wr (Proc.devRef .tc Cert.ReferenceIdeal.main_cst) = after (Cert.KernelIdeal.Gen.main_part0_ops2 (F := Ideal)) Wk (Proc.devRef .tc Cert.KernelIdeal.main_cst_0)
      ∧ after (Cert.ReferenceIdeal.Ops.w0_s2 (F := Ideal)) Wr (Proc.devRef .tc Cert.ReferenceIdeal.main_v7) = after (Cert.KernelIdeal.Gen.main_part0_ops2 (F := Ideal)) Wk (Proc.devRef .tc Cert.KernelIdeal.main_v7)
      ∧ after (Cert.ReferenceIdeal.Ops.w0_s2 (F := Ideal)) Wr (Proc.devRef .tc Cert.ReferenceIdeal.main_v30) = after (Cert.KernelIdeal.Gen.main_part0_ops2 (F := Ideal)) Wk (Proc.devRef .tc Cert.KernelIdeal.main_v30)
      ∧ after (Cert.ReferenceIdeal.Ops.w0_s2 (F := Ideal)) Wr (Proc.devRef .tc Cert.ReferenceIdeal.main_v31) = after (Cert.KernelIdeal.Gen.main_part0_ops2 (F := Ideal)) Wk (Proc.devRef .tc Cert.KernelIdeal.main_v31) := by
  obtain ⟨h0, h1, h2, h3, h4⟩ := h
  simp only [Cert.KernelIdeal.Gen.main_part0_ops2, Cert.ReferenceIdeal.Ops.w0_s2]
  fold_pairs <;> (
    generalize Wr (Proc.devRef .tc Cert.ReferenceIdeal.main_arg0) = A0 at h0 ⊢; subst h0
    generalize Wr (Proc.devRef .tc Cert.ReferenceIdeal.main_cst_0) = A1 at h1 ⊢; subst h1
    generalize Wr (Proc.devRef .tc Cert.ReferenceIdeal.main_cst) = A2 at h2 ⊢; subst h2
    generalize Wr (Proc.devRef .tc Cert.ReferenceIdeal.main_v7) = A3 at h3 ⊢; subst h3
    generalize Wr (Proc.devRef .tc Cert.ReferenceIdeal.main_v30) = A4 at h4 ⊢; subst h4
    refine ⟨?_, ?_, ?_, ?_, ?_, ?_⟩ <;> first | trivial | rfl)

set_option maxHeartbeats 1500000 in
/-- Stretch 3 (21 operations). -/
theorem step3 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_arg0) = Wk (Proc.devRef .tc Cert.KernelIdeal.main_arg0)
      ∧ Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v7) = Wk (Proc.devRef .tc Cert.KernelIdeal.main_v7)
      ∧ Wr (Proc.devRef .tc Cert.ReferenceIdeal.main_v30) = Wk (Proc.devRef .tc Cert.KernelIdeal.main_v30)
      ∧ Wr (Proc.devRef .tc Cert.ReferenceIdeal.main_v31) = Wk (Proc.devRef .tc Cert.KernelIdeal.main_v31)) :
    after (Cert.ReferenceIdeal.Ops.w0_s3 (F := Ideal)) Wr (Proc.devRef .tc Cert.ReferenceIdeal.main_cst_0) = after (Cert.KernelIdeal.Gen.main_part0_ops3 (F := Ideal)) Wk (Proc.devRef .tc Cert.KernelIdeal.main_cst)
      ∧ after (Cert.ReferenceIdeal.Ops.w0_s3 (F := Ideal)) Wr (Proc.devRef .tc Cert.ReferenceIdeal.main_cst) = after (Cert.KernelIdeal.Gen.main_part0_ops3 (F := Ideal)) Wk (Proc.devRef .tc Cert.KernelIdeal.main_cst_0)
      ∧ after (Cert.ReferenceIdeal.Ops.w0_s3 (F := Ideal)) Wr (Proc.devRef .tc Cert.ReferenceIdeal.main_v7) = after (Cert.KernelIdeal.Gen.main_part0_ops3 (F := Ideal)) Wk (Proc.devRef .tc Cert.KernelIdeal.main_v7)
      ∧ after (Cert.ReferenceIdeal.Ops.w0_s3 (F := Ideal)) Wr (Proc.devRef .tc Cert.ReferenceIdeal.main_v31) = after (Cert.KernelIdeal.Gen.main_part0_ops3 (F := Ideal)) Wk (Proc.devRef .tc Cert.KernelIdeal.main_v31)
      ∧ after (Cert.ReferenceIdeal.Ops.w0_s3 (F := Ideal)) Wr (Proc.devRef .tc Cert.ReferenceIdeal.main_v38) = after (Cert.KernelIdeal.Gen.main_part0_ops3 (F := Ideal)) Wk (Proc.devRef .tc Cert.KernelIdeal.main_v38)
      ∧ after (Cert.ReferenceIdeal.Ops.w0_s3 (F := Ideal)) Wr (Proc.devRef .tc Cert.ReferenceIdeal.main_v45) = after (Cert.KernelIdeal.Gen.main_part0_ops3 (F := Ideal)) Wk (Proc.devRef .tc Cert.KernelIdeal.main_v45)
      ∧ after (Cert.ReferenceIdeal.Ops.w0_s3 (F := Ideal)) Wr (Proc.devRef .tc Cert.ReferenceIdeal.main_v47) = after (Cert.KernelIdeal.Gen.main_part0_ops3 (F := Ideal)) Wk (Proc.devRef .tc Cert.KernelIdeal.main_v47) := by
  obtain ⟨h0, h1, h2, h3, h4, h5⟩ := h
  simp only [Cert.KernelIdeal.Gen.main_part0_ops3, Cert.ReferenceIdeal.Ops.w0_s3]
  fold_pairs <;> (
    generalize Wr (Proc.devRef .tc Cert.ReferenceIdeal.main_arg0) = A0 at h0 ⊢; subst h0
    generalize Wr (Proc.devRef .tc Cert.ReferenceIdeal.main_cst_0) = A1 at h1 ⊢; subst h1
    generalize Wr (Proc.devRef .tc Cert.ReferenceIdeal.main_cst) = A2 at h2 ⊢; subst h2
    generalize Wr (Proc.devRef .tc Cert.ReferenceIdeal.main_v7) = A3 at h3 ⊢; subst h3
    generalize Wr (Proc.devRef .tc Cert.ReferenceIdeal.main_v30) = A4 at h4 ⊢; subst h4
    generalize Wr (Proc.devRef .tc Cert.ReferenceIdeal.main_v31) = A5 at h5 ⊢; subst h5
    refine ⟨?_, ?_, ?_, ?_, ?_, ?_, ?_⟩ <;> first | trivial | rfl)

set_option maxHeartbeats 1500000 in
/-- Stretch 4 (16 operations). -/
theorem step4 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v7) = Wk (Proc.devRef .tc Cert.KernelIdeal.main_v7)
      ∧ Wr (Proc.devRef .tc Cert.ReferenceIdeal.main_v31) = Wk (Proc.devRef .tc Cert.KernelIdeal.main_v31)
      ∧ Wr (Proc.devRef .tc Cert.ReferenceIdeal.main_v38) = Wk (Proc.devRef .tc Cert.KernelIdeal.main_v38)
      ∧ Wr (Proc.devRef .tc Cert.ReferenceIdeal.main_v45) = Wk (Proc.devRef .tc Cert.KernelIdeal.main_v45)
      ∧ Wr (Proc.devRef .tc Cert.ReferenceIdeal.main_v47) = Wk (Proc.devRef .tc Cert.KernelIdeal.main_v47)) :
    after (Cert.ReferenceIdeal.Ops.w1_s0 (F := Ideal)) Wr (Proc.devRef .tc Cert.ReferenceIdeal.main_cst_0) = after (Cert.KernelIdeal.Gen.main_part1_ops0 (F := Ideal)) Wk (Proc.devRef .tc Cert.KernelIdeal.main_cst)
      ∧ after (Cert.ReferenceIdeal.Ops.w1_s0 (F := Ideal)) Wr (Proc.devRef .tc Cert.ReferenceIdeal.main_cst) = after (Cert.KernelIdeal.Gen.main_part1_ops0 (F := Ideal)) Wk (Proc.devRef .tc Cert.KernelIdeal.main_cst_0)
      ∧ after (Cert.ReferenceIdeal.Ops.w1_s0 (F := Ideal)) Wr (Proc.devRef .tc Cert.ReferenceIdeal.main_v45) = after (Cert.KernelIdeal.Gen.main_part1_ops0 (F := Ideal)) Wk (Proc.devRef .tc Cert.KernelIdeal.main_v45)
      ∧ after (Cert.ReferenceIdeal.Ops.w1_s0 (F := Ideal)) Wr (Proc.devRef .tc Cert.ReferenceIdeal.main_v52) = after (Cert.KernelIdeal.Gen.main_part1_ops0 (F := Ideal)) Wk (Proc.devRef .tc Cert.KernelIdeal.main_v52)
      ∧ after (Cert.ReferenceIdeal.Ops.w1_s0 (F := Ideal)) Wr (Proc.devRef .tc Cert.ReferenceIdeal.main_v54) = after (Cert.KernelIdeal.Gen.main_part1_ops0 (F := Ideal)) Wk (Proc.devRef .tc Cert.KernelIdeal.main_v54)
      ∧ after (Cert.ReferenceIdeal.Ops.w1_s0 (F := Ideal)) Wr (Proc.devRef .tc Cert.ReferenceIdeal.main_v59) = after (Cert.KernelIdeal.Gen.main_part1_ops0 (F := Ideal)) Wk (Proc.devRef .tc Cert.KernelIdeal.main_v59)
      ∧ after (Cert.ReferenceIdeal.Ops.w1_s0 (F := Ideal)) Wr (Proc.devRef .tc Cert.ReferenceIdeal.main_v60) = after (Cert.KernelIdeal.Gen.main_part1_ops0 (F := Ideal)) Wk (Proc.devRef .tc Cert.KernelIdeal.main_v60) := by
  obtain ⟨h0, h1, h2, h3, h4, h5, h6⟩ := h
  simp only [Cert.KernelIdeal.Gen.main_part1_ops0, Cert.ReferenceIdeal.Ops.w1_s0]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v7) = A2 at h2 ⊢; subst h2
    generalize Wr (Proc.devRef .tc Cert.ReferenceIdeal.main_v31) = A3 at h3 ⊢; subst h3
    generalize Wr (Proc.devRef .tc Cert.ReferenceIdeal.main_v38) = A4 at h4 ⊢; subst h4
    generalize Wr (Proc.devRef .tc Cert.ReferenceIdeal.main_v45) = A5 at h5 ⊢; subst h5
    generalize Wr (Proc.devRef .tc Cert.ReferenceIdeal.main_v47) = A6 at h6 ⊢; subst h6
    refine ⟨?_, ?_, ?_, ?_, ?_, ?_, ?_⟩ <;> first | trivial | rfl)

set_option maxHeartbeats 1500000 in
/-- Stretch 5 (3 operations). -/
theorem step5 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v60) = Wk (Proc.devRef .tc Cert.KernelIdeal.main_v60)) :
    after (Cert.ReferenceIdeal.Ops.w1_s1 (F := Ideal)) Wr (Proc.devRef .tc Cert.ReferenceIdeal.main_cst_0) = after (Cert.KernelIdeal.Gen.main_part1_ops1 (F := Ideal)) Wk (Proc.devRef .tc Cert.KernelIdeal.main_cst)
      ∧ after (Cert.ReferenceIdeal.Ops.w1_s1 (F := Ideal)) Wr (Proc.devRef .tc Cert.ReferenceIdeal.main_cst) = after (Cert.KernelIdeal.Gen.main_part1_ops1 (F := Ideal)) Wk (Proc.devRef .tc Cert.KernelIdeal.main_cst_0)
      ∧ after (Cert.ReferenceIdeal.Ops.w1_s1 (F := Ideal)) Wr (Proc.devRef .tc Cert.ReferenceIdeal.main_v45) = after (Cert.KernelIdeal.Gen.main_part1_ops1 (F := Ideal)) Wk (Proc.devRef .tc Cert.KernelIdeal.main_v45)
      ∧ after (Cert.ReferenceIdeal.Ops.w1_s1 (F := Ideal)) Wr (Proc.devRef .tc Cert.ReferenceIdeal.main_v52) = after (Cert.KernelIdeal.Gen.main_part1_ops1 (F := Ideal)) Wk (Proc.devRef .tc Cert.KernelIdeal.main_v52)
      ∧ after (Cert.ReferenceIdeal.Ops.w1_s1 (F := Ideal)) Wr (Proc.devRef .tc Cert.ReferenceIdeal.main_v54) = after (Cert.KernelIdeal.Gen.main_part1_ops1 (F := Ideal)) Wk (Proc.devRef .tc Cert.KernelIdeal.main_v54)
      ∧ after (Cert.ReferenceIdeal.Ops.w1_s1 (F := Ideal)) Wr (Proc.devRef .tc Cert.ReferenceIdeal.main_v59) = after (Cert.KernelIdeal.Gen.main_part1_ops1 (F := Ideal)) Wk (Proc.devRef .tc Cert.KernelIdeal.main_v59)
      ∧ after (Cert.ReferenceIdeal.Ops.w1_s1 (F := Ideal)) Wr (Proc.devRef .tc Cert.ReferenceIdeal.main_v61) = after (Cert.KernelIdeal.Gen.main_part1_ops1 (F := Ideal)) Wk (Proc.devRef .tc Cert.KernelIdeal.main_v61) := by
  obtain ⟨h0, h1, h2, h3, h4, h5, h6⟩ := h
  simp only [Cert.KernelIdeal.Gen.main_part1_ops1, Cert.ReferenceIdeal.Ops.w1_s1]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v45) = A2 at h2 ⊢; subst h2
    generalize Wr (Proc.devRef .tc Cert.ReferenceIdeal.main_v52) = A3 at h3 ⊢; subst h3
    generalize Wr (Proc.devRef .tc Cert.ReferenceIdeal.main_v54) = A4 at h4 ⊢; subst h4
    generalize Wr (Proc.devRef .tc Cert.ReferenceIdeal.main_v59) = A5 at h5 ⊢; subst h5
    generalize Wr (Proc.devRef .tc Cert.ReferenceIdeal.main_v60) = A6 at h6 ⊢; subst h6
    refine ⟨?_, ?_, ?_, ?_, ?_, ?_, ?_⟩ <;> first | trivial | rfl)

set_option maxHeartbeats 1500000 in
/-- Stretch 6 (5 operations). -/
theorem step6 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v61) = Wk (Proc.devRef .tc Cert.KernelIdeal.main_v61)) :
    after (Cert.ReferenceIdeal.Ops.w1_s2 (F := Ideal)) Wr (Proc.devRef .tc Cert.ReferenceIdeal.main_c_14) = after (Cert.KernelIdeal.Gen.main_part1_ops2 (F := Ideal)) Wk (Proc.devRef .tc Cert.KernelIdeal.main_c_14)
      ∧ after (Cert.ReferenceIdeal.Ops.w1_s2 (F := Ideal)) Wr (Proc.devRef .tc Cert.ReferenceIdeal.main_cst_0) = after (Cert.KernelIdeal.Gen.main_part1_ops2 (F := Ideal)) Wk (Proc.devRef .tc Cert.KernelIdeal.main_cst)
      ∧ after (Cert.ReferenceIdeal.Ops.w1_s2 (F := Ideal)) Wr (Proc.devRef .tc Cert.ReferenceIdeal.main_cst) = after (Cert.KernelIdeal.Gen.main_part1_ops2 (F := Ideal)) Wk (Proc.devRef .tc Cert.KernelIdeal.main_cst_0)
      ∧ after (Cert.ReferenceIdeal.Ops.w1_s2 (F := Ideal)) Wr (Proc.devRef .tc Cert.ReferenceIdeal.main_v45) = after (Cert.KernelIdeal.Gen.main_part1_ops2 (F := Ideal)) Wk (Proc.devRef .tc Cert.KernelIdeal.main_v45)
      ∧ after (Cert.ReferenceIdeal.Ops.w1_s2 (F := Ideal)) Wr (Proc.devRef .tc Cert.ReferenceIdeal.main_v52) = after (Cert.KernelIdeal.Gen.main_part1_ops2 (F := Ideal)) Wk (Proc.devRef .tc Cert.KernelIdeal.main_v52)
      ∧ after (Cert.ReferenceIdeal.Ops.w1_s2 (F := Ideal)) Wr (Proc.devRef .tc Cert.ReferenceIdeal.main_v54) = after (Cert.KernelIdeal.Gen.main_part1_ops2 (F := Ideal)) Wk (Proc.devRef .tc Cert.KernelIdeal.main_v54)
      ∧ after (Cert.ReferenceIdeal.Ops.w1_s2 (F := Ideal)) Wr (Proc.devRef .tc Cert.ReferenceIdeal.main_v59) = after (Cert.KernelIdeal.Gen.main_part1_ops2 (F := Ideal)) Wk (Proc.devRef .tc Cert.KernelIdeal.main_v59)
      ∧ after (Cert.ReferenceIdeal.Ops.w1_s2 (F := Ideal)) Wr (Proc.devRef .tc Cert.ReferenceIdeal.main_v63) = after (Cert.KernelIdeal.Gen.main_part1_ops2 (F := Ideal)) Wk (Proc.devRef .tc Cert.KernelIdeal.main_v63)
      ∧ after (Cert.ReferenceIdeal.Ops.w1_s2 (F := Ideal)) Wr (Proc.devRef .tc Cert.ReferenceIdeal.main_v64) = after (Cert.KernelIdeal.Gen.main_part1_ops2 (F := Ideal)) Wk (Proc.devRef .tc Cert.KernelIdeal.main_v64) := by
  obtain ⟨h0, h1, h2, h3, h4, h5, h6⟩ := h
  simp only [Cert.KernelIdeal.Gen.main_part1_ops2, Cert.ReferenceIdeal.Ops.w1_s2]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v45) = A2 at h2 ⊢; subst h2
    generalize Wr (Proc.devRef .tc Cert.ReferenceIdeal.main_v52) = A3 at h3 ⊢; subst h3
    generalize Wr (Proc.devRef .tc Cert.ReferenceIdeal.main_v54) = A4 at h4 ⊢; subst h4
    generalize Wr (Proc.devRef .tc Cert.ReferenceIdeal.main_v59) = A5 at h5 ⊢; subst h5
    generalize Wr (Proc.devRef .tc Cert.ReferenceIdeal.main_v61) = A6 at h6 ⊢; subst h6
    refine ⟨?_, ?_, ?_, ?_, ?_, ?_, ?_, ?_, ?_⟩ <;> first | trivial | rfl)

set_option maxHeartbeats 1500000 in
/-- Stretch 7 (3 operations). -/
theorem step7 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_c_14) = Wk (Proc.devRef .tc Cert.KernelIdeal.main_c_14)
      ∧ Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v63) = Wk (Proc.devRef .tc Cert.KernelIdeal.main_v63)
      ∧ Wr (Proc.devRef .tc Cert.ReferenceIdeal.main_v64) = Wk (Proc.devRef .tc Cert.KernelIdeal.main_v64)) :
    after (Cert.ReferenceIdeal.Ops.w1_s3 (F := Ideal)) Wr (Proc.devRef .tc Cert.ReferenceIdeal.main_cst_0) = after (Cert.KernelIdeal.Gen.main_part1_ops3 (F := Ideal)) Wk (Proc.devRef .tc Cert.KernelIdeal.main_cst)
      ∧ after (Cert.ReferenceIdeal.Ops.w1_s3 (F := Ideal)) Wr (Proc.devRef .tc Cert.ReferenceIdeal.main_cst) = after (Cert.KernelIdeal.Gen.main_part1_ops3 (F := Ideal)) Wk (Proc.devRef .tc Cert.KernelIdeal.main_cst_0)
      ∧ after (Cert.ReferenceIdeal.Ops.w1_s3 (F := Ideal)) Wr (Proc.devRef .tc Cert.ReferenceIdeal.main_v45) = after (Cert.KernelIdeal.Gen.main_part1_ops3 (F := Ideal)) Wk (Proc.devRef .tc Cert.KernelIdeal.main_v45)
      ∧ after (Cert.ReferenceIdeal.Ops.w1_s3 (F := Ideal)) Wr (Proc.devRef .tc Cert.ReferenceIdeal.main_v52) = after (Cert.KernelIdeal.Gen.main_part1_ops3 (F := Ideal)) Wk (Proc.devRef .tc Cert.KernelIdeal.main_v52)
      ∧ after (Cert.ReferenceIdeal.Ops.w1_s3 (F := Ideal)) Wr (Proc.devRef .tc Cert.ReferenceIdeal.main_v54) = after (Cert.KernelIdeal.Gen.main_part1_ops3 (F := Ideal)) Wk (Proc.devRef .tc Cert.KernelIdeal.main_v54)
      ∧ after (Cert.ReferenceIdeal.Ops.w1_s3 (F := Ideal)) Wr (Proc.devRef .tc Cert.ReferenceIdeal.main_v59) = after (Cert.KernelIdeal.Gen.main_part1_ops3 (F := Ideal)) Wk (Proc.devRef .tc Cert.KernelIdeal.main_v59)
      ∧ after (Cert.ReferenceIdeal.Ops.w1_s3 (F := Ideal)) Wr (Proc.devRef .tc Cert.ReferenceIdeal.main_v63) = after (Cert.KernelIdeal.Gen.main_part1_ops3 (F := Ideal)) Wk (Proc.devRef .tc Cert.KernelIdeal.main_v63)
      ∧ after (Cert.ReferenceIdeal.Ops.w1_s3 (F := Ideal)) Wr (Proc.devRef .tc Cert.ReferenceIdeal.main_v64) = after (Cert.KernelIdeal.Gen.main_part1_ops3 (F := Ideal)) Wk (Proc.devRef .tc Cert.KernelIdeal.main_v64)
      ∧ after (Cert.ReferenceIdeal.Ops.w1_s3 (F := Ideal)) Wr (Proc.devRef .tc Cert.ReferenceIdeal.main_v65) = after (Cert.KernelIdeal.Gen.main_part1_ops3 (F := Ideal)) Wk (Proc.devRef .tc Cert.KernelIdeal.main_v65) := by
  obtain ⟨h0, h1, h2, h3, h4, h5, h6, h7, h8⟩ := h
  simp only [Cert.KernelIdeal.Gen.main_part1_ops3, Cert.ReferenceIdeal.Ops.w1_s3]
  fold_pairs <;> (
    generalize Wr (Proc.devRef .tc Cert.ReferenceIdeal.main_c_14) = A0 at h0 ⊢; subst h0
    generalize Wr (Proc.devRef .tc Cert.ReferenceIdeal.main_cst_0) = A1 at h1 ⊢; subst h1
    generalize Wr (Proc.devRef .tc Cert.ReferenceIdeal.main_cst) = A2 at h2 ⊢; subst h2
    generalize Wr (Proc.devRef .tc Cert.ReferenceIdeal.main_v45) = A3 at h3 ⊢; subst h3
    generalize Wr (Proc.devRef .tc Cert.ReferenceIdeal.main_v52) = A4 at h4 ⊢; subst h4
    generalize Wr (Proc.devRef .tc Cert.ReferenceIdeal.main_v54) = A5 at h5 ⊢; subst h5
    generalize Wr (Proc.devRef .tc Cert.ReferenceIdeal.main_v59) = A6 at h6 ⊢; subst h6
    generalize Wr (Proc.devRef .tc Cert.ReferenceIdeal.main_v63) = A7 at h7 ⊢; subst h7
    generalize Wr (Proc.devRef .tc Cert.ReferenceIdeal.main_v64) = A8 at h8 ⊢; subst h8
    refine ⟨?_, ?_, ?_, ?_, ?_, ?_, ?_, ?_, ?_⟩ <;> first | trivial | rfl)

set_option maxHeartbeats 1500000 in
/-- Stretch 8 (3 operations). -/
theorem step8 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v63) = Wk (Proc.devRef .tc Cert.KernelIdeal.main_v63)
      ∧ Wr (Proc.devRef .tc Cert.ReferenceIdeal.main_v64) = Wk (Proc.devRef .tc Cert.KernelIdeal.main_v64)
      ∧ Wr (Proc.devRef .tc Cert.ReferenceIdeal.main_v65) = Wk (Proc.devRef .tc Cert.KernelIdeal.main_v65)) :
    after (Cert.ReferenceIdeal.Ops.w1_s4 (F := Ideal)) Wr (Proc.devRef .tc Cert.ReferenceIdeal.main_cst_0) = after (Cert.KernelIdeal.Gen.main_part1_ops4 (F := Ideal)) Wk (Proc.devRef .tc Cert.KernelIdeal.main_cst)
      ∧ after (Cert.ReferenceIdeal.Ops.w1_s4 (F := Ideal)) Wr (Proc.devRef .tc Cert.ReferenceIdeal.main_cst) = after (Cert.KernelIdeal.Gen.main_part1_ops4 (F := Ideal)) Wk (Proc.devRef .tc Cert.KernelIdeal.main_cst_0)
      ∧ after (Cert.ReferenceIdeal.Ops.w1_s4 (F := Ideal)) Wr (Proc.devRef .tc Cert.ReferenceIdeal.main_v45) = after (Cert.KernelIdeal.Gen.main_part1_ops4 (F := Ideal)) Wk (Proc.devRef .tc Cert.KernelIdeal.main_v45)
      ∧ after (Cert.ReferenceIdeal.Ops.w1_s4 (F := Ideal)) Wr (Proc.devRef .tc Cert.ReferenceIdeal.main_v52) = after (Cert.KernelIdeal.Gen.main_part1_ops4 (F := Ideal)) Wk (Proc.devRef .tc Cert.KernelIdeal.main_v52)
      ∧ after (Cert.ReferenceIdeal.Ops.w1_s4 (F := Ideal)) Wr (Proc.devRef .tc Cert.ReferenceIdeal.main_v54) = after (Cert.KernelIdeal.Gen.main_part1_ops4 (F := Ideal)) Wk (Proc.devRef .tc Cert.KernelIdeal.main_v54)
      ∧ after (Cert.ReferenceIdeal.Ops.w1_s4 (F := Ideal)) Wr (Proc.devRef .tc Cert.ReferenceIdeal.main_v59) = after (Cert.KernelIdeal.Gen.main_part1_ops4 (F := Ideal)) Wk (Proc.devRef .tc Cert.KernelIdeal.main_v59)
      ∧ after (Cert.ReferenceIdeal.Ops.w1_s4 (F := Ideal)) Wr (Proc.devRef .tc Cert.ReferenceIdeal.main_v63) = after (Cert.KernelIdeal.Gen.main_part1_ops4 (F := Ideal)) Wk (Proc.devRef .tc Cert.KernelIdeal.main_v63)
      ∧ after (Cert.ReferenceIdeal.Ops.w1_s4 (F := Ideal)) Wr (Proc.devRef .tc Cert.ReferenceIdeal.main_v64) = after (Cert.KernelIdeal.Gen.main_part1_ops4 (F := Ideal)) Wk (Proc.devRef .tc Cert.KernelIdeal.main_v64)
      ∧ after (Cert.ReferenceIdeal.Ops.w1_s4 (F := Ideal)) Wr (Proc.devRef .tc Cert.ReferenceIdeal.main_v66) = after (Cert.KernelIdeal.Gen.main_part1_ops4 (F := Ideal)) Wk (Proc.devRef .tc Cert.KernelIdeal.main_v66) := by
  obtain ⟨h0, h1, h2, h3, h4, h5, h6, h7, h8⟩ := h
  simp only [Cert.KernelIdeal.Gen.main_part1_ops4, Cert.ReferenceIdeal.Ops.w1_s4]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v45) = A2 at h2 ⊢; subst h2
    generalize Wr (Proc.devRef .tc Cert.ReferenceIdeal.main_v52) = A3 at h3 ⊢; subst h3
    generalize Wr (Proc.devRef .tc Cert.ReferenceIdeal.main_v54) = A4 at h4 ⊢; subst h4
    generalize Wr (Proc.devRef .tc Cert.ReferenceIdeal.main_v59) = A5 at h5 ⊢; subst h5
    generalize Wr (Proc.devRef .tc Cert.ReferenceIdeal.main_v63) = A6 at h6 ⊢; subst h6
    generalize Wr (Proc.devRef .tc Cert.ReferenceIdeal.main_v64) = A7 at h7 ⊢; subst h7
    generalize Wr (Proc.devRef .tc Cert.ReferenceIdeal.main_v65) = A8 at h8 ⊢; subst h8
    refine ⟨?_, ?_, ?_, ?_, ?_, ?_, ?_, ?_, ?_⟩ <;> first | trivial | rfl)

set_option maxHeartbeats 1500000 in
/-- Stretch 9 (2 operations). -/
theorem step9 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v63) = Wk (Proc.devRef .tc Cert.KernelIdeal.main_v63)
      ∧ Wr (Proc.devRef .tc Cert.ReferenceIdeal.main_v64) = Wk (Proc.devRef .tc Cert.KernelIdeal.main_v64)
      ∧ Wr (Proc.devRef .tc Cert.ReferenceIdeal.main_v66) = Wk (Proc.devRef .tc Cert.KernelIdeal.main_v66)) :
    after (Cert.ReferenceIdeal.Ops.w1_s5 (F := Ideal)) Wr (Proc.devRef .tc Cert.ReferenceIdeal.main_c_15) = after (Cert.KernelIdeal.Gen.main_part1_ops5 (F := Ideal)) Wk (Proc.devRef .tc Cert.KernelIdeal.main_c_15)
      ∧ after (Cert.ReferenceIdeal.Ops.w1_s5 (F := Ideal)) Wr (Proc.devRef .tc Cert.ReferenceIdeal.main_cst_0) = after (Cert.KernelIdeal.Gen.main_part1_ops5 (F := Ideal)) Wk (Proc.devRef .tc Cert.KernelIdeal.main_cst)
      ∧ after (Cert.ReferenceIdeal.Ops.w1_s5 (F := Ideal)) Wr (Proc.devRef .tc Cert.ReferenceIdeal.main_cst) = after (Cert.KernelIdeal.Gen.main_part1_ops5 (F := Ideal)) Wk (Proc.devRef .tc Cert.KernelIdeal.main_cst_0)
      ∧ after (Cert.ReferenceIdeal.Ops.w1_s5 (F := Ideal)) Wr (Proc.devRef .tc Cert.ReferenceIdeal.main_v45) = after (Cert.KernelIdeal.Gen.main_part1_ops5 (F := Ideal)) Wk (Proc.devRef .tc Cert.KernelIdeal.main_v45)
      ∧ after (Cert.ReferenceIdeal.Ops.w1_s5 (F := Ideal)) Wr (Proc.devRef .tc Cert.ReferenceIdeal.main_v52) = after (Cert.KernelIdeal.Gen.main_part1_ops5 (F := Ideal)) Wk (Proc.devRef .tc Cert.KernelIdeal.main_v52)
      ∧ after (Cert.ReferenceIdeal.Ops.w1_s5 (F := Ideal)) Wr (Proc.devRef .tc Cert.ReferenceIdeal.main_v54) = after (Cert.KernelIdeal.Gen.main_part1_ops5 (F := Ideal)) Wk (Proc.devRef .tc Cert.KernelIdeal.main_v54)
      ∧ after (Cert.ReferenceIdeal.Ops.w1_s5 (F := Ideal)) Wr (Proc.devRef .tc Cert.ReferenceIdeal.main_v59) = after (Cert.KernelIdeal.Gen.main_part1_ops5 (F := Ideal)) Wk (Proc.devRef .tc Cert.KernelIdeal.main_v59)
      ∧ after (Cert.ReferenceIdeal.Ops.w1_s5 (F := Ideal)) Wr (Proc.devRef .tc Cert.ReferenceIdeal.main_v63) = after (Cert.KernelIdeal.Gen.main_part1_ops5 (F := Ideal)) Wk (Proc.devRef .tc Cert.KernelIdeal.main_v63)
      ∧ after (Cert.ReferenceIdeal.Ops.w1_s5 (F := Ideal)) Wr (Proc.devRef .tc Cert.ReferenceIdeal.main_v67) = after (Cert.KernelIdeal.Gen.main_part1_ops5 (F := Ideal)) Wk (Proc.devRef .tc Cert.KernelIdeal.main_v67) := by
  obtain ⟨h0, h1, h2, h3, h4, h5, h6, h7, h8⟩ := h
  simp only [Cert.KernelIdeal.Gen.main_part1_ops5, Cert.ReferenceIdeal.Ops.w1_s5]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v45) = A2 at h2 ⊢; subst h2
    generalize Wr (Proc.devRef .tc Cert.ReferenceIdeal.main_v52) = A3 at h3 ⊢; subst h3
    generalize Wr (Proc.devRef .tc Cert.ReferenceIdeal.main_v54) = A4 at h4 ⊢; subst h4
    generalize Wr (Proc.devRef .tc Cert.ReferenceIdeal.main_v59) = A5 at h5 ⊢; subst h5
    generalize Wr (Proc.devRef .tc Cert.ReferenceIdeal.main_v63) = A6 at h6 ⊢; subst h6
    generalize Wr (Proc.devRef .tc Cert.ReferenceIdeal.main_v64) = A7 at h7 ⊢; subst h7
    generalize Wr (Proc.devRef .tc Cert.ReferenceIdeal.main_v66) = A8 at h8 ⊢; subst h8
    refine ⟨?_, ?_, ?_, ?_, ?_, ?_, ?_, ?_, ?_⟩ <;> first | trivial | rfl)

set_option maxHeartbeats 1500000 in
/-- Stretch 10 (3 operations). -/
theorem step10 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_c_15) = Wk (Proc.devRef .tc Cert.KernelIdeal.main_c_15)
      ∧ Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v63) = Wk (Proc.devRef .tc Cert.KernelIdeal.main_v63)
      ∧ Wr (Proc.devRef .tc Cert.ReferenceIdeal.main_v67) = Wk (Proc.devRef .tc Cert.KernelIdeal.main_v67)) :
    after (Cert.ReferenceIdeal.Ops.w1_s6 (F := Ideal)) Wr (Proc.devRef .tc Cert.ReferenceIdeal.main_cst_0) = after (Cert.KernelIdeal.Gen.main_part1_ops6 (F := Ideal)) Wk (Proc.devRef .tc Cert.KernelIdeal.main_cst)
      ∧ after (Cert.ReferenceIdeal.Ops.w1_s6 (F := Ideal)) Wr (Proc.devRef .tc Cert.ReferenceIdeal.main_cst) = after (Cert.KernelIdeal.Gen.main_part1_ops6 (F := Ideal)) Wk (Proc.devRef .tc Cert.KernelIdeal.main_cst_0)
      ∧ after (Cert.ReferenceIdeal.Ops.w1_s6 (F := Ideal)) Wr (Proc.devRef .tc Cert.ReferenceIdeal.main_v45) = after (Cert.KernelIdeal.Gen.main_part1_ops6 (F := Ideal)) Wk (Proc.devRef .tc Cert.KernelIdeal.main_v45)
      ∧ after (Cert.ReferenceIdeal.Ops.w1_s6 (F := Ideal)) Wr (Proc.devRef .tc Cert.ReferenceIdeal.main_v52) = after (Cert.KernelIdeal.Gen.main_part1_ops6 (F := Ideal)) Wk (Proc.devRef .tc Cert.KernelIdeal.main_v52)
      ∧ after (Cert.ReferenceIdeal.Ops.w1_s6 (F := Ideal)) Wr (Proc.devRef .tc Cert.ReferenceIdeal.main_v54) = after (Cert.KernelIdeal.Gen.main_part1_ops6 (F := Ideal)) Wk (Proc.devRef .tc Cert.KernelIdeal.main_v54)
      ∧ after (Cert.ReferenceIdeal.Ops.w1_s6 (F := Ideal)) Wr (Proc.devRef .tc Cert.ReferenceIdeal.main_v59) = after (Cert.KernelIdeal.Gen.main_part1_ops6 (F := Ideal)) Wk (Proc.devRef .tc Cert.KernelIdeal.main_v59)
      ∧ after (Cert.ReferenceIdeal.Ops.w1_s6 (F := Ideal)) Wr (Proc.devRef .tc Cert.ReferenceIdeal.main_v63) = after (Cert.KernelIdeal.Gen.main_part1_ops6 (F := Ideal)) Wk (Proc.devRef .tc Cert.KernelIdeal.main_v63)
      ∧ after (Cert.ReferenceIdeal.Ops.w1_s6 (F := Ideal)) Wr (Proc.devRef .tc Cert.ReferenceIdeal.main_v67) = after (Cert.KernelIdeal.Gen.main_part1_ops6 (F := Ideal)) Wk (Proc.devRef .tc Cert.KernelIdeal.main_v67)
      ∧ after (Cert.ReferenceIdeal.Ops.w1_s6 (F := Ideal)) Wr (Proc.devRef .tc Cert.ReferenceIdeal.main_v68) = after (Cert.KernelIdeal.Gen.main_part1_ops6 (F := Ideal)) Wk (Proc.devRef .tc Cert.KernelIdeal.main_v68) := by
  obtain ⟨h0, h1, h2, h3, h4, h5, h6, h7, h8⟩ := h
  simp only [Cert.KernelIdeal.Gen.main_part1_ops6, Cert.ReferenceIdeal.Ops.w1_s6]
  fold_pairs <;> (
    generalize Wr (Proc.devRef .tc Cert.ReferenceIdeal.main_c_15) = A0 at h0 ⊢; subst h0
    generalize Wr (Proc.devRef .tc Cert.ReferenceIdeal.main_cst_0) = A1 at h1 ⊢; subst h1
    generalize Wr (Proc.devRef .tc Cert.ReferenceIdeal.main_cst) = A2 at h2 ⊢; subst h2
    generalize Wr (Proc.devRef .tc Cert.ReferenceIdeal.main_v45) = A3 at h3 ⊢; subst h3
    generalize Wr (Proc.devRef .tc Cert.ReferenceIdeal.main_v52) = A4 at h4 ⊢; subst h4
    generalize Wr (Proc.devRef .tc Cert.ReferenceIdeal.main_v54) = A5 at h5 ⊢; subst h5
    generalize Wr (Proc.devRef .tc Cert.ReferenceIdeal.main_v59) = A6 at h6 ⊢; subst h6
    generalize Wr (Proc.devRef .tc Cert.ReferenceIdeal.main_v63) = A7 at h7 ⊢; subst h7
    generalize Wr (Proc.devRef .tc Cert.ReferenceIdeal.main_v67) = A8 at h8 ⊢; subst h8
    refine ⟨?_, ?_, ?_, ?_, ?_, ?_, ?_, ?_, ?_⟩ <;> first | trivial | rfl)

set_option maxHeartbeats 1500000 in
/-- Stretch 11 (33 operations). -/
theorem step11 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v45) = Wk (Proc.devRef .tc Cert.KernelIdeal.main_v45)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v63) = Wk (Proc.devRef .tc Cert.KernelIdeal.main_v63)
      ∧ Wr (Proc.devRef .tc Cert.ReferenceIdeal.main_v67) = Wk (Proc.devRef .tc Cert.KernelIdeal.main_v67)
      ∧ Wr (Proc.devRef .tc Cert.ReferenceIdeal.main_v68) = Wk (Proc.devRef .tc Cert.KernelIdeal.main_v68)) :
    after (Cert.ReferenceIdeal.Ops.w1_s7 (F := Ideal)) Wr (Proc.devRef .tc Cert.ReferenceIdeal.main_cst_0) = after (Cert.KernelIdeal.Gen.main_part1_ops7 (F := Ideal)) Wk (Proc.devRef .tc Cert.KernelIdeal.main_cst)
      ∧ after (Cert.ReferenceIdeal.Ops.w1_s7 (F := Ideal)) Wr (Proc.devRef .tc Cert.ReferenceIdeal.main_cst) = after (Cert.KernelIdeal.Gen.main_part1_ops7 (F := Ideal)) Wk (Proc.devRef .tc Cert.KernelIdeal.main_cst_0)
      ∧ after (Cert.ReferenceIdeal.Ops.w1_s7 (F := Ideal)) Wr (Proc.devRef .tc Cert.ReferenceIdeal.main_v52) = after (Cert.KernelIdeal.Gen.main_part1_ops7 (F := Ideal)) Wk (Proc.devRef .tc Cert.KernelIdeal.main_v52)
      ∧ after (Cert.ReferenceIdeal.Ops.w1_s7 (F := Ideal)) Wr (Proc.devRef .tc Cert.ReferenceIdeal.main_v54) = after (Cert.KernelIdeal.Gen.main_part1_ops7 (F := Ideal)) Wk (Proc.devRef .tc Cert.KernelIdeal.main_v54)
      ∧ after (Cert.ReferenceIdeal.Ops.w1_s7 (F := Ideal)) Wr (Proc.devRef .tc Cert.ReferenceIdeal.main_v59) = after (Cert.KernelIdeal.Gen.main_part1_ops7 (F := Ideal)) Wk (Proc.devRef .tc Cert.KernelIdeal.main_v59)
      ∧ after (Cert.ReferenceIdeal.Ops.w1_s7 (F := Ideal)) Wr (Proc.devRef .tc Cert.ReferenceIdeal.main_v63) = after (Cert.KernelIdeal.Gen.main_part1_ops7 (F := Ideal)) Wk (Proc.devRef .tc Cert.KernelIdeal.main_v63)
      ∧ after (Cert.ReferenceIdeal.Ops.w1_s7 (F := Ideal)) Wr (Proc.devRef .tc Cert.ReferenceIdeal.main_v68) = after (Cert.KernelIdeal.Gen.main_part1_ops7 (F := Ideal)) Wk (Proc.devRef .tc Cert.KernelIdeal.main_v68)
      ∧ after (Cert.ReferenceIdeal.Ops.w1_s7 (F := Ideal)) Wr (Proc.devRef .tc Cert.ReferenceIdeal.main_v83) = after (Cert.KernelIdeal.Gen.main_part1_ops7 (F := Ideal)) Wk (Proc.devRef .tc Cert.KernelIdeal.main_v83)
      ∧ after (Cert.ReferenceIdeal.Ops.w1_s7 (F := Ideal)) Wr (Proc.devRef .tc Cert.ReferenceIdeal.main_v87) = after (Cert.KernelIdeal.Gen.main_part1_ops7 (F := Ideal)) Wk (Proc.devRef .tc Cert.KernelIdeal.main_v87)
      ∧ after (Cert.ReferenceIdeal.Ops.w1_s7 (F := Ideal)) Wr (Proc.devRef .tc Cert.ReferenceIdeal.main_v88) = after (Cert.KernelIdeal.Gen.main_part1_ops7 (F := Ideal)) Wk (Proc.devRef .tc Cert.KernelIdeal.main_v88)
      ∧ after (Cert.ReferenceIdeal.Ops.w1_s7 (F := Ideal)) Wr (Proc.devRef .tc Cert.ReferenceIdeal.main_v90) = after (Cert.KernelIdeal.Gen.main_part1_ops7 (F := Ideal)) Wk (Proc.devRef .tc Cert.KernelIdeal.main_v90)
      ∧ after (Cert.ReferenceIdeal.Ops.w1_s7 (F := Ideal)) Wr (Proc.devRef .tc Cert.ReferenceIdeal.main_v92) = after (Cert.KernelIdeal.Gen.main_part1_ops7 (F := Ideal)) Wk (Proc.devRef .tc Cert.KernelIdeal.main_v92) := by
  obtain ⟨h0, h1, h2, h3, h4, h5, h6, h7, h8⟩ := h
  simp only [Cert.KernelIdeal.Gen.main_part1_ops7, Cert.ReferenceIdeal.Ops.w1_s7]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v45) = A2 at h2 ⊢; subst h2
    generalize Wr (Proc.devRef .tc Cert.ReferenceIdeal.main_v52) = A3 at h3 ⊢; subst h3
    generalize Wr (Proc.devRef .tc Cert.ReferenceIdeal.main_v54) = A4 at h4 ⊢; subst h4
    generalize Wr (Proc.devRef .tc Cert.ReferenceIdeal.main_v59) = A5 at h5 ⊢; subst h5
    generalize Wr (Proc.devRef .tc Cert.ReferenceIdeal.main_v63) = A6 at h6 ⊢; subst h6
    generalize Wr (Proc.devRef .tc Cert.ReferenceIdeal.main_v67) = A7 at h7 ⊢; subst h7
    generalize Wr (Proc.devRef .tc Cert.ReferenceIdeal.main_v68) = A8 at h8 ⊢; subst h8
    refine ⟨?_, ?_, ?_, ?_, ?_, ?_, ?_, ?_, ?_, ?_, ?_, ?_⟩ <;> first | trivial | rfl)

set_option maxHeartbeats 1500000 in
/-- Stretch 12 (5 operations). -/
theorem step12 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v52) = Wk (Proc.devRef .tc Cert.KernelIdeal.main_v52)
      ∧ Wr (Proc.devRef .tc Cert.ReferenceIdeal.main_v54) = Wk (Proc.devRef .tc Cert.KernelIdeal.main_v54)
      ∧ Wr (Proc.devRef .tc Cert.ReferenceIdeal.main_v59) = Wk (Proc.devRef .tc Cert.KernelIdeal.main_v59)
      ∧ Wr (Proc.devRef .tc Cert.ReferenceIdeal.main_v63) = Wk (Proc.devRef .tc Cert.KernelIdeal.main_v63)
      ∧ Wr (Proc.devRef .tc Cert.ReferenceIdeal.main_v68) = Wk (Proc.devRef .tc Cert.KernelIdeal.main_v68)
      ∧ Wr (Proc.devRef .tc Cert.ReferenceIdeal.main_v83) = Wk (Proc.devRef .tc Cert.KernelIdeal.main_v83)
      ∧ Wr (Proc.devRef .tc Cert.ReferenceIdeal.main_v87) = Wk (Proc.devRef .tc Cert.KernelIdeal.main_v87)
      ∧ Wr (Proc.devRef .tc Cert.ReferenceIdeal.main_v88) = Wk (Proc.devRef .tc Cert.KernelIdeal.main_v88)
      ∧ Wr (Proc.devRef .tc Cert.ReferenceIdeal.main_v90) = Wk (Proc.devRef .tc Cert.KernelIdeal.main_v90)
      ∧ Wr (Proc.devRef .tc Cert.ReferenceIdeal.main_v92) = Wk (Proc.devRef .tc Cert.KernelIdeal.main_v92)) :
    after (Cert.ReferenceIdeal.Ops.w2_s0 (F := Ideal)) Wr (Proc.devRef .tc Cert.ReferenceIdeal.main_c_25) = after (Cert.KernelIdeal.Gen.main_part2_ops0 (F := Ideal)) Wk (Proc.devRef .tc Cert.KernelIdeal.main_c_25)
      ∧ after (Cert.ReferenceIdeal.Ops.w2_s0 (F := Ideal)) Wr (Proc.devRef .tc Cert.ReferenceIdeal.main_cst_0) = after (Cert.KernelIdeal.Gen.main_part2_ops0 (F := Ideal)) Wk (Proc.devRef .tc Cert.KernelIdeal.main_cst)
      ∧ after (Cert.ReferenceIdeal.Ops.w2_s0 (F := Ideal)) Wr (Proc.devRef .tc Cert.ReferenceIdeal.main_cst) = after (Cert.KernelIdeal.Gen.main_part2_ops0 (F := Ideal)) Wk (Proc.devRef .tc Cert.KernelIdeal.main_cst_0)
      ∧ after (Cert.ReferenceIdeal.Ops.w2_s0 (F := Ideal)) Wr (Proc.devRef .tc Cert.ReferenceIdeal.main_v52) = after (Cert.KernelIdeal.Gen.main_part2_ops0 (F := Ideal)) Wk (Proc.devRef .tc Cert.KernelIdeal.main_v52)
      ∧ after (Cert.ReferenceIdeal.Ops.w2_s0 (F := Ideal)) Wr (Proc.devRef .tc Cert.ReferenceIdeal.main_v63) = after (Cert.KernelIdeal.Gen.main_part2_ops0 (F := Ideal)) Wk (Proc.devRef .tc Cert.KernelIdeal.main_v63)
      ∧ after (Cert.ReferenceIdeal.Ops.w2_s0 (F := Ideal)) Wr (Proc.devRef .tc Cert.ReferenceIdeal.main_v83) = after (Cert.KernelIdeal.Gen.main_part2_ops0 (F := Ideal)) Wk (Proc.devRef .tc Cert.KernelIdeal.main_v83)
      ∧ after (Cert.ReferenceIdeal.Ops.w2_s0 (F := Ideal)) Wr (Proc.devRef .tc Cert.ReferenceIdeal.main_v95) = after (Cert.KernelIdeal.Gen.main_part2_ops0 (F := Ideal)) Wk (Proc.devRef .tc Cert.KernelIdeal.main_v95)
      ∧ after (Cert.ReferenceIdeal.Ops.w2_s0 (F := Ideal)) Wr (Proc.devRef .tc Cert.ReferenceIdeal.main_v96) = after (Cert.KernelIdeal.Gen.main_part2_ops0 (F := Ideal)) Wk (Proc.devRef .tc Cert.KernelIdeal.main_v96) := by
  obtain ⟨h0, h1, h2, h3, h4, h5, h6, h7, h8, h9, h10, h11⟩ := h
  simp only [Cert.KernelIdeal.Gen.main_part2_ops0, Cert.ReferenceIdeal.Ops.w2_s0]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v52) = A2 at h2 ⊢; subst h2
    generalize Wr (Proc.devRef .tc Cert.ReferenceIdeal.main_v54) = A3 at h3 ⊢; subst h3
    generalize Wr (Proc.devRef .tc Cert.ReferenceIdeal.main_v59) = A4 at h4 ⊢; subst h4
    generalize Wr (Proc.devRef .tc Cert.ReferenceIdeal.main_v63) = A5 at h5 ⊢; subst h5
    generalize Wr (Proc.devRef .tc Cert.ReferenceIdeal.main_v68) = A6 at h6 ⊢; subst h6
    generalize Wr (Proc.devRef .tc Cert.ReferenceIdeal.main_v83) = A7 at h7 ⊢; subst h7
    generalize Wr (Proc.devRef .tc Cert.ReferenceIdeal.main_v87) = A8 at h8 ⊢; subst h8
    generalize Wr (Proc.devRef .tc Cert.ReferenceIdeal.main_v88) = A9 at h9 ⊢; subst h9
    generalize Wr (Proc.devRef .tc Cert.ReferenceIdeal.main_v90) = A10 at h10 ⊢; subst h10
    generalize Wr (Proc.devRef .tc Cert.ReferenceIdeal.main_v92) = A11 at h11 ⊢; subst h11
    refine ⟨?_, ?_, ?_, ?_, ?_, ?_, ?_, ?_⟩ <;> first | trivial | rfl)

set_option maxHeartbeats 1500000 in
/-- Stretch 13 (3 operations). -/
theorem step13 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_c_25) = Wk (Proc.devRef .tc Cert.KernelIdeal.main_c_25)
      ∧ Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v52) = Wk (Proc.devRef .tc Cert.KernelIdeal.main_v52)
      ∧ Wr (Proc.devRef .tc Cert.ReferenceIdeal.main_v63) = Wk (Proc.devRef .tc Cert.KernelIdeal.main_v63)
      ∧ Wr (Proc.devRef .tc Cert.ReferenceIdeal.main_v83) = Wk (Proc.devRef .tc Cert.KernelIdeal.main_v83)
      ∧ Wr (Proc.devRef .tc Cert.ReferenceIdeal.main_v95) = Wk (Proc.devRef .tc Cert.KernelIdeal.main_v95)
      ∧ Wr (Proc.devRef .tc Cert.ReferenceIdeal.main_v96) = Wk (Proc.devRef .tc Cert.KernelIdeal.main_v96)) :
    after (Cert.ReferenceIdeal.Ops.w2_s1 (F := Ideal)) Wr (Proc.devRef .tc Cert.ReferenceIdeal.main_cst_0) = after (Cert.KernelIdeal.Gen.main_part2_ops1 (F := Ideal)) Wk (Proc.devRef .tc Cert.KernelIdeal.main_cst)
      ∧ after (Cert.ReferenceIdeal.Ops.w2_s1 (F := Ideal)) Wr (Proc.devRef .tc Cert.ReferenceIdeal.main_cst) = after (Cert.KernelIdeal.Gen.main_part2_ops1 (F := Ideal)) Wk (Proc.devRef .tc Cert.KernelIdeal.main_cst_0)
      ∧ after (Cert.ReferenceIdeal.Ops.w2_s1 (F := Ideal)) Wr (Proc.devRef .tc Cert.ReferenceIdeal.main_v52) = after (Cert.KernelIdeal.Gen.main_part2_ops1 (F := Ideal)) Wk (Proc.devRef .tc Cert.KernelIdeal.main_v52)
      ∧ after (Cert.ReferenceIdeal.Ops.w2_s1 (F := Ideal)) Wr (Proc.devRef .tc Cert.ReferenceIdeal.main_v83) = after (Cert.KernelIdeal.Gen.main_part2_ops1 (F := Ideal)) Wk (Proc.devRef .tc Cert.KernelIdeal.main_v83)
      ∧ after (Cert.ReferenceIdeal.Ops.w2_s1 (F := Ideal)) Wr (Proc.devRef .tc Cert.ReferenceIdeal.main_v95) = after (Cert.KernelIdeal.Gen.main_part2_ops1 (F := Ideal)) Wk (Proc.devRef .tc Cert.KernelIdeal.main_v95)
      ∧ after (Cert.ReferenceIdeal.Ops.w2_s1 (F := Ideal)) Wr (Proc.devRef .tc Cert.ReferenceIdeal.main_v97) = after (Cert.KernelIdeal.Gen.main_part2_ops1 (F := Ideal)) Wk (Proc.devRef .tc Cert.KernelIdeal.main_v97) := by
  obtain ⟨h0, h1, h2, h3, h4, h5, h6, h7⟩ := h
  simp only [Cert.KernelIdeal.Gen.main_part2_ops1, Cert.ReferenceIdeal.Ops.w2_s1]
  fold_pairs <;> (
    generalize Wr (Proc.devRef .tc Cert.ReferenceIdeal.main_c_25) = A0 at h0 ⊢; subst h0
    generalize Wr (Proc.devRef .tc Cert.ReferenceIdeal.main_cst_0) = A1 at h1 ⊢; subst h1
    generalize Wr (Proc.devRef .tc Cert.ReferenceIdeal.main_cst) = A2 at h2 ⊢; subst h2
    generalize Wr (Proc.devRef .tc Cert.ReferenceIdeal.main_v52) = A3 at h3 ⊢; subst h3
    generalize Wr (Proc.devRef .tc Cert.ReferenceIdeal.main_v63) = A4 at h4 ⊢; subst h4
    generalize Wr (Proc.devRef .tc Cert.ReferenceIdeal.main_v83) = A5 at h5 ⊢; subst h5
    generalize Wr (Proc.devRef .tc Cert.ReferenceIdeal.main_v95) = A6 at h6 ⊢; subst h6
    generalize Wr (Proc.devRef .tc Cert.ReferenceIdeal.main_v96) = A7 at h7 ⊢; subst h7
    refine ⟨?_, ?_, ?_, ?_, ?_, ?_⟩ <;> first | trivial | rfl)

set_option maxHeartbeats 1500000 in
/-- Stretch 14 (23 operations). -/
theorem step14 (Wk : Valuation Cert.KernelIdeal.τ Cert.KernelIdeal.sig (Elt Ideal)) (Wr : Valuation Cert.ReferenceIdeal.τ Cert.ReferenceIdeal.sig (Elt Ideal))
    (h : Wr (Proc.devRef .tc Cert.ReferenceIdeal.main_cst_0) = Wk (Proc.devRef .tc Cert.KernelIdeal.main_cst)
      ∧ Wr (Proc.devRef .tc Cert.ReferenceIdeal.main_cst) = Wk (Proc.devRef .tc Cert.KernelIdeal.main_cst_0)
      ∧ Wr (Proc.devRef .tc Cert.ReferenceIdeal.main_v52) = Wk (Proc.devRef .tc Cert.KernelIdeal.main_v52)
      ∧ Wr (Proc.devRef .tc Cert.ReferenceIdeal.main_v83) = Wk (Proc.devRef .tc Cert.KernelIdeal.main_v83)
      ∧ Wr (Proc.devRef .tc Cert.ReferenceIdeal.main_v95) = Wk (Proc.devRef .tc Cert.KernelIdeal.main_v95)
      ∧ Wr (Proc.devRef .tc Cert.ReferenceIdeal.main_v97) = Wk (Proc.devRef .tc Cert.KernelIdeal.main_v97)) :
    after (Cert.ReferenceIdeal.Ops.w2_s2 (F := Ideal)) Wr (Proc.devRef .tc Cert.ReferenceIdeal.main_v83) = after (Cert.KernelIdeal.Gen.main_part2_ops2 (F := Ideal)) Wk (Proc.devRef .tc Cert.KernelIdeal.main_v83)
      ∧ after (Cert.ReferenceIdeal.Ops.w2_s2 (F := Ideal)) Wr (Proc.devRef .tc Cert.ReferenceIdeal.main_v95) = after (Cert.KernelIdeal.Gen.main_part2_ops2 (F := Ideal)) Wk (Proc.devRef .tc Cert.KernelIdeal.main_v95)
      ∧ after (Cert.ReferenceIdeal.Ops.w2_s2 (F := Ideal)) Wr (Proc.devRef .tc Cert.ReferenceIdeal.main_v105) = after (Cert.KernelIdeal.Gen.main_part2_ops2 (F := Ideal)) Wk (Proc.devRef .tc Cert.KernelIdeal.main_v105)
      ∧ after (Cert.ReferenceIdeal.Ops.w2_s2 (F := Ideal)) Wr (Proc.devRef .tc Cert.ReferenceIdeal.main_v115) = after (Cert.KernelIdeal.Gen.main_part2_ops2 (F := Ideal)) Wk (Proc.devRef .tc Cert.KernelIdeal.main_v115) := by
  obtain ⟨h0, h1, h2, h3, h4, h5⟩ := h
  simp only [Cert.KernelIdeal.Gen.main_part2_ops2, Cert.ReferenceIdeal.Ops.w2_s2]
  fold_pairs <;> (
    generalize Wr (Proc.devRef .tc Cert.ReferenceIdeal.main_cst_0) = A0 at h0 ⊢; subst h0
    generalize Wr (Proc.devRef .tc Cert.ReferenceIdeal.main_cst) = A1 at h1 ⊢; subst h1
    generalize Wr (Proc.devRef .tc Cert.ReferenceIdeal.main_v52) = A2 at h2 ⊢; subst h2
    generalize Wr (Proc.devRef .tc Cert.ReferenceIdeal.main_v83) = A3 at h3 ⊢; subst h3
    generalize Wr (Proc.devRef .tc Cert.ReferenceIdeal.main_v95) = A4 at h4 ⊢; subst h4
    generalize Wr (Proc.devRef .tc Cert.ReferenceIdeal.main_v97) = A5 at h5 ⊢; subst h5
    refine ⟨?_, ?_, ?_, ?_⟩ <;> first | trivial | rfl)

end Cert.SharedSteps

end
-- ==== Proof.Shared.lean ====
/-
  The bookkeeping both programs share. The kernel's program, before it launches its one kernel, and the reference,
  before its per-voxel arithmetic, run the same host operations on the same argument: the voxel coordinate of every
  point, the linear voxel id with the out-of-range sentinel, the stable sort by id, the segment starts and the rank of
  each point inside its voxel, and the three scatters that build the point buffer [500000, 32, 3], the capped counts
  [500000] and the first-occurrence coordinates [500000, 3], then the voxel centres. Nothing of that computation is
  opened: the agreement of the buffers still needed is carried across the fifteen stretches of the line, from the
  argument arrays to the four arrays the rest of either program reads.
-/
import proofs.«102209_j40785009443381_2_alg».proof.Proof.SharedSteps
import proofs.«102209_j40785009443381_2_alg».proof.Proof.Gen.KernelIdeal.Frame

noncomputable section

namespace Cert.Shared

open Idealize.ShloMosaic Idealize.ShloMosaic.TcCoe Idealize.SL.Sem Idealize.ShloMosaic.StableHlo

/-- The fold over a list of stretches peels the first stretch. -/
theorem after_flatten_cons {τ : Topo} {sig : RefSig} {Val : EltTy → Type} (l : List (HloOp τ sig Val))
    (ls : List (List (HloOp τ sig Val))) (V : Valuation τ sig Val) :
    after (List.flatten (l :: ls)) V = after (List.flatten ls) (after l V) := by
  rw [List.flatten_cons, Cert.ReferenceIdeal.RefRun.after_append]

/-- The kernel program's host operations before the region, cut where the reference's stretches are cut. -/
theorem prefix_windows :
    (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12] : List (HloOp Cert.KernelIdeal.τ Cert.KernelIdeal.sig (Elt Ideal)))
      = List.flatten [Cert.KernelIdeal.Gen.main_part0_ops0, Cert.KernelIdeal.Gen.main_part0_ops1, Cert.KernelIdeal.Gen.main_part0_ops2, Cert.KernelIdeal.Gen.main_part0_ops3, Cert.KernelIdeal.Gen.main_part1_ops0, Cert.KernelIdeal.Gen.main_part1_ops1, Cert.KernelIdeal.Gen.main_part1_ops2, Cert.KernelIdeal.Gen.main_part1_ops3, Cert.KernelIdeal.Gen.main_part1_ops4, Cert.KernelIdeal.Gen.main_part1_ops5, Cert.KernelIdeal.Gen.main_part1_ops6, Cert.KernelIdeal.Gen.main_part1_ops7, Cert.KernelIdeal.Gen.main_part2_ops0, Cert.KernelIdeal.Gen.main_part2_ops1, Cert.KernelIdeal.Gen.main_part2_ops2] := rfl

/-- The kernel program's buffers at the region's entry, stretch by stretch. -/
theorem V_nested (m : (ℓ : Loc Cert.KernelIdeal.nD Cert.KernelIdeal.τ Cert.KernelIdeal.sig) → Buf (Elt Ideal) ℓ) (c : Dev Cert.KernelIdeal.nD) (b : Ref Cert.KernelIdeal.sig .tc) :
    Cert.KernelIdeal.Gen.V m c b = (after (Cert.KernelIdeal.Gen.main_part2_ops2 (F := Ideal)) (after (Cert.KernelIdeal.Gen.main_part2_ops1 (F := Ideal)) (after (Cert.KernelIdeal.Gen.main_part2_ops0 (F := Ideal)) (after (Cert.KernelIdeal.Gen.main_part1_ops7 (F := Ideal)) (after (Cert.KernelIdeal.Gen.main_part1_ops6 (F := Ideal)) (after (Cert.KernelIdeal.Gen.main_part1_ops5 (F := Ideal)) (after (Cert.KernelIdeal.Gen.main_part1_ops4 (F := Ideal)) (after (Cert.KernelIdeal.Gen.main_part1_ops3 (F := Ideal)) (after (Cert.KernelIdeal.Gen.main_part1_ops2 (F := Ideal)) (after (Cert.KernelIdeal.Gen.main_part1_ops1 (F := Ideal)) (after (Cert.KernelIdeal.Gen.main_part1_ops0 (F := Ideal)) (after (Cert.KernelIdeal.Gen.main_part0_ops3 (F := Ideal)) (after (Cert.KernelIdeal.Gen.main_part0_ops2 (F := Ideal)) (after (Cert.KernelIdeal.Gen.main_part0_ops1 (F := Ideal)) (after (Cert.KernelIdeal.Gen.main_part0_ops0 (F := Ideal)) (fun b => m (c, b))))))))))))))))) (Proc.devRef .tc b) := by
  show after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12]) _ _ = _
  rw [prefix_windows]
  simp only [after_flatten_cons, List.flatten_nil, after_nil]

/-- The reference's buffers after its shared line, stretch by stretch. -/
theorem shared_nested (W : Valuation Cert.ReferenceIdeal.τ Cert.ReferenceIdeal.sig (Elt Ideal)) (b : Ref Cert.ReferenceIdeal.sig .tc) :
    after (Cert.ReferenceIdeal.RefRun.shared (F := Ideal)) W (Proc.devRef .tc b) = (after (Cert.ReferenceIdeal.Ops.w2_s2 (F := Ideal)) (after (Cert.ReferenceIdeal.Ops.w2_s1 (F := Ideal)) (after (Cert.ReferenceIdeal.Ops.w2_s0 (F := Ideal)) (after (Cert.ReferenceIdeal.Ops.w1_s7 (F := Ideal)) (after (Cert.ReferenceIdeal.Ops.w1_s6 (F := Ideal)) (after (Cert.ReferenceIdeal.Ops.w1_s5 (F := Ideal)) (after (Cert.ReferenceIdeal.Ops.w1_s4 (F := Ideal)) (after (Cert.ReferenceIdeal.Ops.w1_s3 (F := Ideal)) (after (Cert.ReferenceIdeal.Ops.w1_s2 (F := Ideal)) (after (Cert.ReferenceIdeal.Ops.w1_s1 (F := Ideal)) (after (Cert.ReferenceIdeal.Ops.w1_s0 (F := Ideal)) (after (Cert.ReferenceIdeal.Ops.w0_s3 (F := Ideal)) (after (Cert.ReferenceIdeal.Ops.w0_s2 (F := Ideal)) (after (Cert.ReferenceIdeal.Ops.w0_s1 (F := Ideal)) (after (Cert.ReferenceIdeal.Ops.w0_s0 (F := Ideal)) W))))))))))))))) (Proc.devRef .tc b) := by
  show after (List.flatten [Cert.ReferenceIdeal.Ops.w0_s0, Cert.ReferenceIdeal.Ops.w0_s1, Cert.ReferenceIdeal.Ops.w0_s2, Cert.ReferenceIdeal.Ops.w0_s3, Cert.ReferenceIdeal.Ops.w1_s0, Cert.ReferenceIdeal.Ops.w1_s1, Cert.ReferenceIdeal.Ops.w1_s2, Cert.ReferenceIdeal.Ops.w1_s3, Cert.ReferenceIdeal.Ops.w1_s4, Cert.ReferenceIdeal.Ops.w1_s5, Cert.ReferenceIdeal.Ops.w1_s6, Cert.ReferenceIdeal.Ops.w1_s7, Cert.ReferenceIdeal.Ops.w2_s0, Cert.ReferenceIdeal.Ops.w2_s1, Cert.ReferenceIdeal.Ops.w2_s2]) _ _ = _
  simp only [after_flatten_cons, List.flatten_nil, after_nil]

/-- The kernel's second operand is the counts as a column: the last host operation before the region. -/
theorem column (Wk : Valuation Cert.KernelIdeal.τ Cert.KernelIdeal.sig (Elt Ideal)) :
    after (Cert.KernelIdeal.Gen.main_part2_ops2 (F := Ideal)) Wk (Proc.devRef .tc Cert.KernelIdeal.main_v116)
      = shapeCast Cert.KernelIdeal.S500000x1 (after (Cert.KernelIdeal.Gen.main_part2_ops2 (F := Ideal)) Wk (Proc.devRef .tc Cert.KernelIdeal.main_v95))
          Cert.KernelIdeal.Gen.shapeCasts_S500000_S500000x1 := by
  simp only [Cert.KernelIdeal.Gen.main_part2_ops2]
  after_results_simp
  rfl

/-- No operation of the reference's shared line writes the argument. -/
theorem arg_kept (W : Valuation Cert.ReferenceIdeal.τ Cert.ReferenceIdeal.sig (Elt Ideal)) :
    after (Cert.ReferenceIdeal.RefRun.shared (F := Ideal)) W (Proc.devRef .tc Cert.ReferenceIdeal.main_arg0) = W (Proc.devRef .tc Cert.ReferenceIdeal.main_arg0) := by
  rw [shared_nested]
  simp only [Cert.ReferenceIdeal.Ops.w0_s0, Cert.ReferenceIdeal.Ops.w0_s1, Cert.ReferenceIdeal.Ops.w0_s2, Cert.ReferenceIdeal.Ops.w0_s3, Cert.ReferenceIdeal.Ops.w1_s0, Cert.ReferenceIdeal.Ops.w1_s1, Cert.ReferenceIdeal.Ops.w1_s2, Cert.ReferenceIdeal.Ops.w1_s3, Cert.ReferenceIdeal.Ops.w1_s4, Cert.ReferenceIdeal.Ops.w1_s5, Cert.ReferenceIdeal.Ops.w1_s6, Cert.ReferenceIdeal.Ops.w1_s7, Cert.ReferenceIdeal.Ops.w2_s0, Cert.ReferenceIdeal.Ops.w2_s1, Cert.ReferenceIdeal.Ops.w2_s2]
  after_results_simp

/-- The four arrays the rest of either program reads — points per voxel, capped counts, first-occurrence coordinates,
    voxel centres — are the same in the reference after its shared line as in the kernel's program at the region's entry,
    when the two argument arrays agree; and the kernel's second operand is the counts as a column. -/
theorem agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev 1)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    after (Cert.ReferenceIdeal.RefRun.shared (F := Ideal)) (launchContents m' c) (Proc.devRef .tc Cert.ReferenceIdeal.main_v83) = Cert.KernelIdeal.Gen.V m c Cert.KernelIdeal.main_v83
    ∧ after (Cert.ReferenceIdeal.RefRun.shared (F := Ideal)) (launchContents m' c) (Proc.devRef .tc Cert.ReferenceIdeal.main_v95) = Cert.KernelIdeal.Gen.V m c Cert.KernelIdeal.main_v95
    ∧ after (Cert.ReferenceIdeal.RefRun.shared (F := Ideal)) (launchContents m' c) (Proc.devRef .tc Cert.ReferenceIdeal.main_v105) = Cert.KernelIdeal.Gen.V m c Cert.KernelIdeal.main_v105
    ∧ after (Cert.ReferenceIdeal.RefRun.shared (F := Ideal)) (launchContents m' c) (Proc.devRef .tc Cert.ReferenceIdeal.main_v115) = Cert.KernelIdeal.Gen.V m c Cert.KernelIdeal.main_v115
    ∧ Cert.KernelIdeal.Gen.V m c Cert.KernelIdeal.main_v116 = shapeCast Cert.KernelIdeal.S500000x1 (Cert.KernelIdeal.Gen.V m c Cert.KernelIdeal.main_v95) Cert.KernelIdeal.Gen.shapeCasts_S500000_S500000x1 := by
  have s0 := Cert.SharedSteps.step0 (fun b => m (c, b)) (launchContents m' c) h
  have s1 := Cert.SharedSteps.step1 _ _ s0
  have s2 := Cert.SharedSteps.step2 _ _ s1
  have s3 := Cert.SharedSteps.step3 _ _ s2
  have s4 := Cert.SharedSteps.step4 _ _ s3
  have s5 := Cert.SharedSteps.step5 _ _ s4
  have s6 := Cert.SharedSteps.step6 _ _ s5
  have s7 := Cert.SharedSteps.step7 _ _ s6
  have s8 := Cert.SharedSteps.step8 _ _ s7
  have s9 := Cert.SharedSteps.step9 _ _ s8
  have s10 := Cert.SharedSteps.step10 _ _ s9
  have s11 := Cert.SharedSteps.step11 _ _ s10
  have s12 := Cert.SharedSteps.step12 _ _ s11
  have s13 := Cert.SharedSteps.step13 _ _ s12
  have s14 := Cert.SharedSteps.step14 _ _ s13
  obtain ⟨e83, e95, e105, e115⟩ := s14
  refine ⟨(shared_nested _ _).trans (e83.trans (V_nested m c _).symm), (shared_nested _ _).trans (e95.trans (V_nested m c _).symm),
    (shared_nested _ _).trans (e105.trans (V_nested m c _).symm), (shared_nested _ _).trans (e115.trans (V_nested m c _).symm), ?_⟩
  rw [V_nested m c Cert.KernelIdeal.main_v116, V_nested m c Cert.KernelIdeal.main_v95]
  exact column _

end Cert.Shared

end
-- ==== Proof.lean ====
/-
  The certificate: the voxelization kernel's program against its jnp reference, at the extended reals.

  Both programs bin a million points into voxels by the same host bookkeeping — coordinates, a stable sort by voxel id,
  segment ranks, three scatters — and then decorate each voxel's points with their offsets from the voxel's centroid,
  masked by the voxel's count. The kernel's program does the decoration in one Pallas kernel over blocks of 400
  voxels; the reference does it with whole-array host operations. The bookkeeping is shared operation for operation, so
  its results agree once the argument arrays do and it is never opened; the kernel's blocks assemble to the decoration of
  the whole point buffer; the reference's host operations, read at an index through their keepdims broadcasts, are that
  same decoration. No law of arithmetic beyond `0 + x = x` joins the two sides, so the precondition is not used. The
  ideal pass rewrote nothing, so the kernel's idealization is its own text read at the extended reals.
-/
import proofs.«102209_j40785009443381_2_alg».proof.Defs
import proofs.«102209_j40785009443381_2_alg».proof.Proof.Gen.Kernel
import proofs.«102209_j40785009443381_2_alg».proof.Proof.Gen.Kernel.Frame
import proofs.«102209_j40785009443381_2_alg».proof.Proof.Gen.KernelIdeal
import proofs.«102209_j40785009443381_2_alg».proof.Proof.Gen.KernelIdeal.Frame
import proofs.«102209_j40785009443381_2_alg».proof.Proof.Gen.ReferenceIdeal
import proofs.«102209_j40785009443381_2_alg».proof.Proof.Gen.Pre_finite_inputs
import proofs.«102209_j40785009443381_2_alg».proof.Proof.KRun
import proofs.«102209_j40785009443381_2_alg».proof.Proof.RTail
import proofs.«102209_j40785009443381_2_alg».proof.Proof.Coord
import proofs.«102209_j40785009443381_2_alg».proof.Proof.Shared
import Idealize.ShloMosaic.Adequacy
import Idealize.ShloMosaic.Init

noncomputable section

namespace Cert.Proof

open Idealize.ShloMosaic Idealize.SL.Sem Idealize.ShloMosaic.StableHlo

/-- The kernel's program as printed runs and keeps its argument: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is one straight line of host operations, none of which writes the argument. -/
theorem frame_referenceIdeal : Cert.frame_ReferenceIdeal := fun m ρ _ =>
  (θ_run Cert.ReferenceIdeal.defs _ _).mono
    (fun r h c => (h c Cert.ReferenceIdeal.main_arg0).trans (by
      rw [Cert.ReferenceIdeal.RefRun.after_ops, Cert.ReferenceIdeal.Tail.arg_kept, Cert.Shared.arg_kept]))
    (Cert.ReferenceIdeal.RefRun.run (F := Ideal) m ρ)

/-- The ideal pass rewrote no operation. -/
theorem preserves : Cert.preserves_Kernel_KernelIdeal := trivial

/-- From memories that agree on the argument, both programs end with the same four results: the decorated voxels, the
    padded coordinates, the mask and the voxel centres. -/
theorem algebraic : Cert.algebraic_KernelIdeal_ReferenceIdeal := by
  intro m ρ m' ρ' _ hagree
  refine ⟨fun c => Cert.Voxel.out (Cert.KernelIdeal.Arr.pts m c) (Cert.KernelIdeal.Arr.cnts m c),
      fun c => Cert.KernelIdeal.Run.coordOut m c,
      fun c => Cert.Voxel.mask (Cert.KernelIdeal.Arr.cnts m c),
      fun c => Cert.KernelIdeal.Gen.V m c Cert.KernelIdeal.main_v115,
      Cert.KernelIdeal.Run.run m ρ, ?_⟩
  refine (θ_run Cert.ReferenceIdeal.defs _ _).mono (fun r h c => ?_) (Cert.ReferenceIdeal.RefRun.run (F := Ideal) m' ρ')
  obtain ⟨a83, a95, a105, a115, a116⟩ := Cert.Shared.agree m m' c (hagree c)
  refine ⟨?_, ?_, ?_, ?_, ?_⟩
  · refine (h c Cert.ReferenceIdeal.main_v136).trans ?_
    show _ = Cert.Voxel.out (Cert.KernelIdeal.Arr.pts m c) (Cert.KernelIdeal.Arr.cnts m c)
    rw [Cert.ReferenceIdeal.RefRun.after_ops,
      Cert.ReferenceIdeal.Tail.out_eq _ Cert.KernelIdeal.Gen.shapeCasts_S500000_S500000x1, a83, a95,
      Cert.KernelIdeal.Arr.pts_eq, Cert.KernelIdeal.Arr.cnts_eq, a116]
  · refine (h c Cert.ReferenceIdeal.main_v137).trans ?_
    rw [Cert.ReferenceIdeal.RefRun.after_ops]
    exact Cert.Coord.agree _ _ (a105.trans (Cert.KernelIdeal.Run.exit_v105 m c).symm)
  · refine (h c Cert.ReferenceIdeal.main_v121).trans ?_
    show _ = Cert.Voxel.mask (Cert.KernelIdeal.Arr.cnts m c)
    rw [Cert.ReferenceIdeal.RefRun.after_ops,
      Cert.ReferenceIdeal.Tail.mask_eq _ Cert.KernelIdeal.Gen.shapeCasts_S500000_S500000x1, a95,
      Cert.KernelIdeal.Arr.cnts_eq, a116]
  · refine (h c Cert.ReferenceIdeal.main_v115).trans ?_
    rw [Cert.ReferenceIdeal.RefRun.after_ops, Cert.ReferenceIdeal.Tail.centre_kept, a115]
  · refine (h c Cert.ReferenceIdeal.main_arg0).trans ?_
    rw [Cert.ReferenceIdeal.RefRun.after_ops, Cert.ReferenceIdeal.Tail.arg_kept, Cert.Shared.arg_kept]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
